-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x5000000 : Shape := ⟨2, ![2, 5000000]⟩
abbrev S128x16 : Shape := ⟨2, ![128, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S16 .f32) (main_arg6 : FVec F S16x2 .f32) (main_arg7 : FVec F S2 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x2 .f32 := Host.absf main_arg6
  let main_cst_8 : FVec F S_ .f32 := constant S_ .f32 0x7F800000#32
  let main_v25 : FVec F S16x2 .f32 := broadcastInDim S16x2 ![] bcast_S_S16x2 main_cst_8
  let main_v26 : IVec S16x2 1 := cmpf .olt main_v24 main_v25
  let main_c_9 : IVec S_ 1 := constantI S_ 1 1#1
  let main_v27 : IVec S_ 1 := (fun x v => Host.reduce IntOp.andi x v reducesTo_S16x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S200000x128 .f32) (main_arg1 : IVec S2x5000000 32) (main_arg2 : FVec F S128x16 .f32) (main_arg3 : FVec F S16 .f32) (main_arg4 : FVec F S16x16 .f32) (main_arg5 : FVec F S16 .f32) (main_arg6 : FVec F S16x2 .f32) (main_arg7 : FVec F S2 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_v13 main_v16
-- ==== Kernel.lean ====
abbrev S200000x128 : Shape := ⟨2, ![200000, 128]⟩
abbrev S2x5000000 : Shape := ⟨2, ![2, 5000000]⟩
abbrev S128x16 : Shape := ⟨2, ![128, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S1x5000000 : Shape := ⟨2, ![1, 5000000]⟩
abbrev S5000000 : Shape := ⟨1, ![5000000]⟩
abbrev S200000 : Shape := ⟨1, ![200000]⟩
abbrev S5200000 : Shape := ⟨1, ![5200000]⟩
abbrev S_ : Shape := ⟨0, ![]⟩
abbrev S5200000x1 : Shape := ⟨2, ![5200000, 1]⟩
abbrev S200000x16 : Shape := ⟨2, ![200000, 16]⟩
abbrev S10000x128 : Shape := ⟨2, ![10000, 128]⟩
abbrev S10000x16 : Shape := ⟨2, ![10000, 16]⟩
abbrev S5200000x16 : Shape := ⟨2, ![5200000, 16]⟩
abbrev S1x16 : Shape := ⟨2, ![1, 16]⟩
abbrev S200000x2 : Shape := ⟨2, ![200000, 2]⟩
abbrev S10000x2 : Shape := ⟨2, ![10000, 2]⟩
abbrev S5200000x2 : Shape := ⟨2, ![5200000, 2]⟩
abbrev S1x2 : Shape := ⟨2, ![1, 2]⟩
abbrev S10000 : Shape := ⟨1, ![10000]⟩
abbrev S10000x1 : Shape := ⟨2, ![10000, 1]⟩

abbrev nBuf : Space → Nat
  | .hbm => 108
  | .vmem => 30
  | .smem => 0
  | _ => 0

abbrev bufTy : (tb : Table) → Fin (tcTables nBuf tb) → BufTy
  | .hbm, ⟨0, _⟩ => ⟨S200000x128, .f32⟩
  | .hbm, ⟨1, _⟩ => ⟨S2x5000000, .i32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x2, .f32⟩
  | .hbm, ⟨7, _⟩ => ⟨S2, .f32⟩
  | .hbm, ⟨8, _⟩ => ⟨S1x5000000, .i32⟩
  | .hbm, ⟨9, _⟩ => ⟨S5000000, .i32⟩
  | .hbm, ⟨10, _⟩ => ⟨S1x5000000, .i32⟩
  | .hbm, ⟨11, _⟩ => ⟨S5000000, .i32⟩
  | .hbm, ⟨12, _⟩ => ⟨S200000, .i32⟩
  | .hbm, ⟨13, _⟩ => ⟨S5200000, .i32⟩
  | .hbm, ⟨14, _⟩ => ⟨S5200000, .i32⟩
  | .hbm, ⟨15, _⟩ => ⟨S_, .f32⟩
  | .hbm, ⟨16, _⟩ => ⟨S5200000, .f32⟩
  | .hbm, ⟨17, _⟩ => ⟨S_, .f32⟩
  | .hbm, ⟨18, _⟩ => ⟨S200000, .f32⟩
  | .hbm, ⟨19, _⟩ => ⟨S5200000x1, .i32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .i1⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S200000, .f32⟩
  | .hbm, ⟨28, _⟩ => ⟨S_, .f32⟩
  | .hbm, ⟨29, _⟩ => ⟨S_, .f32⟩
  | .hbm, ⟨30, _⟩ => ⟨S200000, .f32⟩
  | .hbm, ⟨31, _⟩ => ⟨S200000, .f32⟩
  | .hbm, ⟨32, _⟩ => ⟨S_, .i32⟩
  | .hbm, ⟨33, _⟩ => ⟨S5200000, .i32⟩
  | .hbm, ⟨34, _⟩ => ⟨S5200000, .i1⟩
  | .hbm, ⟨35, _⟩ => ⟨S_, .i32⟩
  | .hbm, ⟨36, _⟩ => ⟨S5200000, .i32⟩
  | .hbm, ⟨37, _⟩ => ⟨S5200000, .i32⟩
  | .hbm, ⟨38, _⟩ => ⟨S5200000, .i32⟩
  | .hbm, ⟨39, _⟩ => ⟨S5200000x1, .i32⟩
  | .hbm, ⟨40, _⟩ => ⟨S5200000, .f32⟩
  | .hbm, ⟨41, _⟩ => ⟨S_, .i32⟩
  | .hbm, ⟨42, _⟩ => ⟨S5200000, .i32⟩
  | .hbm, ⟨43, _⟩ => ⟨S5200000, .i1⟩
  | .hbm, ⟨44, _⟩ => ⟨S_, .i32⟩
  | .hbm, ⟨45, _⟩ => ⟨S5200000, .i32⟩
  | .hbm, ⟨46, _⟩ => ⟨S5200000, .i32⟩
  | .hbm, ⟨47, _⟩ => ⟨S5200000, .i32⟩
  | .hbm, ⟨48, _⟩ => ⟨S5200000x1, .i32⟩
  | .hbm, ⟨49, _⟩ => ⟨S5200000, .f32⟩
  | .hbm, ⟨50, _⟩ => ⟨S5200000, .f32⟩
  | .hbm, ⟨51, _⟩ => ⟨S200000x16, .f32⟩
  | .hbm, ⟨52, _⟩ => ⟨S_, .i32⟩
  | .hbm, ⟨53, _⟩ => ⟨S5200000, .i32⟩
  | .hbm, ⟨54, _⟩ => ⟨S5200000, .i1⟩
  | .hbm, ⟨55, _⟩ => ⟨S_, .i32⟩
  | .hbm, ⟨56, _⟩ => ⟨S5200000, .i32⟩
  | .hbm, ⟨57, _⟩ => ⟨S5200000, .i32⟩
  | .hbm, ⟨58, _⟩ => ⟨S5200000, .i32⟩
  | .hbm, ⟨59, _⟩ => ⟨S5200000x1, .i32⟩
  | .hbm, ⟨60, _⟩ => ⟨S5200000x16, .f32⟩
  | .hbm, ⟨61, _⟩ => ⟨S5200000x1, .f32⟩
  | .hbm, ⟨62, _⟩ => ⟨S5200000x16, .f32⟩
  | .hbm, ⟨63, _⟩ => ⟨S5200000x16, .f32⟩
  | .hbm, ⟨64, _⟩ => ⟨S_, .f32⟩
  | .hbm, ⟨65, _⟩ => ⟨S200000x16, .f32⟩
  | .hbm, ⟨66, _⟩ => ⟨S5200000x1, .i32⟩
  | .hbm, ⟨67, _⟩ => ⟨S200000x16, .f32⟩
  | .hbm, ⟨68, _⟩ => ⟨S1x16, .f32⟩
  | .hbm, ⟨69, _⟩ => ⟨S200000x16, .f32⟩
  | .hbm, ⟨70, _⟩ => ⟨S200000x16, .f32⟩
  | .hbm, ⟨71, _⟩ => ⟨S_, .i32⟩
  | .hbm, ⟨72, _⟩ => ⟨S5200000, .i32⟩
  | .hbm, ⟨73, _⟩ => ⟨S5200000, .i1⟩
  | .hbm, ⟨74, _⟩ => ⟨S_, .i32⟩
  | .hbm, ⟨75, _⟩ => ⟨S5200000, .i32⟩
  | .hbm, ⟨76, _⟩ => ⟨S5200000, .i32⟩
  | .hbm, ⟨77, _⟩ => ⟨S5200000, .i32⟩
  | .hbm, ⟨78, _⟩ => ⟨S5200000x1, .i32⟩
  | .hbm, ⟨79, _⟩ => ⟨S5200000x16, .f32⟩
  | .hbm, ⟨80, _⟩ => ⟨S5200000x1, .f32⟩
  | .hbm, ⟨81, _⟩ => ⟨S5200000x16, .f32⟩
  | .hbm, ⟨82, _⟩ => ⟨S5200000x16, .f32⟩
  | .hbm, ⟨83, _⟩ => ⟨S_, .f32⟩
  | .hbm, ⟨84, _⟩ => ⟨S200000x16, .f32⟩
  | .hbm, ⟨85, _⟩ => ⟨S5200000x1, .i32⟩
  | .hbm, ⟨86, _⟩ => ⟨S200000x16, .f32⟩
  | .hbm, ⟨87, _⟩ => ⟨S1x16, .f32⟩
  | .hbm, ⟨88, _⟩ => ⟨S200000x16, .f32⟩
  | .hbm, ⟨89, _⟩ => ⟨S200000x2, .f32⟩
  | .hbm, ⟨90, _⟩ => ⟨S_, .i32⟩
  | .hbm, ⟨91, _⟩ => ⟨S5200000, .i32⟩
  | .hbm, ⟨92, _⟩ => ⟨S5200000, .i1⟩
  | .hbm, ⟨93, _⟩ => ⟨S_, .i32⟩
  | .hbm, ⟨94, _⟩ => ⟨S5200000, .i32⟩
  | .hbm, ⟨95, _⟩ => ⟨S5200000, .i32⟩
  | .hbm, ⟨96, _⟩ => ⟨S5200000, .i32⟩
  | .hbm, ⟨97, _⟩ => ⟨S5200000x1, .i32⟩
  | .hbm, ⟨98, _⟩ => ⟨S5200000x2, .f32⟩
  | .hbm, ⟨99, _⟩ => ⟨S5200000x1, .f32⟩
  | .hbm, ⟨100, _⟩ => ⟨S5200000x2, .f32⟩
  | .hbm, ⟨101, _⟩ => ⟨S5200000x2, .f32⟩
  | .hbm, ⟨102, _⟩ => ⟨S_, .f32⟩
  | .hbm, ⟨103, _⟩ => ⟨S200000x2, .f32⟩
  | .hbm, ⟨104, _⟩ => ⟨S5200000x1, .i32⟩
  | .hbm, ⟨105, _⟩ => ⟨S200000x2, .f32⟩
  | .hbm, ⟨106, _⟩ => ⟨S1x2, .f32⟩
  | .hbm, ⟨107, _⟩ => ⟨S200000x2, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S1x16, .f32⟩
  | .local _ .vmem, ⟨18, _⟩ => ⟨S10000x16, .f32⟩
  | .local _ .vmem, ⟨19, _⟩ => ⟨S10000x16, .f32⟩
  | .local _ .vmem, ⟨20, _⟩ => ⟨S10000x16, .f32⟩
  | .local _ .vmem, ⟨21, _⟩ => ⟨S10000x16, .f32⟩
  | .local _ .vmem, ⟨22, _⟩ => ⟨S16x2, .f32⟩
  | .local _ .vmem, ⟨23, _⟩ => ⟨S10000x2, .f32⟩
  | .local _ .vmem, ⟨24, _⟩ => ⟨S10000x2, .f32⟩
  | .local _ .vmem, ⟨25, _⟩ => ⟨S10000x2, .f32⟩
  | .local _ .vmem, ⟨26, _⟩ => ⟨S10000x2, .f32⟩
  | .local _ .vmem, ⟨27, _⟩ => ⟨S1x2, .f32⟩
  | .local _ .vmem, ⟨28, _⟩ => ⟨S10000x2, .f32⟩
  | .local _ .vmem, ⟨29, _⟩ => ⟨S10000x2, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  concatenates_S5000000_S200000_S5200000_d0 : Shape.Concatenates [S5000000, S200000] S5200000 0
  bcast_S_S5200000 : S_.BroadcastsInDim S5200000 (![] : Fin 0 → Fin S5200000.rank)
  bcast_S_S200000 : S_.BroadcastsInDim S200000 (![] : Fin 0 → Fin S200000.rank)
  bcast_S5200000_S5200000x1_0 : S5200000.BroadcastsInDim S5200000x1 (![0] : Fin 1 → Fin S5200000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S5200000x1_S5200000x16_0_1 : S5200000x1.BroadcastsInDim S5200000x16 (![0, 1] : Fin 2 → Fin S5200000x16.rank)
  bcast_S_S200000x16 : S_.BroadcastsInDim S200000x16 (![] : Fin 0 → Fin S200000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  inb_S16x2_S16x2_0_0 : ∀ a, (![0, 0] : Fin 2 → Nat) a + S16x2.size a ≤ S16x2.size a
  h_S16x2 : 0 < S16x2.numel
  inb_S10000x2_S10000x2_0_0 : ∀ a, (![0, 0] : Fin 2 → Nat) a + S10000x2.size a ≤ S10000x2.size a
  h_S10000x2 : 0 < S10000x2.numel
  bcast_S5200000x1_S5200000x2_0_1 : S5200000x1.BroadcastsInDim S5200000x2 (![0, 1] : Fin 2 → Fin S5200000x2.rank)
  bcast_S_S200000x2 : S_.BroadcastsInDim S200000x2 (![] : Fin 0 → Fin S200000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  scatter_S200000_S5200000x1_S5200000_n_0_0_1_wf : ScatterDims.WF S200000 S5200000x1 S5200000 [] [0] [0] 1
  gather_S200000_S5200000x1_S5200000_n_0_n_n_0_1_1_wf : GatherDims.WF S200000 S5200000x1 S5200000 [] [0] [] [0] [] 1 ![1]
  dot_S10000x128_S128x16_S10000x16_1_0_0_1_n_n_wf : DotDims.WF S10000x128 S128x16 S10000x16 [1] [0] [0] [1] [] []
  gather_S200000x16_S5200000x1_S5200000x16_1_0_n_n_0_1_116_wf : GatherDims.WF S200000x16 S5200000x1 S5200000x16 [1] [0] [] [0] [] 1 ![1, 16]
  scatter_S200000x16_S5200000x1_S5200000x16_1_0_0_1_wf : ScatterDims.WF S200000x16 S5200000x1 S5200000x16 [1] [0] [0] 1
  dot_S10000x16_S16x16_S10000x16_1_0_0_1_n_n_wf : DotDims.WF S10000x16 S16x16 S10000x16 [1] [0] [0] [1] [] []
  dot_S10000x16_S16x2_S10000x2_1_0_0_1_n_n_wf : DotDims.WF S10000x16 S16x2 S10000x2 [1] [0] [0] [1] [] []
  gather_S200000x2_S5200000x1_S5200000x2_1_0_n_n_0_1_12_wf : GatherDims.WF S200000x2 S5200000x1 S5200000x2 [1] [0] [] [0] [] 1 ![1, 2]
  scatter_S200000x2_S5200000x1_S5200000x2_1_0_0_1_wf : ScatterDims.WF S200000x2 S5200000x1 S5200000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S200000x16.size a
  hwx0_2 : ∀ i : grid0.Coords, EltTy.bits .f32 = 32 ∨ (Rect.block (s := S200000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S200000x16.size a
  hwx1_0 : ∀ i : grid1.Coords, EltTy.bits .f32 = 32 ∨ (Rect.block (s := S200000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S200000x16.size a
  hwx1_2 : ∀ i : grid1.Coords, EltTy.bits .f32 = 32 ∨ (Rect.block (s := S200000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S200000x16.size a
  hwx2_0 : ∀ i : grid2.Coords, EltTy.bits .f32 = 32 ∨ (Rect.block (s := S200000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S200000x16.size a
  hwx2_2 : ∀ i : grid2.Coords, EltTy.bits .f32 = 32 ∨ (Rect.block (s := S200000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S200000x16.size a
  hwx3_0 : ∀ i : grid3.Coords, EltTy.bits .f32 = 32 ∨ (Rect.block (s := S200000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S200000x16.size a
  hwx3_2 : ∀ i : grid3.Coords, EltTy.bits .f32 = 32 ∨ (Rect.block (s := S200000x16) S10000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S200000x16.size a
  hwx4_0 : ∀ i : grid4.Coords, EltTy.bits .f32 = 32 ∨ (Rect.block (s := S200000x16) S10000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x2.size a ≤ S16x2.size a
  hwx4_1 : ∀ i : grid4.Coords, EltTy.bits .f32 = 32 ∨ (Rect.block (s := S16x2) S16x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x2.size a ≤ S200000x2.size a
  hwx4_2 : ∀ i : grid4.Coords, EltTy.bits .f32 = 32 ∨ (Rect.block (s := S200000x2) S10000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x2.size a ≤ S200000x2.size a
  hwx5_0 : ∀ i : grid5.Coords, EltTy.bits .f32 = 32 ∨ (Rect.block (s := S200000x2) S10000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x2.size a ≤ S200000x2.size a
  hwx5_2 : ∀ i : grid5.Coords, EltTy.bits .f32 = 32 ∨ (Rect.block (s := S200000x2) S10000x2.size (cc5_transform_2 i) (hinb5_2 i)).WholeWords (EltTy.packing .f32)

variable [Facts₀]

def scatter_S200000_S5200000x1_S5200000_n_0_0_1 : ScatterDims S200000 S5200000x1 S5200000 where
  updateWindowDims := []
  insertedWindowDims := [0]
  scatterDimsToOperandDims := [0]
  indexVectorDim := 1
  wf := scatter_S200000_S5200000x1_S5200000_n_0_0_1_wf
def gather_S200000_S5200000x1_S5200000_n_0_n_n_0_1_1 : GatherDims S200000 S5200000x1 S5200000 where
  offsetDims := []
  collapsedSliceDims := [0]
  operandBatchingDims := []
  startIndicesBatchingDims := []
  startIndexMap := [0]
  indexVectorDim := 1
  sliceSizes := ![1]
  wf := gather_S200000_S5200000x1_S5200000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S200000x16_S5200000x1_S5200000x16_1_0_n_n_0_1_116 : GatherDims S200000x16 S5200000x1 S5200000x16 where
  offsetDims := [1]
  collapsedSliceDims := [0]
  operandBatchingDims := []
  startIndicesBatchingDims := []
  startIndexMap := [0]
  indexVectorDim := 1
  sliceSizes := ![1, 16]
  wf := gather_S200000x16_S5200000x1_S5200000x16_1_0_n_n_0_1_116_wf
def scatter_S200000x16_S5200000x1_S5200000x16_1_0_0_1 : ScatterDims S200000x16 S5200000x1 S5200000x16 where
  updateWindowDims := [1]
  insertedWindowDims := [0]
  scatterDimsToOperandDims := [0]
  indexVectorDim := 1
  wf := scatter_S200000x16_S5200000x1_S5200000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S200000x2_S5200000x1_S5200000x2_1_0_n_n_0_1_12 : GatherDims S200000x2 S5200000x1 S5200000x2 where
  offsetDims := [1]
  collapsedSliceDims := [0]
  operandBatchingDims := []
  startIndicesBatchingDims := []
  startIndexMap := [0]
  indexVectorDim := 1
  sliceSizes := ![1, 2]
  wf := gather_S200000x2_S5200000x1_S5200000x2_1_0_n_n_0_1_12_wf
def scatter_S200000x2_S5200000x1_S5200000x2_1_0_0_1 : ScatterDims S200000x2 S5200000x1 S5200000x2 where
  updateWindowDims := [1]
  insertedWindowDims := [0]
  scatterDimsToOperandDims := [0]
  indexVectorDim := 1
  wf := scatter_S200000x2_S5200000x1_S5200000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S16x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S10000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S200000x128 : Shape := ⟨2, ![200000, 128]⟩
abbrev S2x5000000 : Shape := ⟨2, ![2, 5000000]⟩
abbrev S128x16 : Shape := ⟨2, ![128, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S1x5000000 : Shape := ⟨2, ![1, 5000000]⟩
abbrev S5000000 : Shape := ⟨1, ![5000000]⟩
abbrev S200000 : Shape := ⟨1, ![200000]⟩
abbrev S5200000 : Shape := ⟨1, ![5200000]⟩
abbrev S_ : Shape := ⟨0, ![]⟩
abbrev S5200000x1 : Shape := ⟨2, ![5200000, 1]⟩
abbrev S200000x16 : Shape := ⟨2, ![200000, 16]⟩
abbrev S5200000x16 : Shape := ⟨2, ![5200000, 16]⟩
abbrev S1x16 : Shape := ⟨2, ![1, 16]⟩
abbrev S200000x2 : Shape := ⟨2, ![200000, 2]⟩
abbrev S5200000x2 : Shape := ⟨2, ![5200000, 2]⟩
abbrev S1x2 : Shape := ⟨2, ![1, 2]⟩
abbrev S200000x1 : Shape := ⟨2, ![200000, 1]⟩

abbrev nBuf : Space → Nat
  | .hbm => 132
  | .vmem => 0
  | .smem => 0
  | _ => 0

abbrev hbmTy0_0 (i : Nat) : BufTy := match i % 128 with
  | 0 => ⟨S200000x128, .f32⟩
  | 1 => ⟨S2x5000000, .i32⟩
  | 2 => ⟨S128x16, .f32⟩
  | 3 => ⟨S16, .f32⟩
  | 4 => ⟨S16x16, .f32⟩
  | 5 => ⟨S16, .f32⟩
  | 6 => ⟨S16x2, .f32⟩
  | 7 => ⟨S2, .f32⟩
  | 8 => ⟨S1x5000000, .i32⟩
  | 9 => ⟨S5000000, .i32⟩
  | 10 => ⟨S1x5000000, .i32⟩
  | 11 => ⟨S5000000, .i32⟩
  | 12 => ⟨S200000, .i32⟩
  | 13 => ⟨S5200000, .i32⟩
  | 14 => ⟨S5200000, .i32⟩
  | 15 => ⟨S_, .f32⟩
  | 16 => ⟨S5200000, .f32⟩
  | 17 => ⟨S_, .f32⟩
  | 18 => ⟨S200000, .f32⟩
  | 19 => ⟨S5200000x1, .i32⟩
  | 20 => ⟨S200000, .f32⟩
  | 21 => ⟨S_, .f32⟩
  | 22 => ⟨S200000, .f32⟩
  | 23 => ⟨S200000, .i1⟩
  | 24 => ⟨S_, .f32⟩
  | 25 => ⟨S200000, .f32⟩
  | 26 => ⟨S200000, .f32⟩
  | 27 => ⟨S200000, .f32⟩
  | 28 => ⟨S_, .f32⟩
  | 29 => ⟨S_, .f32⟩
  | 30 => ⟨S200000, .f32⟩
  | 31 => ⟨S200000, .f32⟩
  | 32 => ⟨S_, .i32⟩
  | 33 => ⟨S5200000, .i32⟩
  | 34 => ⟨S5200000, .i1⟩
  | 35 => ⟨S_, .i32⟩
  | 36 => ⟨S5200000, .i32⟩
  | 37 => ⟨S5200000, .i32⟩
  | 38 => ⟨S5200000, .i32⟩
  | 39 => ⟨S5200000x1, .i32⟩
  | 40 => ⟨S5200000, .f32⟩
  | 41 => ⟨S_, .i32⟩
  | 42 => ⟨S5200000, .i32⟩
  | 43 => ⟨S5200000, .i1⟩
  | 44 => ⟨S_, .i32⟩
  | 45 => ⟨S5200000, .i32⟩
  | 46 => ⟨S5200000, .i32⟩
  | 47 => ⟨S5200000, .i32⟩
  | 48 => ⟨S5200000x1, .i32⟩
  | 49 => ⟨S5200000, .f32⟩
  | 50 => ⟨S5200000, .f32⟩
  | 51 => ⟨S200000x16, .f32⟩
  | 52 => ⟨S_, .i32⟩
  | 53 => ⟨S5200000, .i32⟩
  | 54 => ⟨S5200000, .i1⟩
  | 55 => ⟨S_, .i32⟩
  | 56 => ⟨S5200000, .i32⟩
  | 57 => ⟨S5200000, .i32⟩
  | 58 => ⟨S5200000, .i32⟩
  | 59 => ⟨S5200000x1, .i32⟩
  | 60 => ⟨S5200000x16, .f32⟩
  | 61 => ⟨S5200000x1, .f32⟩
  | 62 => ⟨S5200000x16, .f32⟩
  | 63 => ⟨S5200000x16, .f32⟩
  | 64 => ⟨S_, .f32⟩
  | 65 => ⟨S200000x16, .f32⟩
  | 66 => ⟨S5200000x1, .i32⟩
  | 67 => ⟨S200000x16, .f32⟩
  | 68 => ⟨S1x16, .f32⟩
  | 69 => ⟨S200000x16, .f32⟩
  | 70 => ⟨S200000x16, .f32⟩
  | 71 => ⟨S_, .f32⟩
  | 72 => ⟨S200000x16, .f32⟩
  | 73 => ⟨S200000x16, .f32⟩
  | 74 => ⟨S200000x16, .f32⟩
  | 75 => ⟨S_, .i32⟩
  | 76 => ⟨S5200000, .i32⟩
  | 77 => ⟨S5200000, .i1⟩
  | 78 => ⟨S_, .i32⟩
  | 79 => ⟨S5200000, .i32⟩
  | 80 => ⟨S5200000, .i32⟩
  | 81 => ⟨S5200000, .i32⟩
  | 82 => ⟨S5200000x1, .i32⟩
  | 83 => ⟨S5200000x16, .f32⟩
  | 84 => ⟨S5200000x1, .f32⟩
  | 85 => ⟨S5200000x16, .f32⟩
  | 86 => ⟨S5200000x16, .f32⟩
  | 87 => ⟨S_, .f32⟩
  | 88 => ⟨S200000x16, .f32⟩
  | 89 => ⟨S5200000x1, .i32⟩
  | 90 => ⟨S200000x16, .f32⟩
  | 91 => ⟨S1x16, .f32⟩
  | 92 => ⟨S200000x16, .f32⟩
  | 93 => ⟨S200000x16, .f32⟩
  | 94 => ⟨S_, .f32⟩
  | 95 => ⟨S200000x16, .f32⟩
  | 96 => ⟨S200000x16, .f32⟩
  | 97 => ⟨S200000x2, .f32⟩
  | 98 => ⟨S_, .i32⟩
  | 99 => ⟨S5200000, .i32⟩
  | 100 => ⟨S5200000, .i1⟩
  | 101 => ⟨S_, .i32⟩
  | 102 => ⟨S5200000, .i32⟩
  | 103 => ⟨S5200000, .i32⟩
  | 104 => ⟨S5200000, .i32⟩
  | 105 => ⟨S5200000x1, .i32⟩
  | 106 => ⟨S5200000x2, .f32⟩
  | 107 => ⟨S5200000x1, .f32⟩
  | 108 => ⟨S5200000x2, .f32⟩
  | 109 => ⟨S5200000x2, .f32⟩
  | 110 => ⟨S_, .f32⟩
  | 111 => ⟨S200000x2, .f32⟩
  | 112 => ⟨S5200000x1, .i32⟩
  | 113 => ⟨S200000x2, .f32⟩
  | 114 => ⟨S1x2, .f32⟩
  | 115 => ⟨S200000x2, .f32⟩
  | 116 => ⟨S200000x2, .f32⟩
  | 117 => ⟨S_, .f32⟩
  | 118 => ⟨S200000, .f32⟩
  | 119 => ⟨S_, .f32⟩
  | 120 => ⟨S200000, .f32⟩
  | 121 => ⟨S200000, .f32⟩
  | 122 => ⟨S200000x1, .f32⟩
  | 123 => ⟨S200000x2, .f32⟩
  | 124 => ⟨S200000x2, .f32⟩
  | 125 => ⟨S200000x2, .f32⟩
  | 126 => ⟨S_, .f32⟩
  | 127 => ⟨S200000, .f32⟩
  | _ => ⟨S200000x128, .f32⟩

abbrev hbmTy0_1 (i : Nat) : BufTy := match i % 128 with
  | 0 => ⟨S200000x1, .f32⟩
  | 1 => ⟨S200000x1, .f32⟩
  | 2 => ⟨S200000x2, .f32⟩
  | 3 => ⟨S200000x2, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_call3_cst_0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_v6 : Ref sig .tc := ⟨.hbm, 125, rfl⟩
abbrev main_call3_cst_1 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_v85 : Ref sig .tc := ⟨.hbm, 131, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  concatenates_S5000000_S200000_S5200000_d0 : Shape.Concatenates [S5000000, S200000] S5200000 0
  bcast_S_S5200000 : S_.BroadcastsInDim S5200000 (![] : Fin 0 → Fin S5200000.rank)
  bcast_S_S200000 : S_.BroadcastsInDim S200000 (![] : Fin 0 → Fin S200000.rank)
  bcast_S5200000_S5200000x1_0 : S5200000.BroadcastsInDim S5200000x1 (![0] : Fin 1 → Fin S5200000x1.rank)
  bcast_S5200000x1_S5200000x16_0_1 : S5200000x1.BroadcastsInDim S5200000x16 (![0, 1] : Fin 2 → Fin S5200000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S5200000x1_S5200000x2_0_1 : S5200000x1.BroadcastsInDim S5200000x2 (![0, 1] : Fin 2 → Fin S5200000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  bcast_S200000_S200000x1_0 : S200000.BroadcastsInDim S200000x1 (![0] : Fin 1 → Fin S200000x1.rank)
  bcast_S200000x1_S200000x2_0_1 : S200000x1.BroadcastsInDim S200000x2 (![0, 1] : Fin 2 → Fin S200000x2.rank)
  scatter_S200000_S5200000x1_S5200000_n_0_0_1_wf : ScatterDims.WF S200000 S5200000x1 S5200000 [] [0] [0] 1
  gather_S200000_S5200000x1_S5200000_n_0_n_n_0_1_1_wf : GatherDims.WF S200000 S5200000x1 S5200000 [] [0] [] [0] [] 1 ![1]
  dot_S200000x128_S128x16_S200000x16_1_0_0_1_n_n_wf : DotDims.WF S200000x128 S128x16 S200000x16 [1] [0] [0] [1] [] []
  gather_S200000x16_S5200000x1_S5200000x16_1_0_n_n_0_1_116_wf : GatherDims.WF S200000x16 S5200000x1 S5200000x16 [1] [0] [] [0] [] 1 ![1, 16]
  scatter_S200000x16_S5200000x1_S5200000x16_1_0_0_1_wf : ScatterDims.WF S200000x16 S5200000x1 S5200000x16 [1] [0] [0] 1
  dot_S200000x16_S16x16_S200000x16_1_0_0_1_n_n_wf : DotDims.WF S200000x16 S16x16 S200000x16 [1] [0] [0] [1] [] []
  dot_S200000x16_S16x2_S200000x2_1_0_0_1_n_n_wf : DotDims.WF S200000x16 S16x2 S200000x2 [1] [0] [0] [1] [] []
  gather_S200000x2_S5200000x1_S5200000x2_1_0_n_n_0_1_12_wf : GatherDims.WF S200000x2 S5200000x1 S5200000x2 [1] [0] [] [0] [] 1 ![1, 2]
  scatter_S200000x2_S5200000x1_S5200000x2_1_0_0_1_wf : ScatterDims.WF S200000x2 S5200000x1 S5200000x2 [1] [0] [0] 1

variable [Facts₀]

def scatter_S200000_S5200000x1_S5200000_n_0_0_1 : ScatterDims S200000 S5200000x1 S5200000 where
  updateWindowDims := []
  insertedWindowDims := [0]
  scatterDimsToOperandDims := [0]
  indexVectorDim := 1
  wf := scatter_S200000_S5200000x1_S5200000_n_0_0_1_wf
def gather_S200000_S5200000x1_S5200000_n_0_n_n_0_1_1 : GatherDims S200000 S5200000x1 S5200000 where
  offsetDims := []
  collapsedSliceDims := [0]
  operandBatchingDims := []
  startIndicesBatchingDims := []
  startIndexMap := [0]
  indexVectorDim := 1
  sliceSizes := ![1]
  wf := gather_S200000_S5200000x1_S5200000_n_0_n_n_0_1_1_wf
def dot_S200000x128_S128x16_S200000x16_1_0_0_1_n_n : DotDims S200000x128 S128x16 S200000x16 where
  lhsContracting := [1]
  rhsContracting := [0]
  lhsNonContracting := [0]
  rhsNonContracting := [1]
  lhsBatch := []
  rhsBatch := []
  wf := dot_S200000x128_S128x16_S200000x16_1_0_0_1_n_n_wf
def gather_S200000x16_S5200000x1_S5200000x16_1_0_n_n_0_1_116 : GatherDims S200000x16 S5200000x1 S5200000x16 where
  offsetDims := [1]
  collapsedSliceDims := [0]
  operandBatchingDims := []
  startIndicesBatchingDims := []
  startIndexMap := [0]
  indexVectorDim := 1
  sliceSizes := ![1, 16]
  wf := gather_S200000x16_S5200000x1_S5200000x16_1_0_n_n_0_1_116_wf
def scatter_S200000x16_S5200000x1_S5200000x16_1_0_0_1 : ScatterDims S200000x16 S5200000x1 S5200000x16 where
  updateWindowDims := [1]
  insertedWindowDims := [0]
  scatterDimsToOperandDims := [0]
  indexVectorDim := 1
  wf := scatter_S200000x16_S5200000x1_S5200000x16_1_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf
def gather_S200000x2_S5200000x1_S5200000x2_1_0_n_n_0_1_12 : GatherDims S200000x2 S5200000x1 S5200000x2 where
  offsetDims := [1]
  collapsedSliceDims := [0]
  operandBatchingDims := []
  startIndicesBatchingDims := []
  startIndexMap := [0]
  indexVectorDim := 1
  sliceSizes := ![1, 2]
  wf := gather_S200000x2_S5200000x1_S5200000x2_1_0_n_n_0_1_12_wf
def scatter_S200000x2_S5200000x1_S5200000x2_1_0_0_1 : ScatterDims S200000x2 S5200000x1 S5200000x2 where
  updateWindowDims := [1]
  insertedWindowDims := [0]
  scatterDimsToOperandDims := [0]
  indexVectorDim := 1
  wf := scatter_S200000x2_S5200000x1_S5200000x2_1_0_0_1_wf

class Facts : Prop extends Facts₀ where

variable [Facts]
-- ==== Proof.RefOps.lean ====
/-
  The reference program as a list of operations, in five stretches.

  The reference is one straight line of 124 host operations: the edge tables; the degrees and the edge weights; and the
  three layers. The fold of the whole line over a memory is the fold of the five stretches in turn.
-/
import proofs.«158534_j79087527788732_1_alg».proof.Proof.Gen.ReferenceIdeal
import Idealize.ShloMosaic.Lib.StableHlo.Run

set_option maxRecDepth 16384

noncomputable section

namespace Cert.ReferenceIdeal.Value

open Cert.ReferenceIdeal Cert.ReferenceIdeal.Gen
open Idealize.ShloMosaic Idealize.ShloMosaic.TcCoe Idealize.SL.Sem Idealize.ShloMosaic.StableHlo

variable {F : FTy → Type} [FloatOps F]

/-- The first seven operations: the two edge tables with the self-loops appended. -/
abbrev opsEdges : List (HloOp τ sig (Elt F)) :=
  [ unary main_arg1 main_v0 ((extractStridedSlice S1x5000000 ![0, 0] · slices_S2x5000000_S1x5000000_0_0) : (⟨S2x5000000, .i32⟩ : BufTy).Contents (Elt F) → (⟨S1x5000000, .i32⟩ : BufTy).Contents (Elt F)),
    reshape main_v0 main_v1 rfl shapeCasts_S1x5000000_S5000000,
    unary main_arg1 main_v2 ((extractStridedSlice S1x5000000 ![1, 0] · slices_S2x5000000_S1x5000000_1_0) : (⟨S2x5000000, .i32⟩ : BufTy).Contents (Elt F) → (⟨S1x5000000, .i32⟩ : BufTy).Contents (Elt F)),
    reshape main_v2 main_v3 rfl shapeCasts_S1x5000000_S5000000,
    nullary main_v4 (iotaInDim S200000 32 0),
    binary main_v1 main_v4 main_v5 ((fun a b => concatenate S5200000 0 [⟨S5000000, a⟩, ⟨S200000, b⟩] concatenates_S5000000_S200000_S5200000_d0) : (⟨S5000000, .i32⟩ : BufTy).Contents (Elt F) → (⟨S200000, .i32⟩ : BufTy).Contents (Elt F) → (⟨S5200000, .i32⟩ : BufTy).Contents (Elt F)),
    binary main_v3 main_v4 main_v6 ((fun a b => concatenate S5200000 0 [⟨S5000000, a⟩, ⟨S200000, b⟩] concatenates_S5000000_S200000_S5200000_d0) : (⟨S5000000, .i32⟩ : BufTy).Contents (Elt F) → (⟨S200000, .i32⟩ : BufTy).Contents (Elt F) → (⟨S5200000, .i32⟩ : BufTy).Contents (Elt F)) ]

/-- The next 36: the degrees, their inverse square roots, and the edge weights. -/
abbrev opsWeights : List (HloOp τ sig (Elt F)) :=
  [ nullary main_cst (constant S_ .f32 0x3F800000#32),
    unary main_cst main_v7 (broadcastInDim S5200000 ![] bcast_S_S5200000 : (⟨S_, .f32⟩ : BufTy).Contents (Elt F) → (⟨S5200000, .f32⟩ : BufTy).Contents (Elt F)),
    nullary main_cst_0 (constant S_ .f32 0x00000000#32),
    unary main_cst_0 main_v8 (broadcastInDim S200000 ![] bcast_S_S200000 : (⟨S_, .f32⟩ : BufTy).Contents (Elt F) → (⟨S200000, .f32⟩ : BufTy).Contents (Elt F)),
    unary main_v6 main_v9 (broadcastInDim S5200000x1 ![0] bcast_S5200000_S5200000x1_0 : (⟨S5200000, .i32⟩ : BufTy).Contents (Elt F) → (⟨S5200000x1, .i32⟩ : BufTy).Contents (Elt F)),
    ternary main_v8 main_v9 main_v7 main_v10 ((fun x i u => Host.scatterAdd scatter_S200000_S5200000x1_S5200000_n_0_0_1 x i u) : (⟨S200000, .f32⟩ : BufTy).Contents (Elt F) → (⟨S5200000x1, .i32⟩ : BufTy).Contents (Elt F) → (⟨S5200000, .f32⟩ : BufTy).Contents (Elt F) → (⟨S200000, .f32⟩ : BufTy).Contents (Elt F)),
    nullary main_cst_1 (constant S_ .f32 0x00000000#32),
    unary main_cst_1 main_v11 (broadcastInDim S200000 ![] bcast_S_S200000 : (⟨S_, .f32⟩ : BufTy).Contents (Elt F) → (⟨S200000, .f32⟩ : BufTy).Contents (Elt F)),
    binary main_v10 main_v11 main_v12 (cmpf .ogt : (⟨S200000, .f32⟩ : BufTy).Contents (Elt F) → (⟨S200000, .f32⟩ : BufTy).Contents (Elt F) → (⟨S200000, .i1⟩ : BufTy).Contents (Elt F)),
    nullary main_cst_2 (constant S_ .f32 0x3F800000#32),
    unary main_cst_2 main_v13 (broadcastInDim S200000 ![] bcast_S_S200000 : (⟨S_, .f32⟩ : BufTy).Contents (Elt F) → (⟨S200000, .f32⟩ : BufTy).Contents (Elt F)),
    binary main_v10 main_v13 main_v14 (maximumf : (⟨S200000, .f32⟩ : BufTy).Contents (Elt F) → (⟨S200000, .f32⟩ : BufTy).Contents (Elt F) → (⟨S200000, .f32⟩ : BufTy).Contents (Elt F)),
    unary main_v14 main_v15 (Host.rsqrt : (⟨S200000, .f32⟩ : BufTy).Contents (Elt F) → (⟨S200000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S200000, .f32⟩) main_call0_v1) (broadcastInDim S200000 ![] bcast_S_S200000),
    TRef.ternary (TRef.of (T := ⟨S200000, .i1⟩) main_v12) (TRef.of (T := ⟨S200000, .f32⟩) main_v15) (TRef.of (T := ⟨S200000, .f32⟩) main_call0_v1) (TRef.of (T := ⟨S200000, .f32⟩) main_v16) select,
    nullary main_c (constantI S_ 32 0#32),
    unary main_c main_v17 (broadcastInDim S5200000 ![] bcast_S_S5200000 : (⟨S_, .i32⟩ : BufTy).Contents (Elt F) → (⟨S5200000, .i32⟩ : BufTy).Contents (Elt F)),
    binary main_v5 main_v17 main_v18 (cmpi .slt : (⟨S5200000, .i32⟩ : BufTy).Contents (Elt F) → (⟨S5200000, .i32⟩ : BufTy).Contents (Elt F) → (⟨S5200000, .i1⟩ : BufTy).Contents (Elt F)),
    nullary main_c_4 (constantI S_ 32 200000#32),
    unary main_c_4 main_v19 (broadcastInDim S5200000 ![] bcast_S_S5200000 : (⟨S_, .i32⟩ : BufTy).Contents (Elt F) → (⟨S5200000, .i32⟩ : BufTy).Contents (Elt F)),
    binary main_v5 main_v19 main_v20 (addi : (⟨S5200000, .i32⟩ : BufTy).Contents (Elt F) → (⟨S5200000, .i32⟩ : BufTy).Contents (Elt F) → (⟨S5200000, .i32⟩ : BufTy).Contents (Elt F)),
    ternary main_v18 main_v20 main_v5 main_v21 (select : (⟨S5200000, .i1⟩ : BufTy).Contents (Elt F) → (⟨S5200000, .i32⟩ : BufTy).Contents (Elt F) → (⟨S5200000, .i32⟩ : BufTy).Contents (Elt F) → (⟨S5200000, .i32⟩ : BufTy).Contents (Elt F)),
    unary main_v21 main_v22 (broadcastInDim S5200000x1 ![0] bcast_S5200000_S5200000x1_0 : (⟨S5200000, .i32⟩ : BufTy).Contents (Elt F) → (⟨S5200000x1, .i32⟩ : BufTy).Contents (Elt F)),
    binary main_v16 main_v22 main_v23 ((fun x i => Host.gather gather_S200000_S5200000x1_S5200000_n_0_n_n_0_1_1 x i) : (⟨S200000, .f32⟩ : BufTy).Contents (Elt F) → (⟨S5200000x1, .i32⟩ : BufTy).Contents (Elt F) → (⟨S5200000, .f32⟩ : BufTy).Contents (Elt F)),
    nullary main_c_5 (constantI S_ 32 0#32),
    unary main_c_5 main_v24 (broadcastInDim S5200000 ![] bcast_S_S5200000 : (⟨S_, .i32⟩ : BufTy).Contents (Elt F) → (⟨S5200000, .i32⟩ : BufTy).Contents (Elt F)),
    binary main_v6 main_v24 main_v25 (cmpi .slt : (⟨S5200000, .i32⟩ : BufTy).Contents (Elt F) → (⟨S5200000, .i32⟩ : BufTy).Contents (Elt F) → (⟨S5200000, .i1⟩ : BufTy).Contents (Elt F)),
    nullary main_c_6 (constantI S_ 32 200000#32),
    unary main_c_6 main_v26 (broadcastInDim S5200000 ![] bcast_S_S5200000 : (⟨S_, .i32⟩ : BufTy).Contents (Elt F) → (⟨S5200000, .i32⟩ : BufTy).Contents (Elt F)),
    binary main_v6 main_v26 main_v27 (addi : (⟨S5200000, .i32⟩ : BufTy).Contents (Elt F) → (⟨S5200000, .i32⟩ : BufTy).Contents (Elt F) → (⟨S5200000, .i32⟩ : BufTy).Contents (Elt F)),
    ternary main_v25 main_v27 main_v6 main_v28 (select : (⟨S5200000, .i1⟩ : BufTy).Contents (Elt F) → (⟨S5200000, .i32⟩ : BufTy).Contents (Elt F) → (⟨S5200000, .i32⟩ : BufTy).Contents (Elt F) → (⟨S5200000, .i32⟩ : BufTy).Contents (Elt F)),
    unary main_v28 main_v29 (broadcastInDim S5200000x1 ![0] bcast_S5200000_S5200000x1_0 : (⟨S5200000, .i32⟩ : BufTy).Contents (Elt F) → (⟨S5200000x1, .i32⟩ : BufTy).Contents (Elt F)),
    binary main_v16 main_v29 main_v30 ((fun x i => Host.gather gather_S200000_S5200000x1_S5200000_n_0_n_n_0_1_1 x i) : (⟨S200000, .f32⟩ : BufTy).Contents (Elt F) → (⟨S5200000x1, .i32⟩ : BufTy).Contents (Elt F) → (⟨S5200000, .f32⟩ : BufTy).Contents (Elt F)),
    binary main_v23 main_v30 main_v31 (mulf : (⟨S5200000, .f32⟩ : BufTy).Contents (Elt F) → (⟨S5200000, .f32⟩ : BufTy).Contents (Elt F) → (⟨S5200000, .f32⟩ : BufTy).Contents (Elt F)) ]

/-- The next 23: the first layer. -/
abbrev opsLayer1 : List (HloOp τ sig (Elt F)) :=
  [ binary main_arg0 main_arg2 main_v32 ((fun l r => Host.dotGeneral dot_S200000x128_S128x16_S200000x16_1_0_0_1_n_n none l r) : (⟨S200000x128, .f32⟩ : BufTy).Contents (Elt F) → (⟨S128x16, .f32⟩ : BufTy).Contents (Elt F) → (⟨S200000x16, .f32⟩ : BufTy).Contents (Elt F)),
    nullary main_c_7 (constantI S_ 32 0#32),
    unary main_c_7 main_v33 (broadcastInDim S5200000 ![] bcast_S_S5200000 : (⟨S_, .i32⟩ : BufTy).Contents (Elt F) → (⟨S5200000, .i32⟩ : BufTy).Contents (Elt F)),
    binary main_v5 main_v33 main_v34 (cmpi .slt : (⟨S5200000, .i32⟩ : BufTy).Contents (Elt F) → (⟨S5200000, .i32⟩ : BufTy).Contents (Elt F) → (⟨S5200000, .i1⟩ : BufTy).Contents (Elt F)),
    nullary main_c_8 (constantI S_ 32 200000#32),
    unary main_c_8 main_v35 (broadcastInDim S5200000 ![] bcast_S_S5200000 : (⟨S_, .i32⟩ : BufTy).Contents (Elt F) → (⟨S5200000, .i32⟩ : BufTy).Contents (Elt F)),
    binary main_v5 main_v35 main_v36 (addi : (⟨S5200000, .i32⟩ : BufTy).Contents (Elt F) → (⟨S5200000, .i32⟩ : BufTy).Contents (Elt F) → (⟨S5200000, .i32⟩ : BufTy).Contents (Elt F)),
    ternary main_v34 main_v36 main_v5 main_v37 (select : (⟨S5200000, .i1⟩ : BufTy).Contents (Elt F) → (⟨S5200000, .i32⟩ : BufTy).Contents (Elt F) → (⟨S5200000, .i32⟩ : BufTy).Contents (Elt F) → (⟨S5200000, .i32⟩ : BufTy).Contents (Elt F)),
    unary main_v37 main_v38 (broadcastInDim S5200000x1 ![0] bcast_S5200000_S5200000x1_0 : (⟨S5200000, .i32⟩ : BufTy).Contents (Elt F) → (⟨S5200000x1, .i32⟩ : BufTy).Contents (Elt F)),
    binary main_v32 main_v38 main_v39 ((fun x i => Host.gather gather_S200000x16_S5200000x1_S5200000x16_1_0_n_n_0_1_116 x i) : (⟨S200000x16, .f32⟩ : BufTy).Contents (Elt F) → (⟨S5200000x1, .i32⟩ : BufTy).Contents (Elt F) → (⟨S5200000x16, .f32⟩ : BufTy).Contents (Elt F)),
    unary main_v31 main_v40 (broadcastInDim S5200000x1 ![0] bcast_S5200000_S5200000x1_0 : (⟨S5200000, .f32⟩ : BufTy).Contents (Elt F) → (⟨S5200000x1, .f32⟩ : BufTy).Contents (Elt F)),
    unary main_v40 main_v41 (broadcastInDim S5200000x16 ![0, 1] bcast_S5200000x1_S5200000x16_0_1 : (⟨S5200000x1, .f32⟩ : BufTy).Contents (Elt F) → (⟨S5200000x16, .f32⟩ : BufTy).Contents (Elt F)),
    binary main_v39 main_v41 main_v42 (mulf : (⟨S5200000x16, .f32⟩ : BufTy).Contents (Elt F) → (⟨S5200000x16, .f32⟩ : BufTy).Contents (Elt F) → (⟨S5200000x16, .f32⟩ : BufTy).Contents (Elt F)),
    nullary main_cst_9 (constant S_ .f32 0x00000000#32),
    unary main_cst_9 main_v43 (broadcastInDim S200000x16 ![] bcast_S_S200000x16 : (⟨S_, .f32⟩ : BufTy).Contents (Elt F) → (⟨S200000x16, .f32⟩ : BufTy).Contents (Elt F)),
    unary main_v6 main_v44 (broadcastInDim S5200000x1 ![0] bcast_S5200000_S5200000x1_0 : (⟨S5200000, .i32⟩ : BufTy).Contents (Elt F) → (⟨S5200000x1, .i32⟩ : BufTy).Contents (Elt F)),
    ternary main_v43 main_v44 main_v42 main_v45 ((fun x i u => Host.scatterAdd scatter_S200000x16_S5200000x1_S5200000x16_1_0_0_1 x i u) : (⟨S200000x16, .f32⟩ : BufTy).Contents (Elt F) → (⟨S5200000x1, .i32⟩ : BufTy).Contents (Elt F) → (⟨S5200000x16, .f32⟩ : BufTy).Contents (Elt F) → (⟨S200000x16, .f32⟩ : BufTy).Contents (Elt F)),
    unary main_arg3 main_v46 (broadcastInDim S1x16 ![1] bcast_S16_S1x16_1 : (⟨S16, .f32⟩ : BufTy).Contents (Elt F) → (⟨S1x16, .f32⟩ : BufTy).Contents (Elt F)),
    unary main_v46 main_v47 (broadcastInDim S200000x16 ![0, 1] bcast_S1x16_S200000x16_0_1 : (⟨S1x16, .f32⟩ : BufTy).Contents (Elt F) → (⟨S200000x16, .f32⟩ : BufTy).Contents (Elt F)),
    binary main_v45 main_v47 main_v48 (addf : (⟨S200000x16, .f32⟩ : BufTy).Contents (Elt F) → (⟨S200000x16, .f32⟩ : BufTy).Contents (Elt F) → (⟨S200000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S200000x16, .f32⟩) main_call1_v0) (broadcastInDim S200000x16 ![] bcast_S_S200000x16),
    TRef.binary (TRef.of (T := ⟨S200000x16, .f32⟩) main_v48) (TRef.of (T := ⟨S200000x16, .f32⟩) main_call1_v0) (TRef.of (T := ⟨S200000x16, .f32⟩) main_v49) maximumf ]

/-- The next 23: the second layer. -/
abbrev opsLayer2 : List (HloOp τ sig (Elt F)) :=
  [ binary main_v49 main_arg4 main_v50 ((fun l r => Host.dotGeneral dot_S200000x16_S16x16_S200000x16_1_0_0_1_n_n none l r) : (⟨S200000x16, .f32⟩ : BufTy).Contents (Elt F) → (⟨S16x16, .f32⟩ : BufTy).Contents (Elt F) → (⟨S200000x16, .f32⟩ : BufTy).Contents (Elt F)),
    nullary main_c_10 (constantI S_ 32 0#32),
    unary main_c_10 main_v51 (broadcastInDim S5200000 ![] bcast_S_S5200000 : (⟨S_, .i32⟩ : BufTy).Contents (Elt F) → (⟨S5200000, .i32⟩ : BufTy).Contents (Elt F)),
    binary main_v5 main_v51 main_v52 (cmpi .slt : (⟨S5200000, .i32⟩ : BufTy).Contents (Elt F) → (⟨S5200000, .i32⟩ : BufTy).Contents (Elt F) → (⟨S5200000, .i1⟩ : BufTy).Contents (Elt F)),
    nullary main_c_11 (constantI S_ 32 200000#32),
    unary main_c_11 main_v53 (broadcastInDim S5200000 ![] bcast_S_S5200000 : (⟨S_, .i32⟩ : BufTy).Contents (Elt F) → (⟨S5200000, .i32⟩ : BufTy).Contents (Elt F)),
    binary main_v5 main_v53 main_v54 (addi : (⟨S5200000, .i32⟩ : BufTy).Contents (Elt F) → (⟨S5200000, .i32⟩ : BufTy).Contents (Elt F) → (⟨S5200000, .i32⟩ : BufTy).Contents (Elt F)),
    ternary main_v52 main_v54 main_v5 main_v55 (select : (⟨S5200000, .i1⟩ : BufTy).Contents (Elt F) → (⟨S5200000, .i32⟩ : BufTy).Contents (Elt F) → (⟨S5200000, .i32⟩ : BufTy).Contents (Elt F) → (⟨S5200000, .i32⟩ : BufTy).Contents (Elt F)),
    unary main_v55 main_v56 (broadcastInDim S5200000x1 ![0] bcast_S5200000_S5200000x1_0 : (⟨S5200000, .i32⟩ : BufTy).Contents (Elt F) → (⟨S5200000x1, .i32⟩ : BufTy).Contents (Elt F)),
    binary main_v50 main_v56 main_v57 ((fun x i => Host.gather gather_S200000x16_S5200000x1_S5200000x16_1_0_n_n_0_1_116 x i) : (⟨S200000x16, .f32⟩ : BufTy).Contents (Elt F) → (⟨S5200000x1, .i32⟩ : BufTy).Contents (Elt F) → (⟨S5200000x16, .f32⟩ : BufTy).Contents (Elt F)),
    unary main_v31 main_v58 (broadcastInDim S5200000x1 ![0] bcast_S5200000_S5200000x1_0 : (⟨S5200000, .f32⟩ : BufTy).Contents (Elt F) → (⟨S5200000x1, .f32⟩ : BufTy).Contents (Elt F)),
    unary main_v58 main_v59 (broadcastInDim S5200000x16 ![0, 1] bcast_S5200000x1_S5200000x16_0_1 : (⟨S5200000x1, .f32⟩ : BufTy).Contents (Elt F) → (⟨S5200000x16, .f32⟩ : BufTy).Contents (Elt F)),
    binary main_v57 main_v59 main_v60 (mulf : (⟨S5200000x16, .f32⟩ : BufTy).Contents (Elt F) → (⟨S5200000x16, .f32⟩ : BufTy).Contents (Elt F) → (⟨S5200000x16, .f32⟩ : BufTy).Contents (Elt F)),
    nullary main_cst_12 (constant S_ .f32 0x00000000#32),
    unary main_cst_12 main_v61 (broadcastInDim S200000x16 ![] bcast_S_S200000x16 : (⟨S_, .f32⟩ : BufTy).Contents (Elt F) → (⟨S200000x16, .f32⟩ : BufTy).Contents (Elt F)),
    unary main_v6 main_v62 (broadcastInDim S5200000x1 ![0] bcast_S5200000_S5200000x1_0 : (⟨S5200000, .i32⟩ : BufTy).Contents (Elt F) → (⟨S5200000x1, .i32⟩ : BufTy).Contents (Elt F)),
    ternary main_v61 main_v62 main_v60 main_v63 ((fun x i u => Host.scatterAdd scatter_S200000x16_S5200000x1_S5200000x16_1_0_0_1 x i u) : (⟨S200000x16, .f32⟩ : BufTy).Contents (Elt F) → (⟨S5200000x1, .i32⟩ : BufTy).Contents (Elt F) → (⟨S5200000x16, .f32⟩ : BufTy).Contents (Elt F) → (⟨S200000x16, .f32⟩ : BufTy).Contents (Elt F)),
    unary main_arg5 main_v64 (broadcastInDim S1x16 ![1] bcast_S16_S1x16_1 : (⟨S16, .f32⟩ : BufTy).Contents (Elt F) → (⟨S1x16, .f32⟩ : BufTy).Contents (Elt F)),
    unary main_v64 main_v65 (broadcastInDim S200000x16 ![0, 1] bcast_S1x16_S200000x16_0_1 : (⟨S1x16, .f32⟩ : BufTy).Contents (Elt F) → (⟨S200000x16, .f32⟩ : BufTy).Contents (Elt F)),
    binary main_v63 main_v65 main_v66 (addf : (⟨S200000x16, .f32⟩ : BufTy).Contents (Elt F) → (⟨S200000x16, .f32⟩ : BufTy).Contents (Elt F) → (⟨S200000x16, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S200000x16, .f32⟩) main_call2_v0) (broadcastInDim S200000x16 ![] bcast_S_S200000x16),
    TRef.binary (TRef.of (T := ⟨S200000x16, .f32⟩) main_v66) (TRef.of (T := ⟨S200000x16, .f32⟩) main_call2_v0) (TRef.of (T := ⟨S200000x16, .f32⟩) main_v67) maximumf ]

/-- The last 35: the last layer and the logarithm of the row-wise softmax. -/
abbrev opsLayer3 : List (HloOp τ sig (Elt F)) :=
  [ binary main_v67 main_arg6 main_v68 ((fun l r => Host.dotGeneral dot_S200000x16_S16x2_S200000x2_1_0_0_1_n_n none l r) : (⟨S200000x16, .f32⟩ : BufTy).Contents (Elt F) → (⟨S16x2, .f32⟩ : BufTy).Contents (Elt F) → (⟨S200000x2, .f32⟩ : BufTy).Contents (Elt F)),
    nullary main_c_13 (constantI S_ 32 0#32),
    unary main_c_13 main_v69 (broadcastInDim S5200000 ![] bcast_S_S5200000 : (⟨S_, .i32⟩ : BufTy).Contents (Elt F) → (⟨S5200000, .i32⟩ : BufTy).Contents (Elt F)),
    binary main_v5 main_v69 main_v70 (cmpi .slt : (⟨S5200000, .i32⟩ : BufTy).Contents (Elt F) → (⟨S5200000, .i32⟩ : BufTy).Contents (Elt F) → (⟨S5200000, .i1⟩ : BufTy).Contents (Elt F)),
    nullary main_c_14 (constantI S_ 32 200000#32),
    unary main_c_14 main_v71 (broadcastInDim S5200000 ![] bcast_S_S5200000 : (⟨S_, .i32⟩ : BufTy).Contents (Elt F) → (⟨S5200000, .i32⟩ : BufTy).Contents (Elt F)),
    binary main_v5 main_v71 main_v72 (addi : (⟨S5200000, .i32⟩ : BufTy).Contents (Elt F) → (⟨S5200000, .i32⟩ : BufTy).Contents (Elt F) → (⟨S5200000, .i32⟩ : BufTy).Contents (Elt F)),
    ternary main_v70 main_v72 main_v5 main_v73 (select : (⟨S5200000, .i1⟩ : BufTy).Contents (Elt F) → (⟨S5200000, .i32⟩ : BufTy).Contents (Elt F) → (⟨S5200000, .i32⟩ : BufTy).Contents (Elt F) → (⟨S5200000, .i32⟩ : BufTy).Contents (Elt F)),
    unary main_v73 main_v74 (broadcastInDim S5200000x1 ![0] bcast_S5200000_S5200000x1_0 : (⟨S5200000, .i32⟩ : BufTy).Contents (Elt F) → (⟨S5200000x1, .i32⟩ : BufTy).Contents (Elt F)),
    binary main_v68 main_v74 main_v75 ((fun x i => Host.gather gather_S200000x2_S5200000x1_S5200000x2_1_0_n_n_0_1_12 x i) : (⟨S200000x2, .f32⟩ : BufTy).Contents (Elt F) → (⟨S5200000x1, .i32⟩ : BufTy).Contents (Elt F) → (⟨S5200000x2, .f32⟩ : BufTy).Contents (Elt F)),
    unary main_v31 main_v76 (broadcastInDim S5200000x1 ![0] bcast_S5200000_S5200000x1_0 : (⟨S5200000, .f32⟩ : BufTy).Contents (Elt F) → (⟨S5200000x1, .f32⟩ : BufTy).Contents (Elt F)),
    unary main_v76 main_v77 (broadcastInDim S5200000x2 ![0, 1] bcast_S5200000x1_S5200000x2_0_1 : (⟨S5200000x1, .f32⟩ : BufTy).Contents (Elt F) → (⟨S5200000x2, .f32⟩ : BufTy).Contents (Elt F)),
    binary main_v75 main_v77 main_v78 (mulf : (⟨S5200000x2, .f32⟩ : BufTy).Contents (Elt F) → (⟨S5200000x2, .f32⟩ : BufTy).Contents (Elt F) → (⟨S5200000x2, .f32⟩ : BufTy).Contents (Elt F)),
    nullary main_cst_15 (constant S_ .f32 0x00000000#32),
    unary main_cst_15 main_v79 (broadcastInDim S200000x2 ![] bcast_S_S200000x2 : (⟨S_, .f32⟩ : BufTy).Contents (Elt F) → (⟨S200000x2, .f32⟩ : BufTy).Contents (Elt F)),
    unary main_v6 main_v80 (broadcastInDim S5200000x1 ![0] bcast_S5200000_S5200000x1_0 : (⟨S5200000, .i32⟩ : BufTy).Contents (Elt F) → (⟨S5200000x1, .i32⟩ : BufTy).Contents (Elt F)),
    ternary main_v79 main_v80 main_v78 main_v81 ((fun x i u => Host.scatterAdd scatter_S200000x2_S5200000x1_S5200000x2_1_0_0_1 x i u) : (⟨S200000x2, .f32⟩ : BufTy).Contents (Elt F) → (⟨S5200000x1, .i32⟩ : BufTy).Contents (Elt F) → (⟨S5200000x2, .f32⟩ : BufTy).Contents (Elt F) → (⟨S200000x2, .f32⟩ : BufTy).Contents (Elt F)),
    unary main_arg7 main_v82 (broadcastInDim S1x2 ![1] bcast_S2_S1x2_1 : (⟨S2, .f32⟩ : BufTy).Contents (Elt F) → (⟨S1x2, .f32⟩ : BufTy).Contents (Elt F)),
    unary main_v82 main_v83 (broadcastInDim S200000x2 ![0, 1] bcast_S1x2_S200000x2_0_1 : (⟨S1x2, .f32⟩ : BufTy).Contents (Elt F) → (⟨S200000x2, .f32⟩ : BufTy).Contents (Elt F)),
    binary main_v81 main_v83 main_v84 (addf : (⟨S200000x2, .f32⟩ : BufTy).Contents (Elt F) → (⟨S200000x2, .f32⟩ : BufTy).Contents (Elt F) → (⟨S200000x2, .f32⟩ : BufTy).Contents (Elt F)),
    TRef.nullary (TRef.of (T := ⟨S_, .f32⟩) main_call3_cst) (constant S_ .f32 0xFF800000#32),
    TRef.binary (TRef.of (T := ⟨S200000x2, .f32⟩) main_v84) (TRef.of (T := ⟨S_, .f32⟩) main_call3_cst) (TRef.of (T := ⟨S200000, .f32⟩) main_call3_v0) (fun x v => Host.reduce FloatOps.maximumf x v reducesTo_S200000x2_S200000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S200000, .f32⟩) main_call3_v1) (broadcastInDim S200000 ![] bcast_S_S200000),
    TRef.binary (TRef.of (T := ⟨S200000, .f32⟩) main_call3_v1) (TRef.of (T := ⟨S200000, .f32⟩) main_call3_v0) (TRef.of (T := ⟨S200000, .f32⟩) main_call3_v2) maximumf,
    TRef.unary (TRef.of (T := ⟨S200000, .f32⟩) main_call3_v2) (TRef.of (T := ⟨S200000x1, .f32⟩) main_call3_v3) (broadcastInDim S200000x1 ![0] bcast_S200000_S200000x1_0),
    TRef.unary (TRef.of (T := ⟨S200000x1, .f32⟩) main_call3_v3) (TRef.of (T := ⟨S200000x2, .f32⟩) main_call3_v4) (broadcastInDim S200000x2 ![0, 1] bcast_S200000x1_S200000x2_0_1),
    TRef.binary (TRef.of (T := ⟨S200000x2, .f32⟩) main_v84) (TRef.of (T := ⟨S200000x2, .f32⟩) main_call3_v4) (TRef.of (T := ⟨S200000x2, .f32⟩) main_call3_v5) subf,
    TRef.unary (TRef.of (T := ⟨S200000x2, .f32⟩) main_call3_v5) (TRef.of (T := ⟨S200000x2, .f32⟩) main_call3_v6) Host.exp,
    TRef.nullary (TRef.of (T := ⟨S_, .f32⟩) main_call3_cst_1) (constant S_ .f32 0x00000000#32),
    TRef.binary (TRef.of (T := ⟨S200000x2, .f32⟩) main_call3_v6) (TRef.of (T := ⟨S_, .f32⟩) main_call3_cst_1) (TRef.of (T := ⟨S200000, .f32⟩) main_call3_v7) (fun x v => Host.reduceAdd x v reducesTo_S200000x2_S200000_d1 h_S_),
    TRef.unary (TRef.of (T := ⟨S200000, .f32⟩) main_call3_v7) (TRef.of (T := ⟨S200000x1, .f32⟩) main_call3_v8) (broadcastInDim S200000x1 ![0] bcast_S200000_S200000x1_0),
    TRef.unary (TRef.of (T := ⟨S200000x1, .f32⟩) main_call3_v8) (TRef.of (T := ⟨S200000x1, .f32⟩) main_call3_v9) Host.log,
    TRef.unary (TRef.of (T := ⟨S200000x1, .f32⟩) main_call3_v9) (TRef.of (T := ⟨S200000x2, .f32⟩) main_call3_v10) (broadcastInDim S200000x2 ![0, 1] bcast_S200000x1_S200000x2_0_1),
    TRef.binary (TRef.of (T := ⟨S200000x2, .f32⟩) main_call3_v5) (TRef.of (T := ⟨S200000x2, .f32⟩) main_call3_v10) (TRef.of (T := ⟨S200000x2, .f32⟩) main_v85) subf ]

/-- @main's 124 operations, in order (a called function's operations stand in its call's place). -/
abbrev ops : List (HloOp τ sig (Elt F)) := opsEdges ++ (opsWeights ++ (opsLayer1 ++ (opsLayer2 ++ opsLayer3)))

set_option maxRecDepth 65536 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- The fold over the whole line is the fold over the five stretches in turn. -/
theorem after_ops (W : Valuation τ sig (Elt F)) :
    after ops W = after opsLayer3 (after opsLayer2 (after opsLayer1 (after opsWeights (after opsEdges W)))) := rfl

/-- No operation of a stretch writes the buffer: one inequality of references per operation. -/
macro "not_written" : tactic => `(tactic| (
  refine List.forall_iff_forall_mem.mp ?_
  simp only [ops, opsEdges, opsWeights, opsLayer1, opsLayer2, opsLayer3, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

end Cert.ReferenceIdeal.Value

end
-- ==== Proof.RefOpsFacts.lean ====
/-
  The reference's operations touch TensorCore buffers only and allocate none.
-/
import proofs.«158534_j79087527788732_1_alg».proof.Proof.RefOps

set_option maxRecDepth 16384

noncomputable section

namespace Cert.ReferenceIdeal.Value

open Cert.ReferenceIdeal Cert.ReferenceIdeal.Gen
open Idealize.ShloMosaic Idealize.ShloMosaic.TcCoe Idealize.SL.Sem Idealize.ShloMosaic.StableHlo

variable {F : FTy → Type} [FloatOps F]

set_option maxRecDepth 65536 in
theorem ops_sub : (ops : List (HloOp τ sig (Elt F))).Forall fun op => op.bufs ⊆ tcRefs τ sig := by
  show List.Forall _ [ _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _ ]
  exact
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- No operation of the line allocates a buffer. -/
theorem ops_fresh : (ops : List (HloOp τ sig (Elt F))).Forall fun op => op.fresh = ∅ := by
  simp only [ops, opsEdges, opsWeights, opsLayer1, opsLayer2, opsLayer3, List.cons_append, List.nil_append, List.Forall]
  repeat' constructor

end Cert.ReferenceIdeal.Value

end
-- ==== Proof.RefStretchA.lean ====
/-
  The reference's first stretch: the source and target tables are the stages of those names.
-/
import proofs.«158534_j79087527788732_1_alg».proof.Proof.RefOps
import proofs.«158534_j79087527788732_1_alg».proof.Proof.RefRead

set_option maxRecDepth 16384

noncomputable section

namespace Cert.ReferenceIdeal.Value

open Cert.ReferenceIdeal Cert.ReferenceIdeal.Gen
open Idealize.ShloMosaic Idealize.ShloMosaic.TcCoe Idealize.SL.Sem Idealize.ShloMosaic.StableHlo

open Cert.ReferenceIdeal.Read

variable (U : Valuation τ sig (Elt Ideal)) (x0 : (⟨S200000x128, .f32⟩ : BufTy).Contents (Elt Ideal)) (x1 : (⟨S2x5000000, .i32⟩ : BufTy).Contents (Elt Ideal))
    (x2 : (⟨S128x16, .f32⟩ : BufTy).Contents (Elt Ideal)) (x3 : (⟨S16, .f32⟩ : BufTy).Contents (Elt Ideal))
    (x4 : (⟨S16x16, .f32⟩ : BufTy).Contents (Elt Ideal)) (x5 : (⟨S16, .f32⟩ : BufTy).Contents (Elt Ideal))
    (x6 : (⟨S16x2, .f32⟩ : BufTy).Contents (Elt Ideal)) (x7 : (⟨S2, .f32⟩ : BufTy).Contents (Elt Ideal))

/-- The source table. -/
theorem edges_src : after (opsEdges (F := Ideal)) U (Proc.devRef .tc main_v5) = val_main_v5 (F := Ideal) (U (Proc.devRef .tc main_arg1)) := by
  dsimp only [opsEdges]
  after_results_simp <;> rfl

/-- The target table. -/
theorem edges_dst : after (opsEdges (F := Ideal)) U (Proc.devRef .tc main_v6) = val_main_v6 (F := Ideal) (U (Proc.devRef .tc main_arg1)) := by
  dsimp only [opsEdges]
  after_results_simp <;> rfl

end Cert.ReferenceIdeal.Value

end
-- ==== Proof.RefStretchB.lean ====
/-
  The reference's second stretch: the edge weights from the two tables.
-/
import proofs.«158534_j79087527788732_1_alg».proof.Proof.RefOps
import proofs.«158534_j79087527788732_1_alg».proof.Proof.RefRead

set_option maxRecDepth 16384

noncomputable section

namespace Cert.ReferenceIdeal.Value

open Cert.ReferenceIdeal Cert.ReferenceIdeal.Gen
open Idealize.ShloMosaic Idealize.ShloMosaic.TcCoe Idealize.SL.Sem Idealize.ShloMosaic.StableHlo

open Cert.ReferenceIdeal.Read

variable (U : Valuation τ sig (Elt Ideal)) (x0 : (⟨S200000x128, .f32⟩ : BufTy).Contents (Elt Ideal)) (x1 : (⟨S2x5000000, .i32⟩ : BufTy).Contents (Elt Ideal))
    (x2 : (⟨S128x16, .f32⟩ : BufTy).Contents (Elt Ideal)) (x3 : (⟨S16, .f32⟩ : BufTy).Contents (Elt Ideal))
    (x4 : (⟨S16x16, .f32⟩ : BufTy).Contents (Elt Ideal)) (x5 : (⟨S16, .f32⟩ : BufTy).Contents (Elt Ideal))
    (x6 : (⟨S16x2, .f32⟩ : BufTy).Contents (Elt Ideal)) (x7 : (⟨S2, .f32⟩ : BufTy).Contents (Elt Ideal))

/-! A called function's values sit in their buffers through a change of type that is the identity: the buffer's declared type
    is the value's. -/

theorem toBuf_main_cst_3_w (e hd hs) (v : (⟨S_, .f32⟩ : BufTy).Contents (Elt Ideal)) :
    (TRef.of (sig := sig) (T := ⟨S_, .f32⟩) main_cst_3 e hd hs).toBuf v = v := eq_of_heq (cast_heq _ _)
theorem ofBuf_main_cst_3_w (e hd hs) (v : (⟨S_, .f32⟩ : BufTy).Contents (Elt Ideal)) :
    (TRef.of (sig := sig) (T := ⟨S_, .f32⟩) main_cst_3 e hd hs).ofBuf v = v := eq_of_heq (cast_heq _ _)
theorem toBuf_main_call0_v0_w (e hd hs) (v : (⟨S_, .f32⟩ : BufTy).Contents (Elt Ideal)) :
    (TRef.of (sig := sig) (T := ⟨S_, .f32⟩) main_call0_v0 e hd hs).toBuf v = v := eq_of_heq (cast_heq _ _)
theorem ofBuf_main_call0_v0_w (e hd hs) (v : (⟨S_, .f32⟩ : BufTy).Contents (Elt Ideal)) :
    (TRef.of (sig := sig) (T := ⟨S_, .f32⟩) main_call0_v0 e hd hs).ofBuf v = v := eq_of_heq (cast_heq _ _)
theorem toBuf_main_call0_v1_w (e hd hs) (v : (⟨S200000, .f32⟩ : BufTy).Contents (Elt Ideal)) :
    (TRef.of (sig := sig) (T := ⟨S200000, .f32⟩) main_call0_v1 e hd hs).toBuf v = v := eq_of_heq (cast_heq _ _)
theorem ofBuf_main_call0_v1_w (e hd hs) (v : (⟨S200000, .f32⟩ : BufTy).Contents (Elt Ideal)) :
    (TRef.of (sig := sig) (T := ⟨S200000, .f32⟩) main_call0_v1 e hd hs).ofBuf v = v := eq_of_heq (cast_heq _ _)
theorem toBuf_main_v12_w (e hd hs) (v : (⟨S200000, .i1⟩ : BufTy).Contents (Elt Ideal)) :
    (TRef.of (sig := sig) (T := ⟨S200000, .i1⟩) main_v12 e hd hs).toBuf v = v := eq_of_heq (cast_heq _ _)
theorem ofBuf_main_v12_w (e hd hs) (v : (⟨S200000, .i1⟩ : BufTy).Contents (Elt Ideal)) :
    (TRef.of (sig := sig) (T := ⟨S200000, .i1⟩) main_v12 e hd hs).ofBuf v = v := eq_of_heq (cast_heq _ _)
theorem toBuf_main_v15_w (e hd hs) (v : (⟨S200000, .f32⟩ : BufTy).Contents (Elt Ideal)) :
    (TRef.of (sig := sig) (T := ⟨S200000, .f32⟩) main_v15 e hd hs).toBuf v = v := eq_of_heq (cast_heq _ _)
theorem ofBuf_main_v15_w (e hd hs) (v : (⟨S200000, .f32⟩ : BufTy).Contents (Elt Ideal)) :
    (TRef.of (sig := sig) (T := ⟨S200000, .f32⟩) main_v15 e hd hs).ofBuf v = v := eq_of_heq (cast_heq _ _)
theorem toBuf_main_v16_w (e hd hs) (v : (⟨S200000, .f32⟩ : BufTy).Contents (Elt Ideal)) :
    (TRef.of (sig := sig) (T := ⟨S200000, .f32⟩) main_v16 e hd hs).toBuf v = v := eq_of_heq (cast_heq _ _)
theorem ofBuf_main_v16_w (e hd hs) (v : (⟨S200000, .f32⟩ : BufTy).Contents (Elt Ideal)) :
    (TRef.of (sig := sig) (T := ⟨S200000, .f32⟩) main_v16 e hd hs).ofBuf v = v := eq_of_heq (cast_heq _ _)

/-- The edge weights, from the two tables. -/
theorem weights_eq (h5 : U (Proc.devRef .tc main_v5) = val_main_v5 (F := Ideal) x1) (h6 : U (Proc.devRef .tc main_v6) = val_main_v6 (F := Ideal) x1) :
    after (opsWeights (F := Ideal)) U (Proc.devRef .tc main_v31) = val_main_v31 (F := Ideal) x1 := by
  dsimp only [opsWeights]
  after_results_simp
  simp only [toBuf_main_cst_3_w, ofBuf_main_cst_3_w, toBuf_main_call0_v0_w, ofBuf_main_call0_v0_w, toBuf_main_call0_v1_w, ofBuf_main_call0_v1_w, toBuf_main_v12_w, ofBuf_main_v12_w, toBuf_main_v15_w, ofBuf_main_v15_w, toBuf_main_v16_w, ofBuf_main_v16_w]
  -- the stages of this stretch, opened down to the buffers it reads
  simp only [val_main_v31, val_main_v30, val_main_v29, val_main_v28, val_main_v27, val_main_v26, val_main_c_6, val_main_v25, val_main_v24, val_main_c_5, val_main_v23, val_main_v22, val_main_v21, val_main_v20, val_main_v19, val_main_c_4, val_main_v18, val_main_v17, val_main_c, val_main_v16, val_main_call0_v1, val_main_call0_v0, val_main_cst_3, val_main_v15, val_main_v14, val_main_v13, val_main_cst_2, val_main_v12, val_main_v11, val_main_cst_1, val_main_v10, val_main_v9, val_main_v8, val_main_cst_0, val_main_v7, val_main_cst]
  rw [h5, h6]
  all_goals rfl

end Cert.ReferenceIdeal.Value

end
-- ==== Proof.RefStretchC.lean ====
/-
  The reference's third stretch: the first layer's activations.
-/
import proofs.«158534_j79087527788732_1_alg».proof.Proof.RefOps
import proofs.«158534_j79087527788732_1_alg».proof.Proof.RefRead

set_option maxRecDepth 16384

noncomputable section

namespace Cert.ReferenceIdeal.Value

open Cert.ReferenceIdeal Cert.ReferenceIdeal.Gen
open Idealize.ShloMosaic Idealize.ShloMosaic.TcCoe Idealize.SL.Sem Idealize.ShloMosaic.StableHlo

open Cert.ReferenceIdeal.Read

variable (U : Valuation τ sig (Elt Ideal)) (x0 : (⟨S200000x128, .f32⟩ : BufTy).Contents (Elt Ideal)) (x1 : (⟨S2x5000000, .i32⟩ : BufTy).Contents (Elt Ideal))
    (x2 : (⟨S128x16, .f32⟩ : BufTy).Contents (Elt Ideal)) (x3 : (⟨S16, .f32⟩ : BufTy).Contents (Elt Ideal))
    (x4 : (⟨S16x16, .f32⟩ : BufTy).Contents (Elt Ideal)) (x5 : (⟨S16, .f32⟩ : BufTy).Contents (Elt Ideal))
    (x6 : (⟨S16x2, .f32⟩ : BufTy).Contents (Elt Ideal)) (x7 : (⟨S2, .f32⟩ : BufTy).Contents (Elt Ideal))

/-! A called function's values sit in their buffers through a change of type that is the identity: the buffer's declared type
    is the value's. -/

theorem toBuf_main_call1_cst_l1 (e hd hs) (v : (⟨S_, .f32⟩ : BufTy).Contents (Elt Ideal)) :
    (TRef.of (sig := sig) (T := ⟨S_, .f32⟩) main_call1_cst e hd hs).toBuf v = v := eq_of_heq (cast_heq _ _)
theorem ofBuf_main_call1_cst_l1 (e hd hs) (v : (⟨S_, .f32⟩ : BufTy).Contents (Elt Ideal)) :
    (TRef.of (sig := sig) (T := ⟨S_, .f32⟩) main_call1_cst e hd hs).ofBuf v = v := eq_of_heq (cast_heq _ _)
theorem toBuf_main_call1_v0_l1 (e hd hs) (v : (⟨S200000x16, .f32⟩ : BufTy).Contents (Elt Ideal)) :
    (TRef.of (sig := sig) (T := ⟨S200000x16, .f32⟩) main_call1_v0 e hd hs).toBuf v = v := eq_of_heq (cast_heq _ _)
theorem ofBuf_main_call1_v0_l1 (e hd hs) (v : (⟨S200000x16, .f32⟩ : BufTy).Contents (Elt Ideal)) :
    (TRef.of (sig := sig) (T := ⟨S200000x16, .f32⟩) main_call1_v0 e hd hs).ofBuf v = v := eq_of_heq (cast_heq _ _)
theorem toBuf_main_v48_l1 (e hd hs) (v : (⟨S200000x16, .f32⟩ : BufTy).Contents (Elt Ideal)) :
    (TRef.of (sig := sig) (T := ⟨S200000x16, .f32⟩) main_v48 e hd hs).toBuf v = v := eq_of_heq (cast_heq _ _)
theorem ofBuf_main_v48_l1 (e hd hs) (v : (⟨S200000x16, .f32⟩ : BufTy).Contents (Elt Ideal)) :
    (TRef.of (sig := sig) (T := ⟨S200000x16, .f32⟩) main_v48 e hd hs).ofBuf v = v := eq_of_heq (cast_heq _ _)
theorem toBuf_main_v49_l1 (e hd hs) (v : (⟨S200000x16, .f32⟩ : BufTy).Contents (Elt Ideal)) :
    (TRef.of (sig := sig) (T := ⟨S200000x16, .f32⟩) main_v49 e hd hs).toBuf v = v := eq_of_heq (cast_heq _ _)
theorem ofBuf_main_v49_l1 (e hd hs) (v : (⟨S200000x16, .f32⟩ : BufTy).Contents (Elt Ideal)) :
    (TRef.of (sig := sig) (T := ⟨S200000x16, .f32⟩) main_v49 e hd hs).ofBuf v = v := eq_of_heq (cast_heq _ _)

/-- The first layer's activations, from the tables, the weights and the first three dense arguments. -/
theorem layer1_eq (h5 : U (Proc.devRef .tc main_v5) = val_main_v5 (F := Ideal) x1) (h6 : U (Proc.devRef .tc main_v6) = val_main_v6 (F := Ideal) x1)
    (h31 : U (Proc.devRef .tc main_v31) = val_main_v31 (F := Ideal) x1)
    (a0 : U (Proc.devRef .tc main_arg0) = x0) (a2 : U (Proc.devRef .tc main_arg2) = x2) (a3 : U (Proc.devRef .tc main_arg3) = x3) :
    after (opsLayer1 (F := Ideal)) U (Proc.devRef .tc main_v49) = val_main_v49 (F := Ideal) x0 x1 x2 x3 := by
  dsimp only [opsLayer1]
  after_results_simp
  simp only [toBuf_main_call1_cst_l1, ofBuf_main_call1_cst_l1, toBuf_main_call1_v0_l1, ofBuf_main_call1_v0_l1, toBuf_main_v48_l1, ofBuf_main_v48_l1, toBuf_main_v49_l1, ofBuf_main_v49_l1]
  -- the stages of this stretch, opened down to the buffers it reads
  simp only [val_main_v49, val_main_call1_v0, val_main_call1_cst, val_main_v48, val_main_v47, val_main_v46, val_main_v45, val_main_v44, val_main_v43, val_main_cst_9, val_main_v42, val_main_v41, val_main_v40, val_main_v39, val_main_v38, val_main_v37, val_main_v36, val_main_v35, val_main_c_8, val_main_v34, val_main_v33, val_main_c_7, val_main_v32]
  rw [h5, h6, h31, a0, a2, a3]
  all_goals rfl

end Cert.ReferenceIdeal.Value

end
-- ==== Proof.RefStretchD.lean ====
/-
  The reference's fourth stretch: the second layer's activations.
-/
import proofs.«158534_j79087527788732_1_alg».proof.Proof.RefOps
import proofs.«158534_j79087527788732_1_alg».proof.Proof.RefRead

set_option maxRecDepth 16384

noncomputable section

namespace Cert.ReferenceIdeal.Value

open Cert.ReferenceIdeal Cert.ReferenceIdeal.Gen
open Idealize.ShloMosaic Idealize.ShloMosaic.TcCoe Idealize.SL.Sem Idealize.ShloMosaic.StableHlo

open Cert.ReferenceIdeal.Read

variable (U : Valuation τ sig (Elt Ideal)) (x0 : (⟨S200000x128, .f32⟩ : BufTy).Contents (Elt Ideal)) (x1 : (⟨S2x5000000, .i32⟩ : BufTy).Contents (Elt Ideal))
    (x2 : (⟨S128x16, .f32⟩ : BufTy).Contents (Elt Ideal)) (x3 : (⟨S16, .f32⟩ : BufTy).Contents (Elt Ideal))
    (x4 : (⟨S16x16, .f32⟩ : BufTy).Contents (Elt Ideal)) (x5 : (⟨S16, .f32⟩ : BufTy).Contents (Elt Ideal))
    (x6 : (⟨S16x2, .f32⟩ : BufTy).Contents (Elt Ideal)) (x7 : (⟨S2, .f32⟩ : BufTy).Contents (Elt Ideal))

/-! A called function's values sit in their buffers through a change of type that is the identity: the buffer's declared type
    is the value's. -/

theorem toBuf_main_call2_cst_l2 (e hd hs) (v : (⟨S_, .f32⟩ : BufTy).Contents (Elt Ideal)) :
    (TRef.of (sig := sig) (T := ⟨S_, .f32⟩) main_call2_cst e hd hs).toBuf v = v := eq_of_heq (cast_heq _ _)
theorem ofBuf_main_call2_cst_l2 (e hd hs) (v : (⟨S_, .f32⟩ : BufTy).Contents (Elt Ideal)) :
    (TRef.of (sig := sig) (T := ⟨S_, .f32⟩) main_call2_cst e hd hs).ofBuf v = v := eq_of_heq (cast_heq _ _)
theorem toBuf_main_call2_v0_l2 (e hd hs) (v : (⟨S200000x16, .f32⟩ : BufTy).Contents (Elt Ideal)) :
    (TRef.of (sig := sig) (T := ⟨S200000x16, .f32⟩) main_call2_v0 e hd hs).toBuf v = v := eq_of_heq (cast_heq _ _)
theorem ofBuf_main_call2_v0_l2 (e hd hs) (v : (⟨S200000x16, .f32⟩ : BufTy).Contents (Elt Ideal)) :
    (TRef.of (sig := sig) (T := ⟨S200000x16, .f32⟩) main_call2_v0 e hd hs).ofBuf v = v := eq_of_heq (cast_heq _ _)
theorem toBuf_main_v66_l2 (e hd hs) (v : (⟨S200000x16, .f32⟩ : BufTy).Contents (Elt Ideal)) :
    (TRef.of (sig := sig) (T := ⟨S200000x16, .f32⟩) main_v66 e hd hs).toBuf v = v := eq_of_heq (cast_heq _ _)
theorem ofBuf_main_v66_l2 (e hd hs) (v : (⟨S200000x16, .f32⟩ : BufTy).Contents (Elt Ideal)) :
    (TRef.of (sig := sig) (T := ⟨S200000x16, .f32⟩) main_v66 e hd hs).ofBuf v = v := eq_of_heq (cast_heq _ _)
theorem toBuf_main_v67_l2 (e hd hs) (v : (⟨S200000x16, .f32⟩ : BufTy).Contents (Elt Ideal)) :
    (TRef.of (sig := sig) (T := ⟨S200000x16, .f32⟩) main_v67 e hd hs).toBuf v = v := eq_of_heq (cast_heq _ _)
theorem ofBuf_main_v67_l2 (e hd hs) (v : (⟨S200000x16, .f32⟩ : BufTy).Contents (Elt Ideal)) :
    (TRef.of (sig := sig) (T := ⟨S200000x16, .f32⟩) main_v67 e hd hs).ofBuf v = v := eq_of_heq (cast_heq _ _)

/-- The second layer's activations, from the first's. -/
theorem layer2_eq (h5 : U (Proc.devRef .tc main_v5) = val_main_v5 (F := Ideal) x1) (h6 : U (Proc.devRef .tc main_v6) = val_main_v6 (F := Ideal) x1)
    (h31 : U (Proc.devRef .tc main_v31) = val_main_v31 (F := Ideal) x1)
    (h49 : U (Proc.devRef .tc main_v49) = val_main_v49 (F := Ideal) x0 x1 x2 x3)
    (a4 : U (Proc.devRef .tc main_arg4) = x4) (a5 : U (Proc.devRef .tc main_arg5) = x5) :
    after (opsLayer2 (F := Ideal)) U (Proc.devRef .tc main_v67) = val_main_v67 (F := Ideal) x0 x1 x2 x3 x4 x5 := by
  dsimp only [opsLayer2]
  after_results_simp
  simp only [toBuf_main_call2_cst_l2, ofBuf_main_call2_cst_l2, toBuf_main_call2_v0_l2, ofBuf_main_call2_v0_l2, toBuf_main_v66_l2, ofBuf_main_v66_l2, toBuf_main_v67_l2, ofBuf_main_v67_l2]
  -- the stages of this stretch, opened down to the buffers it reads
  simp only [val_main_v67, val_main_call2_v0, val_main_call2_cst, val_main_v66, val_main_v65, val_main_v64, val_main_v63, val_main_v62, val_main_v61, val_main_cst_12, val_main_v60, val_main_v59, val_main_v58, val_main_v57, val_main_v56, val_main_v55, val_main_v54, val_main_v53, val_main_c_11, val_main_v52, val_main_v51, val_main_c_10, val_main_v50]
  rw [h5, h6, h31, h49, a4, a5]
  all_goals rfl

end Cert.ReferenceIdeal.Value

end
-- ==== Proof.RefStretchE.lean ====
/-
  The reference's last stretch: the last layer and the logarithm of the row-wise softmax.
-/
import proofs.«158534_j79087527788732_1_alg».proof.Proof.RefOps
import proofs.«158534_j79087527788732_1_alg».proof.Proof.RefRead

set_option maxRecDepth 16384

noncomputable section

namespace Cert.ReferenceIdeal.Value

open Cert.ReferenceIdeal Cert.ReferenceIdeal.Gen
open Idealize.ShloMosaic Idealize.ShloMosaic.TcCoe Idealize.SL.Sem Idealize.ShloMosaic.StableHlo

open Cert.ReferenceIdeal.Read

variable (U : Valuation τ sig (Elt Ideal)) (x0 : (⟨S200000x128, .f32⟩ : BufTy).Contents (Elt Ideal)) (x1 : (⟨S2x5000000, .i32⟩ : BufTy).Contents (Elt Ideal))
    (x2 : (⟨S128x16, .f32⟩ : BufTy).Contents (Elt Ideal)) (x3 : (⟨S16, .f32⟩ : BufTy).Contents (Elt Ideal))
    (x4 : (⟨S16x16, .f32⟩ : BufTy).Contents (Elt Ideal)) (x5 : (⟨S16, .f32⟩ : BufTy).Contents (Elt Ideal))
    (x6 : (⟨S16x2, .f32⟩ : BufTy).Contents (Elt Ideal)) (x7 : (⟨S2, .f32⟩ : BufTy).Contents (Elt Ideal))

/-! A called function's values sit in their buffers through a change of type that is the identity: the buffer's declared type
    is the value's. -/

theorem toBuf_main_call3_cst_l3 (e hd hs) (v : (⟨S_, .f32⟩ : BufTy).Contents (Elt Ideal)) :
    (TRef.of (sig := sig) (T := ⟨S_, .f32⟩) main_call3_cst e hd hs).toBuf v = v := eq_of_heq (cast_heq _ _)
theorem ofBuf_main_call3_cst_l3 (e hd hs) (v : (⟨S_, .f32⟩ : BufTy).Contents (Elt Ideal)) :
    (TRef.of (sig := sig) (T := ⟨S_, .f32⟩) main_call3_cst e hd hs).ofBuf v = v := eq_of_heq (cast_heq _ _)
theorem toBuf_main_v84_l3 (e hd hs) (v : (⟨S200000x2, .f32⟩ : BufTy).Contents (Elt Ideal)) :
    (TRef.of (sig := sig) (T := ⟨S200000x2, .f32⟩) main_v84 e hd hs).toBuf v = v := eq_of_heq (cast_heq _ _)
theorem ofBuf_main_v84_l3 (e hd hs) (v : (⟨S200000x2, .f32⟩ : BufTy).Contents (Elt Ideal)) :
    (TRef.of (sig := sig) (T := ⟨S200000x2, .f32⟩) main_v84 e hd hs).ofBuf v = v := eq_of_heq (cast_heq _ _)
theorem toBuf_main_call3_v0_l3 (e hd hs) (v : (⟨S200000, .f32⟩ : BufTy).Contents (Elt Ideal)) :
    (TRef.of (sig := sig) (T := ⟨S200000, .f32⟩) main_call3_v0 e hd hs).toBuf v = v := eq_of_heq (cast_heq _ _)
theorem ofBuf_main_call3_v0_l3 (e hd hs) (v : (⟨S200000, .f32⟩ : BufTy).Contents (Elt Ideal)) :
    (TRef.of (sig := sig) (T := ⟨S200000, .f32⟩) main_call3_v0 e hd hs).ofBuf v = v := eq_of_heq (cast_heq _ _)
theorem toBuf_main_call3_cst_0_l3 (e hd hs) (v : (⟨S_, .f32⟩ : BufTy).Contents (Elt Ideal)) :
    (TRef.of (sig := sig) (T := ⟨S_, .f32⟩) main_call3_cst_0 e hd hs).toBuf v = v := eq_of_heq (cast_heq _ _)
theorem ofBuf_main_call3_cst_0_l3 (e hd hs) (v : (⟨S_, .f32⟩ : BufTy).Contents (Elt Ideal)) :
    (TRef.of (sig := sig) (T := ⟨S_, .f32⟩) main_call3_cst_0 e hd hs).ofBuf v = v := eq_of_heq (cast_heq _ _)
theorem toBuf_main_call3_v1_l3 (e hd hs) (v : (⟨S200000, .f32⟩ : BufTy).Contents (Elt Ideal)) :
    (TRef.of (sig := sig) (T := ⟨S200000, .f32⟩) main_call3_v1 e hd hs).toBuf v = v := eq_of_heq (cast_heq _ _)
theorem ofBuf_main_call3_v1_l3 (e hd hs) (v : (⟨S200000, .f32⟩ : BufTy).Contents (Elt Ideal)) :
    (TRef.of (sig := sig) (T := ⟨S200000, .f32⟩) main_call3_v1 e hd hs).ofBuf v = v := eq_of_heq (cast_heq _ _)
theorem toBuf_main_call3_v2_l3 (e hd hs) (v : (⟨S200000, .f32⟩ : BufTy).Contents (Elt Ideal)) :
    (TRef.of (sig := sig) (T := ⟨S200000, .f32⟩) main_call3_v2 e hd hs).toBuf v = v := eq_of_heq (cast_heq _ _)
theorem ofBuf_main_call3_v2_l3 (e hd hs) (v : (⟨S200000, .f32⟩ : BufTy).Contents (Elt Ideal)) :
    (TRef.of (sig := sig) (T := ⟨S200000, .f32⟩) main_call3_v2 e hd hs).ofBuf v = v := eq_of_heq (cast_heq _ _)
theorem toBuf_main_call3_v3_l3 (e hd hs) (v : (⟨S200000x1, .f32⟩ : BufTy).Contents (Elt Ideal)) :
    (TRef.of (sig := sig) (T := ⟨S200000x1, .f32⟩) main_call3_v3 e hd hs).toBuf v = v := eq_of_heq (cast_heq _ _)
theorem ofBuf_main_call3_v3_l3 (e hd hs) (v : (⟨S200000x1, .f32⟩ : BufTy).Contents (Elt Ideal)) :
    (TRef.of (sig := sig) (T := ⟨S200000x1, .f32⟩) main_call3_v3 e hd hs).ofBuf v = v := eq_of_heq (cast_heq _ _)
theorem toBuf_main_call3_v4_l3 (e hd hs) (v : (⟨S200000x2, .f32⟩ : BufTy).Contents (Elt Ideal)) :
    (TRef.of (sig := sig) (T := ⟨S200000x2, .f32⟩) main_call3_v4 e hd hs).toBuf v = v := eq_of_heq (cast_heq _ _)
theorem ofBuf_main_call3_v4_l3 (e hd hs) (v : (⟨S200000x2, .f32⟩ : BufTy).Contents (Elt Ideal)) :
    (TRef.of (sig := sig) (T := ⟨S200000x2, .f32⟩) main_call3_v4 e hd hs).ofBuf v = v := eq_of_heq (cast_heq _ _)
theorem toBuf_main_call3_v5_l3 (e hd hs) (v : (⟨S200000x2, .f32⟩ : BufTy).Contents (Elt Ideal)) :
    (TRef.of (sig := sig) (T := ⟨S200000x2, .f32⟩) main_call3_v5 e hd hs).toBuf v = v := eq_of_heq (cast_heq _ _)
theorem ofBuf_main_call3_v5_l3 (e hd hs) (v : (⟨S200000x2, .f32⟩ : BufTy).Contents (Elt Ideal)) :
    (TRef.of (sig := sig) (T := ⟨S200000x2, .f32⟩) main_call3_v5 e hd hs).ofBuf v = v := eq_of_heq (cast_heq _ _)
theorem toBuf_main_call3_v6_l3 (e hd hs) (v : (⟨S200000x2, .f32⟩ : BufTy).Contents (Elt Ideal)) :
    (TRef.of (sig := sig) (T := ⟨S200000x2, .f32⟩) main_call3_v6 e hd hs).toBuf v = v := eq_of_heq (cast_heq _ _)
theorem ofBuf_main_call3_v6_l3 (e hd hs) (v : (⟨S200000x2, .f32⟩ : BufTy).Contents (Elt Ideal)) :
    (TRef.of (sig := sig) (T := ⟨S200000x2, .f32⟩) main_call3_v6 e hd hs).ofBuf v = v := eq_of_heq (cast_heq _ _)
theorem toBuf_main_call3_cst_1_l3 (e hd hs) (v : (⟨S_, .f32⟩ : BufTy).Contents (Elt Ideal)) :
    (TRef.of (sig := sig) (T := ⟨S_, .f32⟩) main_call3_cst_1 e hd hs).toBuf v = v := eq_of_heq (cast_heq _ _)
theorem ofBuf_main_call3_cst_1_l3 (e hd hs) (v : (⟨S_, .f32⟩ : BufTy).Contents (Elt Ideal)) :
    (TRef.of (sig := sig) (T := ⟨S_, .f32⟩) main_call3_cst_1 e hd hs).ofBuf v = v := eq_of_heq (cast_heq _ _)
theorem toBuf_main_call3_v7_l3 (e hd hs) (v : (⟨S200000, .f32⟩ : BufTy).Contents (Elt Ideal)) :
    (TRef.of (sig := sig) (T := ⟨S200000, .f32⟩) main_call3_v7 e hd hs).toBuf v = v := eq_of_heq (cast_heq _ _)
theorem ofBuf_main_call3_v7_l3 (e hd hs) (v : (⟨S200000, .f32⟩ : BufTy).Contents (Elt Ideal)) :
    (TRef.of (sig := sig) (T := ⟨S200000, .f32⟩) main_call3_v7 e hd hs).ofBuf v = v := eq_of_heq (cast_heq _ _)
theorem toBuf_main_call3_v8_l3 (e hd hs) (v : (⟨S200000x1, .f32⟩ : BufTy).Contents (Elt Ideal)) :
    (TRef.of (sig := sig) (T := ⟨S200000x1, .f32⟩) main_call3_v8 e hd hs).toBuf v = v := eq_of_heq (cast_heq _ _)
theorem ofBuf_main_call3_v8_l3 (e hd hs) (v : (⟨S200000x1, .f32⟩ : BufTy).Contents (Elt Ideal)) :
    (TRef.of (sig := sig) (T := ⟨S200000x1, .f32⟩) main_call3_v8 e hd hs).ofBuf v = v := eq_of_heq (cast_heq _ _)
theorem toBuf_main_call3_v9_l3 (e hd hs) (v : (⟨S200000x1, .f32⟩ : BufTy).Contents (Elt Ideal)) :
    (TRef.of (sig := sig) (T := ⟨S200000x1, .f32⟩) main_call3_v9 e hd hs).toBuf v = v := eq_of_heq (cast_heq _ _)
theorem ofBuf_main_call3_v9_l3 (e hd hs) (v : (⟨S200000x1, .f32⟩ : BufTy).Contents (Elt Ideal)) :
    (TRef.of (sig := sig) (T := ⟨S200000x1, .f32⟩) main_call3_v9 e hd hs).ofBuf v = v := eq_of_heq (cast_heq _ _)
theorem toBuf_main_call3_v10_l3 (e hd hs) (v : (⟨S200000x2, .f32⟩ : BufTy).Contents (Elt Ideal)) :
    (TRef.of (sig := sig) (T := ⟨S200000x2, .f32⟩) main_call3_v10 e hd hs).toBuf v = v := eq_of_heq (cast_heq _ _)
theorem ofBuf_main_call3_v10_l3 (e hd hs) (v : (⟨S200000x2, .f32⟩ : BufTy).Contents (Elt Ideal)) :
    (TRef.of (sig := sig) (T := ⟨S200000x2, .f32⟩) main_call3_v10 e hd hs).ofBuf v = v := eq_of_heq (cast_heq _ _)
theorem toBuf_main_v85_l3 (e hd hs) (v : (⟨S200000x2, .f32⟩ : BufTy).Contents (Elt Ideal)) :
    (TRef.of (sig := sig) (T := ⟨S200000x2, .f32⟩) main_v85 e hd hs).toBuf v = v := eq_of_heq (cast_heq _ _)
theorem ofBuf_main_v85_l3 (e hd hs) (v : (⟨S200000x2, .f32⟩ : BufTy).Contents (Elt Ideal)) :
    (TRef.of (sig := sig) (T := ⟨S200000x2, .f32⟩) main_v85 e hd hs).ofBuf v = v := eq_of_heq (cast_heq _ _)

/-- The result, from the second layer's activations. -/
theorem layer3_eq (h5 : U (Proc.devRef .tc main_v5) = val_main_v5 (F := Ideal) x1) (h6 : U (Proc.devRef .tc main_v6) = val_main_v6 (F := Ideal) x1)
    (h31 : U (Proc.devRef .tc main_v31) = val_main_v31 (F := Ideal) x1)
    (h67 : U (Proc.devRef .tc main_v67) = val_main_v67 (F := Ideal) x0 x1 x2 x3 x4 x5)
    (a6 : U (Proc.devRef .tc main_arg6) = x6) (a7 : U (Proc.devRef .tc main_arg7) = x7) :
    after (opsLayer3 (F := Ideal)) U (Proc.devRef .tc main_v85) = val_main_v85 (F := Ideal) x0 x1 x2 x3 x4 x5 x6 x7 := by
  dsimp only [opsLayer3]
  after_results_simp
  simp only [toBuf_main_call3_cst_l3, ofBuf_main_call3_cst_l3, toBuf_main_v84_l3, ofBuf_main_v84_l3, toBuf_main_call3_v0_l3, ofBuf_main_call3_v0_l3, toBuf_main_call3_cst_0_l3, ofBuf_main_call3_cst_0_l3, toBuf_main_call3_v1_l3, ofBuf_main_call3_v1_l3, toBuf_main_call3_v2_l3, ofBuf_main_call3_v2_l3, toBuf_main_call3_v3_l3, ofBuf_main_call3_v3_l3, toBuf_main_call3_v4_l3, ofBuf_main_call3_v4_l3, toBuf_main_call3_v5_l3, ofBuf_main_call3_v5_l3, toBuf_main_call3_v6_l3, ofBuf_main_call3_v6_l3, toBuf_main_call3_cst_1_l3, ofBuf_main_call3_cst_1_l3, toBuf_main_call3_v7_l3, ofBuf_main_call3_v7_l3, toBuf_main_call3_v8_l3, ofBuf_main_call3_v8_l3, toBuf_main_call3_v9_l3, ofBuf_main_call3_v9_l3, toBuf_main_call3_v10_l3, ofBuf_main_call3_v10_l3, toBuf_main_v85_l3, ofBuf_main_v85_l3]
  -- the stages of this stretch, opened down to the buffers it reads
  simp only [val_main_v85, val_main_call3_v10, val_main_call3_v9, val_main_call3_v8, val_main_call3_v7, val_main_call3_cst_1, val_main_call3_v6, val_main_call3_v5, val_main_call3_v4, val_main_call3_v3, val_main_call3_v2, val_main_call3_v1, val_main_call3_cst_0, val_main_call3_v0, val_main_call3_cst, val_main_v84, val_main_v83, val_main_v82, val_main_v81, val_main_v80, val_main_v79, val_main_cst_15, val_main_v78, val_main_v77, val_main_v76, val_main_v75, val_main_v74, val_main_v73, val_main_v72, val_main_v71, val_main_c_14, val_main_v70, val_main_v69, val_main_c_13, val_main_v68]
  rw [h5, h6, h31, h67, a6, a7]
  all_goals rfl

end Cert.ReferenceIdeal.Value

end
-- ==== Proof.RefRun.lean ====
/-
  The reference program's run.

  Its run terminates without a fault and leaves every buffer at the fold of its 124 operations over the starting memory.
  Read in five stretches: each stretch's value is the corresponding stage of the program read one operation at a time,
  because the buffers a stretch reads are written by no later operation; so the result buffer ends at the last stage as a
  function of the eight arguments, and the arguments, which no operation writes, end as they started.
-/
import proofs.«158534_j79087527788732_1_alg».proof.Proof.RefOps
import proofs.«158534_j79087527788732_1_alg».proof.Proof.RefOpsFacts
import proofs.«158534_j79087527788732_1_alg».proof.Proof.RefRead
import proofs.«158534_j79087527788732_1_alg».proof.Proof.RefStretchA
import proofs.«158534_j79087527788732_1_alg».proof.Proof.RefStretchB
import proofs.«158534_j79087527788732_1_alg».proof.Proof.RefStretchC
import proofs.«158534_j79087527788732_1_alg».proof.Proof.RefStretchD
import proofs.«158534_j79087527788732_1_alg».proof.Proof.RefStretchE

set_option maxRecDepth 16384

noncomputable section

namespace Cert.ReferenceIdeal.Value

open Cert.ReferenceIdeal Cert.ReferenceIdeal.Gen
open Idealize.ShloMosaic Idealize.ShloMosaic.TcCoe Idealize.SL.Sem Idealize.ShloMosaic.StableHlo

open Cert.ReferenceIdeal.Read

/-! ## The run -/

section Run

variable (W : Valuation τ sig (Elt Ideal))

/-- The contents after the first one, two, three and four stretches. -/
abbrev U0 : Valuation τ sig (Elt Ideal) := after (opsEdges (F := Ideal)) W
abbrev U1 : Valuation τ sig (Elt Ideal) := after (opsWeights (F := Ideal)) (U0 W)
abbrev U2 : Valuation τ sig (Elt Ideal) := after (opsLayer1 (F := Ideal)) (U1 W)
abbrev U3 : Valuation τ sig (Elt Ideal) := after (opsLayer2 (F := Ideal)) (U2 W)

/-- A buffer none of the first k stretches writes holds at their end what it held at the start. -/
theorem keep0 (b : Ref sig .tc) (h0 : ∀ op ∈ (opsEdges : List (HloOp τ sig (Elt Ideal))), Proc.devRef .tc b ∉ op.writes) :
    U0 W (Proc.devRef .tc b) = W (Proc.devRef .tc b) := after_of_forall_not_mem _ _ h0
theorem keep1 (b : Ref sig .tc) (h1 : ∀ op ∈ (opsWeights : List (HloOp τ sig (Elt Ideal))), Proc.devRef .tc b ∉ op.writes) :
    U1 W (Proc.devRef .tc b) = U0 W (Proc.devRef .tc b) := after_of_forall_not_mem _ _ h1
theorem keep2 (b : Ref sig .tc) (h2 : ∀ op ∈ (opsLayer1 : List (HloOp τ sig (Elt Ideal))), Proc.devRef .tc b ∉ op.writes) :
    U2 W (Proc.devRef .tc b) = U1 W (Proc.devRef .tc b) := after_of_forall_not_mem _ _ h2
theorem keep3 (b : Ref sig .tc) (h3 : ∀ op ∈ (opsLayer2 : List (HloOp τ sig (Elt Ideal))), Proc.devRef .tc b ∉ op.writes) :
    U3 W (Proc.devRef .tc b) = U2 W (Proc.devRef .tc b) := after_of_forall_not_mem _ _ h3

theorem src0 : U0 W (Proc.devRef .tc main_v5) = val_main_v5 (F := Ideal) (W (Proc.devRef .tc main_arg1)) := edges_src W
theorem dst0 : U0 W (Proc.devRef .tc main_v6) = val_main_v6 (F := Ideal) (W (Proc.devRef .tc main_arg1)) := edges_dst W
theorem src1 : U1 W (Proc.devRef .tc main_v5) = val_main_v5 (F := Ideal) (W (Proc.devRef .tc main_arg1)) := (keep1 W main_v5 (by not_written)).trans (src0 W)
theorem dst1 : U1 W (Proc.devRef .tc main_v6) = val_main_v6 (F := Ideal) (W (Proc.devRef .tc main_arg1)) := (keep1 W main_v6 (by not_written)).trans (dst0 W)
theorem src2 : U2 W (Proc.devRef .tc main_v5) = val_main_v5 (F := Ideal) (W (Proc.devRef .tc main_arg1)) := (keep2 W main_v5 (by not_written)).trans (src1 W)
theorem dst2 : U2 W (Proc.devRef .tc main_v6) = val_main_v6 (F := Ideal) (W (Proc.devRef .tc main_arg1)) := (keep2 W main_v6 (by not_written)).trans (dst1 W)
theorem src3 : U3 W (Proc.devRef .tc main_v5) = val_main_v5 (F := Ideal) (W (Proc.devRef .tc main_arg1)) := (keep3 W main_v5 (by not_written)).trans (src2 W)
theorem dst3 : U3 W (Proc.devRef .tc main_v6) = val_main_v6 (F := Ideal) (W (Proc.devRef .tc main_arg1)) := (keep3 W main_v6 (by not_written)).trans (dst2 W)

theorem wgt1 : U1 W (Proc.devRef .tc main_v31) = val_main_v31 (F := Ideal) (W (Proc.devRef .tc main_arg1)) := weights_eq (U0 W) _ (src0 W) (dst0 W)
theorem wgt2 : U2 W (Proc.devRef .tc main_v31) = val_main_v31 (F := Ideal) (W (Proc.devRef .tc main_arg1)) := (keep2 W main_v31 (by not_written)).trans (wgt1 W)
theorem wgt3 : U3 W (Proc.devRef .tc main_v31) = val_main_v31 (F := Ideal) (W (Proc.devRef .tc main_arg1)) := (keep3 W main_v31 (by not_written)).trans (wgt2 W)

theorem arg_1 (b : Ref sig .tc) (h0 : ∀ op ∈ (opsEdges : List (HloOp τ sig (Elt Ideal))), Proc.devRef .tc b ∉ op.writes)
    (h1 : ∀ op ∈ (opsWeights : List (HloOp τ sig (Elt Ideal))), Proc.devRef .tc b ∉ op.writes) :
    U1 W (Proc.devRef .tc b) = W (Proc.devRef .tc b) := (keep1 W b h1).trans (keep0 W b h0)
theorem arg_2 (b : Ref sig .tc) (h0 : ∀ op ∈ (opsEdges : List (HloOp τ sig (Elt Ideal))), Proc.devRef .tc b ∉ op.writes)
    (h1 : ∀ op ∈ (opsWeights : List (HloOp τ sig (Elt Ideal))), Proc.devRef .tc b ∉ op.writes)
    (h2 : ∀ op ∈ (opsLayer1 : List (HloOp τ sig (Elt Ideal))), Proc.devRef .tc b ∉ op.writes) :
    U2 W (Proc.devRef .tc b) = W (Proc.devRef .tc b) := (keep2 W b h2).trans (arg_1 W b h0 h1)
theorem arg_3 (b : Ref sig .tc) (h0 : ∀ op ∈ (opsEdges : List (HloOp τ sig (Elt Ideal))), Proc.devRef .tc b ∉ op.writes)
    (h1 : ∀ op ∈ (opsWeights : List (HloOp τ sig (Elt Ideal))), Proc.devRef .tc b ∉ op.writes)
    (h2 : ∀ op ∈ (opsLayer1 : List (HloOp τ sig (Elt Ideal))), Proc.devRef .tc b ∉ op.writes)
    (h3 : ∀ op ∈ (opsLayer2 : List (HloOp τ sig (Elt Ideal))), Proc.devRef .tc b ∉ op.writes) :
    U3 W (Proc.devRef .tc b) = W (Proc.devRef .tc b) := (keep3 W b h3).trans (arg_2 W b h0 h1 h2)

/-- The first layer's activations after the third stretch. -/
theorem act1 : U2 W (Proc.devRef .tc main_v49) = val_main_v49 (F := Ideal) (W (Proc.devRef .tc main_arg0)) (W (Proc.devRef .tc main_arg1)) (W (Proc.devRef .tc main_arg2)) (W (Proc.devRef .tc main_arg3)) :=
  layer1_eq (U1 W) _ _ _ _ (src1 W) (dst1 W) (wgt1 W) (arg_1 W main_arg0 (by not_written) (by not_written))
    (arg_1 W main_arg2 (by not_written) (by not_written)) (arg_1 W main_arg3 (by not_written) (by not_written))

/-- The second layer's activations after the fourth stretch. -/
theorem act2 : U3 W (Proc.devRef .tc main_v67) = val_main_v67 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  layer2_eq (U2 W) _ _ _ _ _ _ (src2 W) (dst2 W) (wgt2 W) (act1 W) (arg_2 W main_arg4 (by not_written) (by not_written) (by not_written))
    (arg_2 W main_arg5 (by not_written) (by not_written) (by not_written))

/-- The result after the whole line: the last stage at the starting contents of the arguments. -/
theorem result_eq : after (ops (F := Ideal)) W (Proc.devRef .tc main_v85) = val_main_v85 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) :=
  (congrFun (after_ops W) _).trans (layer3_eq (U3 W) _ _ _ _ _ _ _ _ (src3 W) (dst3 W) (wgt3 W) (act2 W)
    (arg_3 W main_arg6 (by not_written) (by not_written) (by not_written) (by not_written))
    (arg_3 W main_arg7 (by not_written) (by not_written) (by not_written) (by not_written)))

end Run

set_option maxRecDepth 65536 in
set_option maxHeartbeats 49600000 in
/-- On every device, from any memory with zero counters: every weakly fair execution of @main terminates with the result
    at the last stage of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v85) = val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v85).trans (result_eq (launchContents m c)),
      (h c main_arg0).trans (after_of_forall_not_mem _ _ (by not_written)),
      (h c main_arg1).trans (after_of_forall_not_mem _ _ (by not_written)),
      (h c main_arg2).trans (after_of_forall_not_mem _ _ (by not_written)),
      (h c main_arg3).trans (after_of_forall_not_mem _ _ (by not_written)),
      (h c main_arg4).trans (after_of_forall_not_mem _ _ (by not_written)),
      (h c main_arg5).trans (after_of_forall_not_mem _ _ (by not_written)),
      (h c main_arg6).trans (after_of_forall_not_mem _ _ (by not_written)),
      (h c main_arg7).trans (after_of_forall_not_mem _ _ (by not_written))⟩)
    (run_seq scopedRefs_eq scopedSems_eq defs main (fun _ => ops) main_eq (fun _ => ops_sub) m ρ
      (fun _ => List.forall_iff_forall_mem.mp ops_fresh))

end Cert.ReferenceIdeal.Value

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibColumn.lean ====
/-
  A vector laid out as a column, and scalars broadcast, read at an entry.

  A vector of n entries becomes a 1×n matrix by a cast, and an n×1 matrix either by a cast (row-major positions agree: entry r of the vector sits at
  (r, 0)) or by a broadcast along the new axis; a one-entry vector becomes a scalar by a cast; a scalar broadcast to any
  shape is that scalar at every entry; a one-entry vector broadcast over n entries is its one entry everywhere.
-/
import Idealize.ShloMosaic.Lib.ValueIdx
import Idealize.ShloMosaic.Lib.Pipeline.Value

noncomputable section

namespace Cert.Layout

open Idealize.ShloMosaic Idealize.ShloMosaic.ValueIdx

variable {α : Type} {n : ℕ}

/-- The one index of a rank-0 shape is at row-major position 0. -/
theorem rowMajor_val_rank0 (d : Fin 0 → Nat) (i : (⟨0, d⟩ : Shape).Idx) : ((⟨0, d⟩ : Shape).rowMajor i).val = 0 :=
  Shape.rowMajorPi_zero d i

/-- A vector cast to a column, read at (r, q): the vector's entry r. -/
theorem cast_vec_col_apply (v : (⟨1, ![n]⟩ : Shape).Idx → α) (h : (⟨1, ![n]⟩ : Shape).ShapeCasts ⟨2, ![n, 1]⟩) (r : Fin n) (q : Fin 1) :
    shapeCast ⟨2, ![n, 1]⟩ v h (ix2 r q) = v (ix1 r) :=
  shapeCast_apply v h (ix2 r q) (ix1 r) (by
    rw [Shape.rowMajor_val_two, Shape.rowMajor_val_one]
    show r.val = r.val * 1 + q.val
    have := q.isLt
    omega)

/-- A vector cast to a one-row matrix, read at (0, q): the vector's entry q. -/
theorem cast_vec_row_apply (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]
    show q.val = (0 : Fin 1).val * n + q.val
    simp)

/-- A one-entry vector cast to a scalar: its one entry. -/
theorem cast_one_scalar_apply (v : (⟨1, ![1]⟩ : Shape).Idx → α) (h : (⟨1, ![1]⟩ : Shape).ShapeCasts ⟨0, ![]⟩) (j : (⟨0, ![]⟩ : Shape).Idx) :
    shapeCast ⟨0, ![]⟩ v h j = v (ix1 (0 : Fin 1)) :=
  shapeCast_apply v h j (ix1 (0 : Fin 1)) (by
    rw [Shape.rowMajor_val_one, rowMajor_val_rank0]
    rfl)

/-- A scalar broadcast to a shape, read anywhere: the scalar. -/
theorem bcast_scalar_apply {s : Shape} (v : (⟨0, ![]⟩ : Shape).Idx → α) (h : (⟨0, ![]⟩ : Shape).BroadcastsInDim s ![]) (j : s.Idx) :
    broadcastInDim s ![] h v j = v ix0 :=
  broadcastInDim_apply ![] h v j ix0 (fun ax => ax.elim0)

/-- A one-entry vector broadcast over n entries, read at r: its one entry. -/
theorem bcast_one_vec_apply (v : (⟨1, ![1]⟩ : Shape).Idx → α) (h : (⟨1, ![1]⟩ : Shape).BroadcastsInDim ⟨1, ![n]⟩ ![0]) (r : Fin n) :
    broadcastInDim ⟨1, ![n]⟩ ![0] h v (ix1 r) = v (ix1 (0 : Fin 1)) :=
  broadcastInDim_apply ![0] h v (ix1 r) (ix1 (0 : Fin 1)) (fun ax => by
    match ax with
    | ⟨0, _⟩ =>
      show (0 : ℕ) = if (1 : ℕ) = 1 then 0 else r.val
      rfl)

/-- A vector broadcast to a column along a new second axis, read at (r, q): the vector's entry r. -/
theorem bcast_vec_col_apply (v : (⟨1, ![n]⟩ : Shape).Idx → α) (h : (⟨1, ![n]⟩ : Shape).BroadcastsInDim ⟨2, ![n, 1]⟩ ![0]) (r : Fin n) (q : Fin 1) :
    broadcastInDim ⟨2, ![n, 1]⟩ ![0] h v (ix2 r q) = v (ix1 r) :=
  broadcastInDim_apply ![0] h v (ix2 r q) (ix1 r) (fun ax => by
    match ax with
    | ⟨0, _⟩ =>
      show r.val = if n = 1 then 0 else r.val
      split
      · have := r.isLt; omega
      · rfl)

end Cert.Layout

end
-- ==== Proof.LibRowSoftmax.lean ====
/-
  Row-wise pieces of a dense network on the extended reals, entry by entry, generic in the sizes: a bias
  row added to every row of a matrix, that sum rectified, and the logarithm of the row-wise softmax —
  every entry minus its row's largest entry, minus the logarithm of the sum over the row of the
  exponentials of those differences.

  Each reads entry (p, q) of its result from row p of its matrix operand only, so computed on a block
  of rows it gives the rows of what it gives on the whole array (the block-of-rows laws). The vector
  unit's spelling (identity casts, a one-row broadcast, lane reductions from minus infinity and from zero
  kept as columns and broadcast back) and the host's spelling (two-step bias broadcasts, a maximum with a
  broadcast zero, reductions with a maximum and an add body, the row maximum taken once more against
  minus infinity) of each piece are that one function.
-/
import proofs.«158534_j79087527788732_1_alg».proof.Proof.LibDense
import proofs.«158534_j79087527788732_1_alg».proof.Proof.LibColumn

noncomputable section

open scoped BigOperators

namespace Cert.Gcn

open Cert.Dense Idealize.ShloMosaic Idealize.ShloMosaic.ValueIdx

variable {M M' N : ℕ}

/-- A one-row matrix added to every row of a matrix. -/
def addRow (A : Mat M N) (b : Mat 1 N) : Mat M N := fun i => A i + b (ix2 (0 : Fin 1) (i 1))

/-- A bias row added to every row, then the rectifier. -/
def biasRelu (A : Mat M N) (b : Mat 1 N) : Mat M N := relu (addRow A b)

/-- The word of single-precision minus infinity, read on the extended reals. -/
def negInf : EReal := Ideal.ofBits .f32 0xFF800000#32

/-- The largest entry of row p, folded from minus infinity. -/
def rowMax (Y : Mat M N) (p : Fin M) : EReal :=
  (Finset.univ : Finset (Fin N)).fold max negInf (fun k => Y (ix2 p k))

/-- The logarithm of the row-wise softmax: (y − m) − log Σ exp (y − m), m the row's largest entry. -/
def logSoftmax (Y : Mat M N) : Mat M N := fun i =>
  (Y i - rowMax Y (i 0)) - Ideal.log (∑ k : Fin N, Ideal.exp (Y (ix2 (i 0) k) - rowMax Y (i 0)))

/-- A bias row added to every row, then the logarithm of the row-wise softmax. -/
def biasLogSoftmax (A : Mat M N) (b : Mat 1 N) : Mat M N := logSoftmax (addRow A b)

/-- A vector laid out as the one row of a one-row matrix. -/
def rowOf (b : Row N) : Mat 1 N := fun i => b (ix1 (i 1))

theorem logSoftmax_apply (Y : Mat M N) (p : Fin M) (q : Fin N) :
    logSoftmax Y (ix2 p q)
      = (Y (ix2 p q) - rowMax Y p) - Ideal.log (∑ k : Fin N, Ideal.exp (Y (ix2 p k) - rowMax Y p)) := rfl

/-! ## On a block of rows -/

theorem addRow_rows (A : Mat M' N) (blk : Mat M N) (b : Mat 1 N) (ρ : Fin M → Fin M')
    (h : ∀ p k, blk (ix2 p k) = A (ix2 (ρ p) k)) (p : Fin M) (q : Fin N) :
    addRow blk b (ix2 p q) = addRow A b (ix2 (ρ p) q) := by
  show blk (ix2 p q) + b (ix2 (0 : Fin 1) q) = A (ix2 (ρ p) q) + b (ix2 (0 : Fin 1) q)
  rw [h p q]

theorem biasRelu_rows (A : Mat M' N) (blk : Mat M N) (b : Mat 1 N) (ρ : Fin M → Fin M')
    (h : ∀ p k, blk (ix2 p k) = A (ix2 (ρ p) k)) (p : Fin M) (q : Fin N) :
    biasRelu blk b (ix2 p q) = biasRelu A b (ix2 (ρ p) q) := by
  show max (addRow blk b (ix2 p q)) 0 = max (addRow A b (ix2 (ρ p) q)) 0
  rw [addRow_rows A blk b ρ h p q]

theorem rowMax_rows (Y : Mat M' N) (blk : Mat M N) (ρ : Fin M → Fin M')
    (h : ∀ p k, blk (ix2 p k) = Y (ix2 (ρ p) k)) (p : Fin M) : rowMax blk p = rowMax Y (ρ p) := by
  unfold rowMax
  exact congrArg (fun f => Finset.fold max negInf f (Finset.univ : Finset (Fin N))) (funext fun k => h p k)

theorem logSoftmax_rows (Y : Mat M' N) (blk : Mat M N) (ρ : Fin M → Fin M')
    (h : ∀ p k, blk (ix2 p k) = Y (ix2 (ρ p) k)) (p : Fin M) (q : Fin N) :
    logSoftmax blk (ix2 p q) = logSoftmax Y (ix2 (ρ p) q) := by
  rw [logSoftmax_apply, logSoftmax_apply, rowMax_rows Y blk ρ h p, h p q]
  exact congrArg (fun s => (Y (ix2 (ρ p) q) - rowMax Y (ρ p)) - Ideal.log s)
    (Finset.sum_congr rfl fun k _ => by rw [h p k])

theorem biasLogSoftmax_rows (A : Mat M' N) (blk : Mat M N) (b : Mat 1 N) (ρ : Fin M → Fin M')
    (h : ∀ p k, blk (ix2 p k) = A (ix2 (ρ p) k)) (p : Fin M) (q : Fin N) :
    biasLogSoftmax blk b (ix2 p q) = biasLogSoftmax A b (ix2 (ρ p) q) :=
  logSoftmax_rows (addRow A b) (addRow blk b) ρ (fun p k => addRow_rows A blk b ρ h p k) p q

/-! ## As the vector unit spells them -/

/-- The block plus the bias row broadcast over its rows (the casts to the same shape are the identity). -/
theorem addf_cast_broadcastTo (x0 : FVec Ideal ⟨2, ![M, N]⟩ .f32) (x1 : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩) :
    addf (shapeCast ⟨2, ![M, N]⟩ x0 h0) (broadcastTo ⟨2, ![M, N]⟩ (shapeCast ⟨2, ![1, N]⟩ x1 h1) hb) = addRow x0 x1 := by
  rw [shapeCast_self, shapeCast_self]
  funext i
  obtain ⟨p, q, rfl⟩ : ∃ (p : Fin M) (q : Fin N), i = ix2 p q := ⟨i 0, i 1, eq_ix2 i⟩
  show x0 (ix2 p q) + broadcastTo ⟨2, ![M, N]⟩ x1 hb (ix2 p q) = x0 (ix2 p q) + x1 (ix2 (0 : Fin 1) q)
  rw [broadcastTo_1b_ab_apply]

/-- Bias, then the maximum with a splat of the zero word. -/
theorem kernel_biasRelu (x0 : FVec Ideal ⟨2, ![M, N]⟩ .f32) (x1 : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ x0 h0) (broadcastTo ⟨2, ![M, N]⟩ (shapeCast ⟨2, ![1, N]⟩ x1 h1) hb))
        (broadcast ⟨2, ![M, N]⟩ (Scalar.ofBits (F := Ideal) .f32 0x00000000#32))
      = biasRelu x0 x1 := by
  rw [addf_cast_broadcastTo]
  exact maximumf_splat_zero _

/-- The reduced index p with column k put back is (p, k). -/
theorem lift_axis1 (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- A lane maximum from minus infinity, kept as a vector over the rows, is the row's largest entry. -/
theorem reduce_max_row (Y : FVec Ideal ⟨2, ![M, N]⟩ .f32) (hr : (⟨2, ![M, N]⟩ : Shape).Reduces [1] (⟨1, ![M]⟩ : Shape))
    (hφ : FKind.Formats .f32) (hacc : (0xFF800000#32 : BitVec 32) = FKind.maximumf.neutral .f32 hφ) (p : Fin M) :
    multiReduction .maximumf [1] ⟨1, ![M]⟩ Y 0xFF800000#32 hr hφ hacc (ix1 p) = rowMax Y p := by
  refine (Ideal.multiReduction_maximumf_single Y 0xFF800000#32 hr hφ hacc (ix1 p)).trans ?_
  show Finset.fold max negInf (Y ∘ hr.lift (ix1 p)) (Finset.univ : Finset (Fin N)) = _
  exact congrArg (fun f => Finset.fold max negInf f (Finset.univ : Finset (Fin N)))
    (funext fun k => congrArg Y (lift_axis1 hr p k))

/-- A lane sum from zero, kept as a vector over the rows, is the sum over the row. -/
theorem reduce_add_row (Z : FVec Ideal ⟨2, ![M, N]⟩ .f32) (hr : (⟨2, ![M, N]⟩ : Shape).Reduces [1] (⟨1, ![M]⟩ : Shape))
    (hφ : FKind.Formats .f32) (hacc : (0x00000000#32 : BitVec 32) = FKind.add.neutral .f32 hφ) (p : Fin M) :
    multiReduction .add [1] ⟨1, ![M]⟩ Z 0x00000000#32 hr hφ hacc (ix1 p) = ∑ k : Fin N, Z (ix2 p k) := by
  refine (Ideal.multiReduction_add_single Z 0x00000000#32 hr hφ hacc (ix1 p)).trans ?_
  show ∑ k : Fin N, Z (hr.lift (ix1 p) k) = _
  exact Finset.sum_congr rfl fun k _ => congrArg Z (lift_axis1 hr p k)

/-- A column broadcast along the rows' second axis, read at (p, q): the column's entry p. -/
theorem broadcastTo_a1_ab_apply {α : Type} (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- The vector unit's logarithm of the row-wise softmax: the row maxima and the row sums are lane reductions kept as
    columns and broadcast back over the row. -/
theorem kernel_logSoftmax (Y : FVec Ideal ⟨2, ![M, N]⟩ .f32) (hr : (⟨2, ![M, N]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩) :
    subf (subf Y (broadcastTo ⟨2, ![M, N]⟩ (shapeCast ⟨2, ![M, 1]⟩ (multiReduction .maximumf [1] ⟨1, ![M]⟩ Y 0xFF800000#32 hr hφ hmax) hc) hb))
      (broadcastTo ⟨2, ![M, N]⟩ (log (shapeCast ⟨2, ![M, 1]⟩ (multiReduction .add [1] ⟨1, ![M]⟩
        (exp (subf Y (broadcastTo ⟨2, ![M, N]⟩ (shapeCast ⟨2, ![M, 1]⟩ (multiReduction .maximumf [1] ⟨1, ![M]⟩ Y 0xFF800000#32 hr hφ hmax) hc) hb)))
        0x00000000#32 hr hφ hadd) hc)) hb)
      = logSoftmax Y := by
  have hm : ∀ (p : Fin M) (q : Fin N),
      broadcastTo ⟨2, ![M, N]⟩ (shapeCast ⟨2, ![M, 1]⟩ (multiReduction .maximumf [1] ⟨1, ![M]⟩ Y 0xFF800000#32 hr hφ hmax) hc) hb (ix2 p q)
        = rowMax Y p := fun p q => by
    rw [broadcastTo_a1_ab_apply, Cert.Layout.cast_vec_col_apply, reduce_max_row]
  funext i
  obtain ⟨p, q, rfl⟩ : ∃ (p : Fin M) (q : Fin N), i = ix2 p q := ⟨i 0, i 1, eq_ix2 i⟩
  rw [logSoftmax_apply, subf_apply, subf_apply, hm p q, broadcastTo_a1_ab_apply]
  show (Y (ix2 p q) - rowMax Y p) - Ideal.log (shapeCast ⟨2, ![M, 1]⟩ (multiReduction .add [1] ⟨1, ![M]⟩
        (exp (subf Y (broadcastTo ⟨2, ![M, N]⟩ (shapeCast ⟨2, ![M, 1]⟩ (multiReduction .maximumf [1] ⟨1, ![M]⟩ Y 0xFF800000#32 hr hφ hmax) hc) hb)))
        0x00000000#32 hr hφ hadd) hc (ix2 p (0 : Fin 1))) = _
  rw [Cert.Layout.cast_vec_col_apply, reduce_add_row]
  refine congrArg (fun s => (Y (ix2 p q) - rowMax Y p) - Ideal.log s) (Finset.sum_congr rfl fun k _ => ?_)
  show Ideal.exp (Y (ix2 p k) - broadcastTo ⟨2, ![M, N]⟩ (shapeCast ⟨2, ![M, 1]⟩ (multiReduction .maximumf [1] ⟨1, ![M]⟩ Y 0xFF800000#32 hr hφ hmax) hc) hb (ix2 p k)) = _
  rw [hm p k]

/-- Bias, then the vector unit's logarithm of the row-wise softmax. -/
theorem kernel_biasLogSoftmax (x0 : FVec Ideal ⟨2, ![M, N]⟩ .f32) (x1 : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩)
    (hr : (⟨2, ![M, N]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb2 : (⟨2, ![M, 1]⟩ : Shape).Broadcasts ⟨2, ![M, N]⟩) :
    subf (subf (addf (shapeCast ⟨2, ![M, N]⟩ x0 h0) (broadcastTo ⟨2, ![M, N]⟩ (shapeCast ⟨2, ![1, N]⟩ x1 h1) hb)) (broadcastTo ⟨2, ![M, N]⟩ (shapeCast ⟨2, ![M, 1]⟩ (multiReduction .maximumf [1] ⟨1, ![M]⟩ (addf (shapeCast ⟨2, ![M, N]⟩ x0 h0) (broadcastTo ⟨2, ![M, N]⟩ (shapeCast ⟨2, ![1, N]⟩ x1 h1) hb)) 0xFF800000#32 hr hφ hmax) hc) hb2))
      (broadcastTo ⟨2, ![M, N]⟩ (log (shapeCast ⟨2, ![M, 1]⟩ (multiReduction .add [1] ⟨1, ![M]⟩
        (exp (subf (addf (shapeCast ⟨2, ![M, N]⟩ x0 h0) (broadcastTo ⟨2, ![M, N]⟩ (shapeCast ⟨2, ![1, N]⟩ x1 h1) hb)) (broadcastTo ⟨2, ![M, N]⟩ (shapeCast ⟨2, ![M, 1]⟩ (multiReduction .maximumf [1] ⟨1, ![M]⟩ (addf (shapeCast ⟨2, ![M, N]⟩ x0 h0) (broadcastTo ⟨2, ![M, N]⟩ (shapeCast ⟨2, ![1, N]⟩ x1 h1) hb)) 0xFF800000#32 hr hφ hmax) hc) hb2)))
        0x00000000#32 hr hφ hadd) hc)) hb2)
      = biasLogSoftmax x0 x1 := by
  rw [addf_cast_broadcastTo]
  exact kernel_logSoftmax _ hr hφ hmax hadd hc hb2

/-! ## As the host spells them -/

/-- A vector reshaped to one row is its one-row layout. -/
theorem shapeCast_row (b : Row N) (h : (⟨1, ![N]⟩ : Shape).ShapeCasts ⟨2, ![1, N]⟩) :
    shapeCast ⟨2, ![1, N]⟩ b h = rowOf b := by
  funext i
  obtain ⟨r, q, rfl⟩ : ∃ (r : Fin 1) (q : Fin N), i = ix2 r q := ⟨i 0, i 1, eq_ix2 i⟩
  obtain rfl : r = 0 := Subsingleton.elim _ _
  exact Cert.Layout.cast_vec_row_apply b h q

/-- The host's bias: the vector broadcast to one row and then over the rows, added. -/
theorem host_addRow (A : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf A (broadcastInDim ⟨2, ![M, N]⟩ ![0, 1] h2 (broadcastInDim ⟨2, ![1, N]⟩ ![1] h1 b)) = addRow A (rowOf b) := by
  funext i
  obtain ⟨p, q, rfl⟩ : ∃ (p : Fin M) (q : Fin N), i = ix2 p q := ⟨i 0, i 1, eq_ix2 i⟩
  show A (ix2 p q) + broadcastInDim ⟨2, ![M, N]⟩ ![0, 1] h2 (broadcastInDim ⟨2, ![1, N]⟩ ![1] h1 b) (ix2 p q) = A (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The host's bias and rectifier. -/
theorem host_biasRelu (A : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf A (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = biasRelu A (rowOf b) := by
  rw [host_addRow]
  exact maximumf_broadcastInDim_zero _ h0

/-- The maximum with minus infinity changes nothing. -/
theorem max_negInf (z : EReal) : max negInf z = z := by
  show max (Ideal.ofBits .f32 0xFF800000#32) z = z
  simp [Ideal.ofBits, Ideal.ieee]

/-- A column broadcast over the rows' second axis by the host, read at (p, q): the column's entry p. -/
theorem broadcastInDim_a1_ab_apply {α : Type} (v : (⟨2, ![M, 1]⟩ : Shape).Idx → α)
    (h : (⟨2, ![M, 1]⟩ : Shape).BroadcastsInDim ⟨2, ![M, N]⟩ ![0, 1]) (p : Fin M) (q : Fin N) :
    broadcastInDim ⟨2, ![M, N]⟩ ![0, 1] h v (ix2 p q) = v (ix2 p (0 : Fin 1)) :=
  broadcastInDim_apply ![0, 1] h v (ix2 p q) (ix2 p (0 : Fin 1)) (fun ax => by
    match ax with
    | ⟨0, _⟩ =>
      show p.val = if M = 1 then 0 else p.val
      split
      · have := p.isLt; omega
      · rfl
    | ⟨1, _⟩ =>
      show 0 = if (1 : ℕ) = 1 then 0 else q.val
      rw [if_pos rfl])

/-- The host's row maximum from minus infinity, at row p: the row's largest entry. -/
theorem host_reduce_max_row (Y : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel) (p : Fin M) :
    Host.reduce FloatOps.maximumf Y (constant (F := Ideal) ⟨0, ![]⟩ .f32 0xFF800000#32) hrt hu (ix1 p) = rowMax Y p := by
  rw [Host.reduce_eq_fold_single FloatOps.maximumf Y _ hrt hr hu]
  show Finset.fold max negInf (Y ∘ hr.lift (ix1 p)) (Finset.univ : Finset (Fin N)) = _
  exact congrArg (fun f => Finset.fold max negInf f (Finset.univ : Finset (Fin N)))
    (funext fun k => congrArg Y (lift_axis1 hr p k))

/-- The host's row sum from zero, at row p. -/
theorem host_reduce_add_row (Z : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel) (p : Fin M) :
    Host.reduceAdd Z (constant (F := Ideal) ⟨0, ![]⟩ .f32 0x00000000#32) hrt hu (ix1 p) = ∑ k : Fin N, Z (ix2 p k) := by
  simp only [Host.reduceAdd, Ideal.hostReduceAdd_def]
  rw [Ideal.hostReduceAdd_single hrt hr]
  show Ideal.ofBits .f32 0x00000000#32 + ∑ k : Fin N, Z (hr.lift (ix1 p) k) = _
  rw [Ideal.ofBits_zero_f32, zero_add]
  exact Finset.sum_congr rfl fun k _ => congrArg Z (lift_axis1 hr p k)

/-- The host's logarithm of the row-wise softmax: the row maxima (taken once more against minus infinity) and the row
    sums are reductions broadcast back to a column and then over the row. -/
theorem host_logSoftmax (Y : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel)
    (hb0 : (⟨0, ![]⟩ : Shape).BroadcastsInDim ⟨1, ![M]⟩ ![]) (hb1 : (⟨1, ![M]⟩ : Shape).BroadcastsInDim ⟨2, ![M, 1]⟩ ![0])
    (hb2 : (⟨2, ![M, 1]⟩ : Shape).BroadcastsInDim ⟨2, ![M, N]⟩ ![0, 1]) :
    subf (subf Y (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu)))))
      (broadcastInDim ⟨2, ![M, N]⟩ ![0, 1] hb2 (Host.log (broadcastInDim ⟨2, ![M, 1]⟩ ![0] hb1
        (Host.reduceAdd (Host.exp (subf Y (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))))))
          (constant (F := Ideal) ⟨0, ![]⟩ .f32 0x00000000#32) hrt hu))))
      = logSoftmax Y := by
  have hm : ∀ (p : Fin M) (q : Fin N),
      broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))) (ix2 p q)
        = rowMax Y p := fun p q => by
    rw [broadcastInDim_a1_ab_apply, Cert.Layout.bcast_vec_col_apply, maximumf_apply, Cert.Layout.bcast_scalar_apply,
      host_reduce_max_row Y hrt hr hu p]
    exact max_negInf _
  funext i
  obtain ⟨p, q, rfl⟩ : ∃ (p : Fin M) (q : Fin N), i = ix2 p q := ⟨i 0, i 1, eq_ix2 i⟩
  rw [logSoftmax_apply, subf_apply, subf_apply, hm p q, broadcastInDim_a1_ab_apply]
  show (Y (ix2 p q) - rowMax Y p) - Ideal.log (broadcastInDim ⟨2, ![M, 1]⟩ ![0] hb1
        (Host.reduceAdd (Host.exp (subf Y (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))))))
          (constant (F := Ideal) ⟨0, ![]⟩ .f32 0x00000000#32) hrt hu) (ix2 p (0 : Fin 1))) = _
  rw [Cert.Layout.bcast_vec_col_apply, host_reduce_add_row _ hrt hr hu p]
  refine congrArg (fun s => (Y (ix2 p q) - rowMax Y p) - Ideal.log s) (Finset.sum_congr rfl fun k _ => ?_)
  show Ideal.exp (Y (ix2 p k) - broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))) (ix2 p k)) = _
  rw [hm p k]

end Cert.Gcn

end
-- ==== Proof.GcnGraph.lean ====
/-
  The graph-convolution network as one function of its arguments.

  The edge tables (sources and targets, each with the self-loops appended) and the edge weights are functions of the
  edge-index argument alone. One aggregation gathers the rows of a feature matrix that the source table names, scales
  each by its edge's weight and sums them into the rows the target table names. The network is: features times the first
  weights, aggregated, bias and rectifier; times the second weights, aggregated, bias and rectifier; times the last
  weights, aggregated, bias, and the logarithm of the row-wise softmax.
-/
import proofs.«158534_j79087527788732_1_alg».proof.Proof.Gen.ReferenceIdeal
import proofs.«158534_j79087527788732_1_alg».proof.Proof.LibRowSoftmax

noncomputable section

namespace Cert.Gcn

open Cert.ReferenceIdeal Cert.ReferenceIdeal.Gen Cert.Dense Idealize.ShloMosaic Idealize.ShloMosaic.ValueIdx

/-- One aggregation over the edges on 16 feature columns: the rows the source table names (a negative entry read from
    the end), each scaled by its edge's weight, summed into the rows the target table names, from zero. -/
def agg16 (s d : (⟨S5200000, .i32⟩ : BufTy).Contents (Elt Ideal)) (nrm : (⟨S5200000, .f32⟩ : BufTy).Contents (Elt Ideal))
    (H : (⟨S200000x16, .f32⟩ : BufTy).Contents (Elt Ideal)) : (⟨S200000x16, .f32⟩ : BufTy).Contents (Elt Ideal) :=
  Host.scatterAdd (F := Ideal) scatter_S200000x16_S5200000x1_S5200000x16_1_0_0_1
    (broadcastInDim S200000x16 ![] bcast_S_S200000x16 (constant (F := Ideal) S_ .f32 0x00000000#32))
    (broadcastInDim S5200000x1 ![0] bcast_S5200000_S5200000x1_0 d)
    (mulf (F := Ideal)
      (Host.gather gather_S200000x16_S5200000x1_S5200000x16_1_0_n_n_0_1_116 H
        (broadcastInDim S5200000x1 ![0] bcast_S5200000_S5200000x1_0
          (select (cmpi .slt s (broadcastInDim S5200000 ![] bcast_S_S5200000 (constantI S_ 32 0#32)))
            (addi s (broadcastInDim S5200000 ![] bcast_S_S5200000 (constantI S_ 32 200000#32))) s)))
      (broadcastInDim S5200000x16 ![0, 1] bcast_S5200000x1_S5200000x16_0_1
        (broadcastInDim S5200000x1 ![0] bcast_S5200000_S5200000x1_0 nrm)))

/-- One aggregation over the edges on 2 feature columns: the rows the source table names (a negative entry read from
    the end), each scaled by its edge's weight, summed into the rows the target table names, from zero. -/
def agg2 (s d : (⟨S5200000, .i32⟩ : BufTy).Contents (Elt Ideal)) (nrm : (⟨S5200000, .f32⟩ : BufTy).Contents (Elt Ideal))
    (H : (⟨S200000x2, .f32⟩ : BufTy).Contents (Elt Ideal)) : (⟨S200000x2, .f32⟩ : BufTy).Contents (Elt Ideal) :=
  Host.scatterAdd (F := Ideal) scatter_S200000x2_S5200000x1_S5200000x2_1_0_0_1
    (broadcastInDim S200000x2 ![] bcast_S_S200000x2 (constant (F := Ideal) S_ .f32 0x00000000#32))
    (broadcastInDim S5200000x1 ![0] bcast_S5200000_S5200000x1_0 d)
    (mulf (F := Ideal)
      (Host.gather gather_S200000x2_S5200000x1_S5200000x2_1_0_n_n_0_1_12 H
        (broadcastInDim S5200000x1 ![0] bcast_S5200000_S5200000x1_0
          (select (cmpi .slt s (broadcastInDim S5200000 ![] bcast_S_S5200000 (constantI S_ 32 0#32)))
            (addi s (broadcastInDim S5200000 ![] bcast_S_S5200000 (constantI S_ 32 200000#32))) s)))
      (broadcastInDim S5200000x2 ![0, 1] bcast_S5200000x1_S5200000x2_0_1
        (broadcastInDim S5200000x1 ![0] bcast_S5200000_S5200000x1_0 nrm)))

/-- The network over given edge tables and weights. -/
def net (s d : (⟨S5200000, .i32⟩ : BufTy).Contents (Elt Ideal)) (nrm : (⟨S5200000, .f32⟩ : BufTy).Contents (Elt Ideal))
    (x0 : Mat 200000 128) (x2 : Mat 128 16) (x3 : Row 16) (x4 : Mat 16 16) (x5 : Row 16) (x6 : Mat 16 2) (x7 : Row 2) :
    Mat 200000 2 :=
  biasLogSoftmax (agg2 s d nrm (mm (biasRelu (agg16 s d nrm (mm (biasRelu (agg16 s d nrm (mm x0 x2)) (rowOf x3)) x4)) (rowOf x5)) x6))
    (rowOf x7)

end Cert.Gcn

end
-- ==== Proof.RefSide.lean ====
/-
  The reference program's result as the network function.

  Read one operation at a time, the reference multiplies by each weight matrix with a general dot product, aggregates
  over the edges, adds each bias by two broadcasts, rectifies by a maximum with a broadcast zero, and ends in the
  logarithm of the row-wise softmax with its row maxima and row sums taken by reductions. Each of these is the network's
  piece of the same name, so its result is the network function of its arguments, the edge tables and weights being the
  reference's own functions of the edge-index argument.
-/
import proofs.«158534_j79087527788732_1_alg».proof.Proof.RefRead
import proofs.«158534_j79087527788732_1_alg».proof.Proof.GcnGraph

noncomputable section

namespace Cert.ReferenceIdeal.RefValue

open Cert.ReferenceIdeal Cert.ReferenceIdeal.Gen Cert.ReferenceIdeal.Read Cert.Dense Cert.Gcn Idealize.ShloMosaic Idealize.ShloMosaic.ValueIdx

variable (x0 : (⟨S200000x128, .f32⟩ : BufTy).Contents (Elt Ideal)) (x1 : (⟨S2x5000000, .i32⟩ : BufTy).Contents (Elt Ideal))
  (x2 : (⟨S128x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal))
  (x6 : (⟨S16x2, .f32⟩ : BufTy).Contents (Elt Ideal)) (x7 : (⟨S2, .f32⟩ : BufTy).Contents (Elt Ideal))

theorem dot1_eq : dot_S200000x128_S128x16_S200000x16_1_0_0_1_n_n = DotDims.plain 200000 128 16 := rfl
theorem dot2_eq : dot_S200000x16_S16x16_S200000x16_1_0_0_1_n_n = DotDims.plain 200000 16 16 := rfl
theorem dot3_eq : dot_S200000x16_S16x2_S200000x2_1_0_0_1_n_n = DotDims.plain 200000 16 2 := rfl

/-- The source table, the target table and the edge weights: the reference's own functions of the edge index. -/
abbrev src := val_main_v5 (F := Ideal) x1
abbrev dst := val_main_v6 (F := Ideal) x1
abbrev wgt := val_main_v31 (F := Ideal) x1

/-- The first product. -/
theorem v32_eq : val_main_v32 (F := Ideal) x0 x2 = mm x0 x2 := by
  unfold val_main_v32
  rw [dot1_eq]
  exact dotGeneral_plain _ _

/-- The first aggregation is the aggregation of the first product. -/
theorem v45_eq : val_main_v45 (F := Ideal) x0 x1 x2 = agg16 (src x1) (dst x1) (wgt x1) (val_main_v32 (F := Ideal) x0 x2) := rfl

/-- The first layer's activations. -/
theorem v49_eq : val_main_v49 (F := Ideal) x0 x1 x2 x3 = biasRelu (agg16 (src x1) (dst x1) (wgt x1) (mm x0 x2)) (rowOf x3) := by
  show maximumf (addf (val_main_v45 (F := Ideal) x0 x1 x2)
      (broadcastInDim S200000x16 ![0, 1] bcast_S1x16_S200000x16_0_1 (broadcastInDim S1x16 ![1] bcast_S16_S1x16_1 x3)))
      (broadcastInDim S200000x16 ![] bcast_S_S200000x16 (constant (F := Ideal) S_ .f32 0x00000000#32)) = _
  rw [v45_eq, v32_eq]
  exact host_biasRelu _ _ _ _ _

/-- The second product. -/
theorem v50_eq : val_main_v50 (F := Ideal) x0 x1 x2 x3 x4 = mm (val_main_v49 (F := Ideal) x0 x1 x2 x3) x4 := by
  unfold val_main_v50
  rw [dot2_eq]
  exact dotGeneral_plain _ _

theorem v63_eq : val_main_v63 (F := Ideal) x0 x1 x2 x3 x4
    = agg16 (src x1) (dst x1) (wgt x1) (val_main_v50 (F := Ideal) x0 x1 x2 x3 x4) := rfl

/-- The second layer's activations. -/
theorem v67_eq : val_main_v67 (F := Ideal) x0 x1 x2 x3 x4 x5
    = biasRelu (agg16 (src x1) (dst x1) (wgt x1) (mm (val_main_v49 (F := Ideal) x0 x1 x2 x3) x4)) (rowOf x5) := by
  show maximumf (addf (val_main_v63 (F := Ideal) x0 x1 x2 x3 x4)
      (broadcastInDim S200000x16 ![0, 1] bcast_S1x16_S200000x16_0_1 (broadcastInDim S1x16 ![1] bcast_S16_S1x16_1 x5)))
      (broadcastInDim S200000x16 ![] bcast_S_S200000x16 (constant (F := Ideal) S_ .f32 0x00000000#32)) = _
  rw [v63_eq, v50_eq]
  exact host_biasRelu _ _ _ _ _

/-- The last product. -/
theorem v68_eq : val_main_v68 (F := Ideal) x0 x1 x2 x3 x4 x5 x6 = mm (val_main_v67 (F := Ideal) x0 x1 x2 x3 x4 x5) x6 := by
  unfold val_main_v68
  rw [dot3_eq]
  exact dotGeneral_plain _ _

theorem v81_eq : val_main_v81 (F := Ideal) x0 x1 x2 x3 x4 x5 x6
    = agg2 (src x1) (dst x1) (wgt x1) (val_main_v68 (F := Ideal) x0 x1 x2 x3 x4 x5 x6) := rfl

/-- The last aggregate plus its bias. -/
theorem v84_eq : val_main_v84 (F := Ideal) x0 x1 x2 x3 x4 x5 x6 x7
    = addRow (agg2 (src x1) (dst x1) (wgt x1) (mm (val_main_v67 (F := Ideal) x0 x1 x2 x3 x4 x5) x6)) (rowOf x7) := by
  unfold val_main_v84 val_main_v83 val_main_v82
  rw [v81_eq, v68_eq]
  exact host_addRow _ _ _ _

/-- The result is the logarithm of the row-wise softmax of that. -/
theorem v85_eq_logSoftmax : val_main_v85 (F := Ideal) x0 x1 x2 x3 x4 x5 x6 x7
    = logSoftmax (val_main_v84 (F := Ideal) x0 x1 x2 x3 x4 x5 x6 x7) := by
  generalize hY : val_main_v84 (F := Ideal) x0 x1 x2 x3 x4 x5 x6 x7 = Y
  have e := host_logSoftmax (M := 200000) (N := 2) Y reducesTo_S200000x2_S200000_d1 (by decide) h_S_
    bcast_S_S200000 bcast_S200000_S200000x1_0 bcast_S200000x1_S200000x2_0_1
  rw [← e, ← hY]
  rfl

/-- The reference's result is the network function of its arguments. -/
theorem result_eq : val_main_v85 (F := Ideal) x0 x1 x2 x3 x4 x5 x6 x7
    = net (src x1) (dst x1) (wgt x1) x0 x2 x3 x4 x5 x6 x7 := by
  rw [v85_eq_logSoftmax, v84_eq, v67_eq, v49_eq]
  rfl

end Cert.ReferenceIdeal.RefValue

end
-- ==== Proof.KernelRun.lean ====
/-
  The kernel program's run with its result named.

  The program is six launches among stretches of host operations. Its whole run terminates without a fault and leaves
  every buffer that outlives a launch at the last boundary's contents: the fold of the host stretches and of each
  launch's write-backs from the memory the program starts in. Read at the result buffer this is the last launch's
  output array after its write-backs; read at the arguments it is the memory they started with.
-/
import proofs.«158534_j79087527788732_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as they started. -/
theorem run : θ_run defs (onTc (τ := τ) (main (F := F))) ⟨m, fun _ => 0, ρ⟩ (fun r => ∀ c : Dev nD,
      r.2.mem ((c.tc : Thread nD τ).loc main_v79) = W12 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v79 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Whole

end
-- ==== Proof.Launch0.lean ====
/-
  The first launch: the node features times the first weight matrix, computed block of 10000 rows by block.

  At each of the twenty points the body multiplies rows 10000·t … 10000·t + 9999 of the features by the whole weight
  matrix; a row of a product depends on the left factor's row only, so the blocks written back are the rows of the
  product of the whole arrays, and together they cover the result.
-/
import proofs.«158534_j79087527788732_1_alg».proof.Proof.Gen.KernelIdeal.Frame
import proofs.«158534_j79087527788732_1_alg».proof.Proof.LibRowSoftmax

set_option maxRecDepth 16384

noncomputable section

namespace Cert.KernelIdeal.Launch0

open Cert.KernelIdeal Cert.KernelIdeal.Gen Cert.Dense Cert.Gcn
open Idealize.ShloMosaic Idealize.ShloMosaic.TcCoe Idealize.ShloMosaic.ValueIdx Idealize.SL.Sem
open Idealize.ShloMosaic.Pipeline (Dat)

-- the buffers' contents when the launch is entered
variable (V : (c : Dev nD) → (b : Ref sig .tc) → Buf (Elt Ideal) ((c : Thread nD τ).loc b))

theorem hz : (![0, 0] : Fin 2 → Nat) = fun _ => 0 := funext fun a => by fin_cases a <;> rfl

theorem dot_eq : dot_S10000x128_S128x16_S10000x16_1_0_0_1_n_n = DotDims.plain 10000 128 16 := rfl

/-- The body's arithmetic: the matrix product of the two loaded blocks (the narrowing to half-width words is the identity
    on the extended reals, and the accumulator starts at zero). -/
theorem pay (x0 : Vec Ideal S10000x128 .f32) (x1 : Vec Ideal S128x16 .f32) : k0_pay1 x0 x1 = mm x0 x1 := by
  unfold k0_pay1
  rw [dot_eq]
  exact matmul_plain_zero none _ _

/-- The printed index maps over the twenty points: the row operand's and the result's block index is (t, 0), the second
    operand's is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the block at point t is row 10000·t + p of the array. -/
def rowAt (t : Fin cfg0.N) (p : Fin 10000) : Fin 200000 :=
  ⟨t.val * 10000 + p.val, by have := t.isLt; have hN : cfg0.N = 20 := N_0; have := p.isLt; omega⟩

/-- The row operand's block at point t, read at (p, k): the array's entry (10000·t + p, k). -/
theorem read0 (c : Dev nD) (t : Fin cfg0.N) (p : Fin 10000) (k : Fin 128) :
    iblk0 V c 0 t (ix2 p k) = V c main_arg0 (ix2 (rowAt t p) k) := by
  obtain ⟨e0, e1, -, -, -, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 128 + 1 * k.val = k.val; rw [e1]; omega

/-- The weight window's block is the whole weight matrix at every point. -/
theorem read1 (c : Dev nD) (t : Fin cfg0.N) : iblk0 V c 1 t = V c main_arg2 := by
  obtain ⟨-, -, e2, e3, -, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; rw [e2]; omega
  | ⟨1, _⟩ => show win0_1.index t (1 : Fin 2) * 16 + 1 * (y 1).val = (y 1).val; rw [e3]; omega

/-- The body's result at a point, entry by entry: the whole-array function at the block's rows. -/
theorem point_eq (A : S200000x128.Idx → EReal) (W : S128x16.Idx → EReal) (x0 : Vec Ideal S10000x128 .f32) (x1 : Vec Ideal S128x16 .f32)
    (ρ : Fin 10000 → Fin 200000) (h0 : ∀ p k, x0 (ix2 p k) = A (ix2 (ρ p) k)) (h1 : x1 = W) (y : S10000x16.Idx) :
    k0_pay1 x0 x1 y = mm A W (ix2 (ρ (y 0)) (y 1)) := by
  obtain ⟨p, q, rfl⟩ : ∃ (p : Fin 10000) (q : Fin 16), y = ix2 p q := ⟨y 0, y 1, eq_ix2 y⟩
  rw [pay]
  subst h1
  exact mm_rows A x0 x1 ρ h0 p q

/-- What point t writes back is block t of the whole-array function of the arrays as the launch finds them. -/
theorem flushed_eq (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  obtain ⟨-, -, -, -, e4, e5⟩ := idx_facts t
  funext j
  refine (point_eq (V c main_arg0) (V c main_arg2) (iblk0 V c 0 t) (iblk0 V c 1 t) (rowAt t)
    (fun p k => read0 V c t p k) (read1 V c t) j).trans ?_
  show mm (V c main_arg0) (V c main_arg2) (ix2 (rowAt t (j 0)) (j 1))
    = mm (V c main_arg0) (V c main_arg2) (((cfg0.win 2).blk t).view.emb j)
  refine congrArg (mm (V c main_arg0) (V c main_arg2)) (funext fun a => Fin.ext ?_)
  match a with
  | ⟨0, _⟩ => show t.val * 10000 + (j 0).val = win0_2.index t (0 : Fin 2) * 10000 + 1 * (j 0).val; rw [e4]; omega
  | ⟨1, _⟩ => show (j 1).val = win0_2.index t (1 : Fin 2) * 16 + 1 * (j 1).val; rw [e5]; omega

/-- An index of the result array is in point t's block iff each coordinate is in the block's range on its axis. -/
theorem mem_blk (t : Fin cfg0.N) (i : S200000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v32).slice (win0_2.rect t)).set ↔ _
  rw [View.set_slice_whole, Rect.mem_set_unit]
  exact Iff.rfl

/-- Row r of the result lies in the block of point r / 10000: the blocks cover the array. -/
theorem cover (i : S200000x16.Idx) : ∃ t : Fin cfg0.N, (cfg0.win 2).flush t = true ∧ i ∈ ((cfg0.win 2).blk t).view.set := by
  have hi0 : (i 0).val < 200000 := (i 0).isLt
  have hi1 : (i 1).val < 16 := (i 1).isLt
  have hN : cfg0.N = 20 := N_0
  have ht : (i 0).val / 10000 < cfg0.N := by omega
  obtain ⟨-, -, -, -, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ (1 : Fin 2) * 16 ≤ (i 1).val ∧ (i 1).val < win0_2.index ⟨(i 0).val / 10000, ht⟩ (1 : Fin 2) * 16 + 16
    rw [e5]
    omega

/-- The result array after the launch's write-backs: the whole-array function of the arrays as the launch finds them. -/
theorem final (c : Dev nD) : (dat0 V c).arrAt 2 cfg0.N = mm (V c main_arg0) (V c main_arg2) :=
  (dat0 V c).arrAt_eq_of_cover 2 _ (fun t _ => flushed_eq V c t) cover

end Cert.KernelIdeal.Launch0

end
-- ==== Proof.Launch1.lean ====
/-
  The second launch: the first layer's bias and rectifier on the aggregated features, block of 10000 rows by block.

  Entry (p, q) of the result reads entry (p, q) of the aggregate and entry q of the bias row only, so the blocks
  written back are the rows of the rectified sum of the whole arrays, and together they cover the result.
-/
import proofs.«158534_j79087527788732_1_alg».proof.Proof.Gen.KernelIdeal.Frame
import proofs.«158534_j79087527788732_1_alg».proof.Proof.LibRowSoftmax

set_option maxRecDepth 16384

noncomputable section

namespace Cert.KernelIdeal.Launch1

open Cert.KernelIdeal Cert.KernelIdeal.Gen Cert.Dense Cert.Gcn
open Idealize.ShloMosaic Idealize.ShloMosaic.TcCoe Idealize.ShloMosaic.ValueIdx Idealize.SL.Sem
open Idealize.ShloMosaic.Pipeline (Dat)

-- the buffers' contents when the launch is entered
variable (V : (c : Dev nD) → (b : Ref sig .tc) → Buf (Elt Ideal) ((c : Thread nD τ).loc b))

theorem hz : (![0, 0] : Fin 2 → Nat) = fun _ => 0 := funext fun a => by fin_cases a <;> rfl

/-- The body's arithmetic: the bias row added to every row of the block, then the rectifier. -/
theorem pay (x0 : Vec Ideal S10000x16 .f32) (x1 : Vec Ideal S1x16 .f32) : k1_pay1 x0 x1 = biasRelu x0 x1 :=
  kernel_biasRelu x0 x1 _ _ _

/-- The printed index maps over the twenty points: the row operand's and the result's block index is (t, 0), the second
    operand's is (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the block at point t is row 10000·t + p of the array. -/
def rowAt (t : Fin cfg1.N) (p : Fin 10000) : Fin 200000 :=
  ⟨t.val * 10000 + p.val, by have := t.isLt; have hN : cfg1.N = 20 := N_1; have := p.isLt; omega⟩

/-- The row operand's block at point t, read at (p, k): the array's entry (10000·t + p, k). -/
theorem read0 (c : Dev nD) (t : Fin cfg1.N) (p : Fin 10000) (k : Fin 16) :
    iblk1 V c 0 t (ix2 p k) = V c main_v45 (ix2 (rowAt t p) k) := by
  obtain ⟨e0, e1, -, -, -, -⟩ := idx_facts t
  show V c main_v45 (((cfg1.win 0).blk t).view.emb (ix2 p k)) = _
  refine congrArg (V c main_v45) (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 16 + 1 * k.val = k.val; rw [e1]; omega

/-- The bias window's block is the whole one-row bias at every point. -/
theorem read1 (c : Dev nD) (t : Fin cfg1.N) : iblk1 V c 1 t = V c main_v46 := by
  obtain ⟨-, -, e2, e3, -, -⟩ := idx_facts t
  funext y
  show V c main_v46 (((cfg1.win 1).blk t).view.emb y) = V c main_v46 y
  refine congrArg (V c main_v46) (funext fun a => Fin.ext ?_)
  match a with
  | ⟨0, _⟩ => show win1_1.index t (0 : Fin 2) * 1 + 1 * (y 0).val = (y 0).val; rw [e2]; omega
  | ⟨1, _⟩ => show win1_1.index t (1 : Fin 2) * 16 + 1 * (y 1).val = (y 1).val; rw [e3]; omega

/-- The body's result at a point, entry by entry: the whole-array function at the block's rows. -/
theorem point_eq (A : S200000x16.Idx → EReal) (W : S1x16.Idx → EReal) (x0 : Vec Ideal S10000x16 .f32) (x1 : Vec Ideal S1x16 .f32)
    (ρ : Fin 10000 → Fin 200000) (h0 : ∀ p k, x0 (ix2 p k) = A (ix2 (ρ p) k)) (h1 : x1 = W) (y : S10000x16.Idx) :
    k1_pay1 x0 x1 y = biasRelu A W (ix2 (ρ (y 0)) (y 1)) := by
  obtain ⟨p, q, rfl⟩ : ∃ (p : Fin 10000) (q : Fin 16), y = ix2 p q := ⟨y 0, y 1, eq_ix2 y⟩
  rw [pay]
  subst h1
  exact biasRelu_rows A x0 x1 ρ h0 p q

/-- What point t writes back is block t of the whole-array function of the arrays as the launch finds them. -/
theorem flushed_eq (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero hz]
  simp only [View.ld_unit_zero (S := S10000x16) hz, View.ld_unit_zero (S := S1x16) hz]
  obtain ⟨-, -, -, -, e4, e5⟩ := idx_facts t
  funext j
  refine (point_eq (V c main_v45) (V c main_v46) (iblk1 V c 0 t) (iblk1 V c 1 t) (rowAt t)
    (fun p k => read0 V c t p k) (read1 V c t) j).trans ?_
  show biasRelu (V c main_v45) (V c main_v46) (ix2 (rowAt t (j 0)) (j 1))
    = biasRelu (V c main_v45) (V c main_v46) (((cfg1.win 2).blk t).view.emb j)
  refine congrArg (biasRelu (V c main_v45) (V c main_v46)) (funext fun a => Fin.ext ?_)
  match a with
  | ⟨0, _⟩ => show t.val * 10000 + (j 0).val = win1_2.index t (0 : Fin 2) * 10000 + 1 * (j 0).val; rw [e4]; omega
  | ⟨1, _⟩ => show (j 1).val = win1_2.index t (1 : Fin 2) * 16 + 1 * (j 1).val; rw [e5]; omega

/-- An index of the result array is in point t's block iff each coordinate is in the block's range on its axis. -/
theorem mem_blk (t : Fin cfg1.N) (i : S200000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v47).slice (win1_2.rect t)).set ↔ _
  rw [View.set_slice_whole, Rect.mem_set_unit]
  exact Iff.rfl

/-- Row r of the result lies in the block of point r / 10000: the blocks cover the array. -/
theorem cover (i : S200000x16.Idx) : ∃ t : Fin cfg1.N, (cfg1.win 2).flush t = true ∧ i ∈ ((cfg1.win 2).blk t).view.set := by
  have hi0 : (i 0).val < 200000 := (i 0).isLt
  have hi1 : (i 1).val < 16 := (i 1).isLt
  have hN : cfg1.N = 20 := N_1
  have ht : (i 0).val / 10000 < cfg1.N := by omega
  obtain ⟨-, -, -, -, e4, e5⟩ := idx_facts ⟨(i 0).val / 10000, ht⟩
  refine ⟨⟨(i 0).val / 10000, ht⟩, flush1_2 _, ?_⟩
  rw [mem_blk]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, ht⟩ (1 : Fin 2) * 16 ≤ (i 1).val ∧ (i 1).val < win1_2.index ⟨(i 0).val / 10000, ht⟩ (1 : Fin 2) * 16 + 16
    rw [e5]
    omega

/-- The result array after the launch's write-backs: the whole-array function of the arrays as the launch finds them. -/
theorem final (c : Dev nD) : (dat1 V c).arrAt 2 cfg1.N = biasRelu (V c main_v45) (V c main_v46) :=
  (dat1 V c).arrAt_eq_of_cover 2 _ (fun t _ => flushed_eq V c t) cover

end Cert.KernelIdeal.Launch1

end
-- ==== Proof.Launch2.lean ====
/-
  The third launch: the first layer's activations times the second weight matrix, block of 10000 rows by block.

  A row of a product depends on the left factor's row only, so the blocks written back are the rows of the product of
  the whole arrays, and together they cover the result.
-/
import proofs.«158534_j79087527788732_1_alg».proof.Proof.Gen.KernelIdeal.Frame
import proofs.«158534_j79087527788732_1_alg».proof.Proof.LibRowSoftmax

set_option maxRecDepth 16384

noncomputable section

namespace Cert.KernelIdeal.Launch2

open Cert.KernelIdeal Cert.KernelIdeal.Gen Cert.Dense Cert.Gcn
open Idealize.ShloMosaic Idealize.ShloMosaic.TcCoe Idealize.ShloMosaic.ValueIdx Idealize.SL.Sem
open Idealize.ShloMosaic.Pipeline (Dat)

-- the buffers' contents when the launch is entered
variable (V : (c : Dev nD) → (b : Ref sig .tc) → Buf (Elt Ideal) ((c : Thread nD τ).loc b))

theorem hz : (![0, 0] : Fin 2 → Nat) = fun _ => 0 := funext fun a => by fin_cases a <;> rfl

theorem dot_eq : dot_S10000x16_S16x16_S10000x16_1_0_0_1_n_n = DotDims.plain 10000 16 16 := rfl

/-- The body's arithmetic: the matrix product of the two loaded blocks (the narrowing to half-width words is the identity
    on the extended reals, and the accumulator starts at zero). -/
theorem pay (x0 : Vec Ideal S10000x16 .f32) (x1 : Vec Ideal S16x16 .f32) : k2_pay1 x0 x1 = mm x0 x1 := by
  unfold k2_pay1
  rw [dot_eq, shapeCast_self]
  exact matmul_plain_zero none _ _

/-- The printed index maps over the twenty points: the row operand's and the result's block index is (t, 0), the second
    operand's is (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the block at point t is row 10000·t + p of the array. -/
def rowAt (t : Fin cfg2.N) (p : Fin 10000) : Fin 200000 :=
  ⟨t.val * 10000 + p.val, by have := t.isLt; have hN : cfg2.N = 20 := N_2; have := p.isLt; omega⟩

/-- The row operand's block at point t, read at (p, k): the array's entry (10000·t + p, k). -/
theorem read0 (c : Dev nD) (t : Fin cfg2.N) (p : Fin 10000) (k : Fin 16) :
    iblk2 V c 0 t (ix2 p k) = V c main_v47 (ix2 (rowAt t p) k) := by
  obtain ⟨e0, e1, -, -, -, -⟩ := idx_facts t
  show V c main_v47 (((cfg2.win 0).blk t).view.emb (ix2 p k)) = _
  refine congrArg (V c main_v47) (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 16 + 1 * k.val = k.val; rw [e1]; omega

/-- The weight window's block is the whole weight matrix at every point. -/
theorem read1 (c : Dev nD) (t : Fin cfg2.N) : iblk2 V c 1 t = V c main_arg4 := by
  obtain ⟨-, -, e2, e3, -, -⟩ := idx_facts t
  funext y
  show V c main_arg4 (((cfg2.win 1).blk t).view.emb y) = V c main_arg4 y
  refine congrArg (V c main_arg4) (funext fun a => Fin.ext ?_)
  match a with
  | ⟨0, _⟩ => show win2_1.index t (0 : Fin 2) * 16 + 1 * (y 0).val = (y 0).val; rw [e2]; omega
  | ⟨1, _⟩ => show win2_1.index t (1 : Fin 2) * 16 + 1 * (y 1).val = (y 1).val; rw [e3]; omega

/-- The body's result at a point, entry by entry: the whole-array function at the block's rows. -/
theorem point_eq (A : S200000x16.Idx → EReal) (W : S16x16.Idx → EReal) (x0 : Vec Ideal S10000x16 .f32) (x1 : Vec Ideal S16x16 .f32)
    (ρ : Fin 10000 → Fin 200000) (h0 : ∀ p k, x0 (ix2 p k) = A (ix2 (ρ p) k)) (h1 : x1 = W) (y : S10000x16.Idx) :
    k2_pay1 x0 x1 y = mm A W (ix2 (ρ (y 0)) (y 1)) := by
  obtain ⟨p, q, rfl⟩ : ∃ (p : Fin 10000) (q : Fin 16), y = ix2 p q := ⟨y 0, y 1, eq_ix2 y⟩
  rw [pay]
  subst h1
  exact mm_rows A x0 x1 ρ h0 p q

/-- What point t writes back is block t of the whole-array function of the arrays as the launch finds them. -/
theorem flushed_eq (c : Dev nD) (t : Fin cfg2.N) :
    (dat2 V c).flushed 2 t = ((cfg2.win 2).blk t).view.read (Elt Ideal) (mm (V c main_v47) (V c main_arg4)) := by
  show (cfg2.win 2).cut (grid2.coords t) ((dat2 V c).after 2 t) = _
  rw [after2_2]
  unfold out2_2
  rw [View.canon_unit_zero hz]
  simp only [View.ld_unit_zero (S := S10000x16) hz, View.ld_unit_zero (S := S16x16) hz]
  obtain ⟨-, -, -, -, e4, e5⟩ := idx_facts t
  funext j
  refine (point_eq (V c main_v47) (V c main_arg4) (iblk2 V c 0 t) (iblk2 V c 1 t) (rowAt t)
    (fun p k => read0 V c t p k) (read1 V c t) j).trans ?_
  show mm (V c main_v47) (V c main_arg4) (ix2 (rowAt t (j 0)) (j 1))
    = mm (V c main_v47) (V c main_arg4) (((cfg2.win 2).blk t).view.emb j)
  refine congrArg (mm (V c main_v47) (V c main_arg4)) (funext fun a => Fin.ext ?_)
  match a with
  | ⟨0, _⟩ => show t.val * 10000 + (j 0).val = win2_2.index t (0 : Fin 2) * 10000 + 1 * (j 0).val; rw [e4]; omega
  | ⟨1, _⟩ => show (j 1).val = win2_2.index t (1 : Fin 2) * 16 + 1 * (j 1).val; rw [e5]; omega

/-- An index of the result array is in point t's block iff each coordinate is in the block's range on its axis. -/
theorem mem_blk (t : Fin cfg2.N) (i : S200000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v48).slice (win2_2.rect t)).set ↔ _
  rw [View.set_slice_whole, Rect.mem_set_unit]
  exact Iff.rfl

/-- Row r of the result lies in the block of point r / 10000: the blocks cover the array. -/
theorem cover (i : S200000x16.Idx) : ∃ t : Fin cfg2.N, (cfg2.win 2).flush t = true ∧ i ∈ ((cfg2.win 2).blk t).view.set := by
  have hi0 : (i 0).val < 200000 := (i 0).isLt
  have hi1 : (i 1).val < 16 := (i 1).isLt
  have hN : cfg2.N = 20 := N_2
  have ht : (i 0).val / 10000 < cfg2.N := by omega
  obtain ⟨-, -, -, -, e4, e5⟩ := idx_facts ⟨(i 0).val / 10000, ht⟩
  refine ⟨⟨(i 0).val / 10000, ht⟩, flush2_2 _, ?_⟩
  rw [mem_blk]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, ht⟩ (1 : Fin 2) * 16 ≤ (i 1).val ∧ (i 1).val < win2_2.index ⟨(i 0).val / 10000, ht⟩ (1 : Fin 2) * 16 + 16
    rw [e5]
    omega

/-- The result array after the launch's write-backs: the whole-array function of the arrays as the launch finds them. -/
theorem final (c : Dev nD) : (dat2 V c).arrAt 2 cfg2.N = mm (V c main_v47) (V c main_arg4) :=
  (dat2 V c).arrAt_eq_of_cover 2 _ (fun t _ => flushed_eq V c t) cover

end Cert.KernelIdeal.Launch2

end
-- ==== Proof.Launch3.lean ====
/-
  The fourth launch: the second layer's bias and rectifier on the aggregated features, block of 10000 rows by block.

  Entry (p, q) of the result reads entry (p, q) of the aggregate and entry q of the bias row only, so the blocks
  written back are the rows of the rectified sum of the whole arrays, and together they cover the result.
-/
import proofs.«158534_j79087527788732_1_alg».proof.Proof.Gen.KernelIdeal.Frame
import proofs.«158534_j79087527788732_1_alg».proof.Proof.LibRowSoftmax

set_option maxRecDepth 16384

noncomputable section

namespace Cert.KernelIdeal.Launch3

open Cert.KernelIdeal Cert.KernelIdeal.Gen Cert.Dense Cert.Gcn
open Idealize.ShloMosaic Idealize.ShloMosaic.TcCoe Idealize.ShloMosaic.ValueIdx Idealize.SL.Sem
open Idealize.ShloMosaic.Pipeline (Dat)

-- the buffers' contents when the launch is entered
variable (V : (c : Dev nD) → (b : Ref sig .tc) → Buf (Elt Ideal) ((c : Thread nD τ).loc b))

theorem hz : (![0, 0] : Fin 2 → Nat) = fun _ => 0 := funext fun a => by fin_cases a <;> rfl

/-- The body's arithmetic: the bias row added to every row of the block, then the rectifier. -/
theorem pay (x0 : Vec Ideal S10000x16 .f32) (x1 : Vec Ideal S1x16 .f32) : k3_pay1 x0 x1 = biasRelu x0 x1 :=
  kernel_biasRelu x0 x1 _ _ _

/-- The printed index maps over the twenty points: the row operand's and the result's block index is (t, 0), the second
    operand's is (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of the block at point t is row 10000·t + p of the array. -/
def rowAt (t : Fin cfg3.N) (p : Fin 10000) : Fin 200000 :=
  ⟨t.val * 10000 + p.val, by have := t.isLt; have hN : cfg3.N = 20 := N_3; have := p.isLt; omega⟩

/-- The row operand's block at point t, read at (p, k): the array's entry (10000·t + p, k). -/
theorem read0 (c : Dev nD) (t : Fin cfg3.N) (p : Fin 10000) (k : Fin 16) :
    iblk3 V c 0 t (ix2 p k) = V c main_v61 (ix2 (rowAt t p) k) := by
  obtain ⟨e0, e1, -, -, -, -⟩ := idx_facts t
  show V c main_v61 (((cfg3.win 0).blk t).view.emb (ix2 p k)) = _
  refine congrArg (V c main_v61) (funext fun a => Fin.ext ?_)
  match a with
  | ⟨0, _⟩ => show win3_0.index t (0 : Fin 2) * 10000 + 1 * p.val = t.val * 10000 + p.val; rw [e0]; omega
  | ⟨1, _⟩ => show win3_0.index t (1 : Fin 2) * 16 + 1 * k.val = k.val; rw [e1]; omega

/-- The bias window's block is the whole one-row bias at every point. -/
theorem read1 (c : Dev nD) (t : Fin cfg3.N) : iblk3 V c 1 t = V c main_v62 := by
  obtain ⟨-, -, e2, e3, -, -⟩ := idx_facts t
  funext y
  show V c main_v62 (((cfg3.win 1).blk t).view.emb y) = V c main_v62 y
  refine congrArg (V c main_v62) (funext fun a => Fin.ext ?_)
  match a with
  | ⟨0, _⟩ => show win3_1.index t (0 : Fin 2) * 1 + 1 * (y 0).val = (y 0).val; rw [e2]; omega
  | ⟨1, _⟩ => show win3_1.index t (1 : Fin 2) * 16 + 1 * (y 1).val = (y 1).val; rw [e3]; omega

/-- The body's result at a point, entry by entry: the whole-array function at the block's rows. -/
theorem point_eq (A : S200000x16.Idx → EReal) (W : S1x16.Idx → EReal) (x0 : Vec Ideal S10000x16 .f32) (x1 : Vec Ideal S1x16 .f32)
    (ρ : Fin 10000 → Fin 200000) (h0 : ∀ p k, x0 (ix2 p k) = A (ix2 (ρ p) k)) (h1 : x1 = W) (y : S10000x16.Idx) :
    k3_pay1 x0 x1 y = biasRelu A W (ix2 (ρ (y 0)) (y 1)) := by
  obtain ⟨p, q, rfl⟩ : ∃ (p : Fin 10000) (q : Fin 16), y = ix2 p q := ⟨y 0, y 1, eq_ix2 y⟩
  rw [pay]
  subst h1
  exact biasRelu_rows A x0 x1 ρ h0 p q

/-- What point t writes back is block t of the whole-array function of the arrays as the launch finds them. -/
theorem flushed_eq (c : Dev nD) (t : Fin cfg3.N) :
    (dat3 V c).flushed 2 t = ((cfg3.win 2).blk t).view.read (Elt Ideal) (biasRelu (V c main_v61) (V c main_v62)) := by
  show (cfg3.win 2).cut (grid3.coords t) ((dat3 V c).after 2 t) = _
  rw [after3_2]
  unfold out3_2
  rw [View.canon_unit_zero hz]
  simp only [View.ld_unit_zero (S := S10000x16) hz, View.ld_unit_zero (S := S1x16) hz]
  obtain ⟨-, -, -, -, e4, e5⟩ := idx_facts t
  funext j
  refine (point_eq (V c main_v61) (V c main_v62) (iblk3 V c 0 t) (iblk3 V c 1 t) (rowAt t)
    (fun p k => read0 V c t p k) (read1 V c t) j).trans ?_
  show biasRelu (V c main_v61) (V c main_v62) (ix2 (rowAt t (j 0)) (j 1))
    = biasRelu (V c main_v61) (V c main_v62) (((cfg3.win 2).blk t).view.emb j)
  refine congrArg (biasRelu (V c main_v61) (V c main_v62)) (funext fun a => Fin.ext ?_)
  match a with
  | ⟨0, _⟩ => show t.val * 10000 + (j 0).val = win3_2.index t (0 : Fin 2) * 10000 + 1 * (j 0).val; rw [e4]; omega
  | ⟨1, _⟩ => show (j 1).val = win3_2.index t (1 : Fin 2) * 16 + 1 * (j 1).val; rw [e5]; omega

/-- An index of the result array is in point t's block iff each coordinate is in the block's range on its axis. -/
theorem mem_blk (t : Fin cfg3.N) (i : S200000x16.Idx) :
    i ∈ ((cfg3.win 2).blk t).view.set ↔ ∀ a : Fin 2, win3_2.index t a * S10000x16.size a ≤ (i a).val ∧ (i a).val < win3_2.index t a * S10000x16.size a + S10000x16.size a := by
  show i ∈ ((View.whole main_v63).slice (win3_2.rect t)).set ↔ _
  rw [View.set_slice_whole, Rect.mem_set_unit]
  exact Iff.rfl

/-- Row r of the result lies in the block of point r / 10000: the blocks cover the array. -/
theorem cover (i : S200000x16.Idx) : ∃ t : Fin cfg3.N, (cfg3.win 2).flush t = true ∧ i ∈ ((cfg3.win 2).blk t).view.set := by
  have hi0 : (i 0).val < 200000 := (i 0).isLt
  have hi1 : (i 1).val < 16 := (i 1).isLt
  have hN : cfg3.N = 20 := N_3
  have ht : (i 0).val / 10000 < cfg3.N := by omega
  obtain ⟨-, -, -, -, e4, e5⟩ := idx_facts ⟨(i 0).val / 10000, ht⟩
  refine ⟨⟨(i 0).val / 10000, ht⟩, flush3_2 _, ?_⟩
  rw [mem_blk]
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win3_2.index ⟨(i 0).val / 10000, ht⟩ (1 : Fin 2) * 16 ≤ (i 1).val ∧ (i 1).val < win3_2.index ⟨(i 0).val / 10000, ht⟩ (1 : Fin 2) * 16 + 16
    rw [e5]
    omega

/-- The result array after the launch's write-backs: the whole-array function of the arrays as the launch finds them. -/
theorem final (c : Dev nD) : (dat3 V c).arrAt 2 cfg3.N = biasRelu (V c main_v61) (V c main_v62) :=
  (dat3 V c).arrAt_eq_of_cover 2 _ (fun t _ => flushed_eq V c t) cover

end Cert.KernelIdeal.Launch3

end
-- ==== Proof.Launch4.lean ====
/-
  The fifth launch: the second layer's activations times the last weight matrix, block of 10000 rows by block.

  A row of a product depends on the left factor's row only, so the blocks written back are the rows of the product of
  the whole arrays, and together they cover the result.
-/
import proofs.«158534_j79087527788732_1_alg».proof.Proof.Gen.KernelIdeal.Frame
import proofs.«158534_j79087527788732_1_alg».proof.Proof.LibRowSoftmax

set_option maxRecDepth 16384

noncomputable section

namespace Cert.KernelIdeal.Launch4

open Cert.KernelIdeal Cert.KernelIdeal.Gen Cert.Dense Cert.Gcn
open Idealize.ShloMosaic Idealize.ShloMosaic.TcCoe Idealize.ShloMosaic.ValueIdx Idealize.SL.Sem
open Idealize.ShloMosaic.Pipeline (Dat)

-- the buffers' contents when the launch is entered
variable (V : (c : Dev nD) → (b : Ref sig .tc) → Buf (Elt Ideal) ((c : Thread nD τ).loc b))

theorem hz : (![0, 0] : Fin 2 → Nat) = fun _ => 0 := funext fun a => by fin_cases a <;> rfl

theorem dot_eq : dot_S10000x16_S16x2_S10000x2_1_0_0_1_n_n = DotDims.plain 10000 16 2 := rfl

/-- The body's arithmetic: the matrix product of the two loaded blocks (the narrowing to half-width words is the identity
    on the extended reals, and the accumulator starts at zero). -/
theorem pay (x0 : Vec Ideal S10000x16 .f32) (x1 : Vec Ideal S16x2 .f32) : k4_pay1 x0 x1 = mm x0 x1 := by
  unfold k4_pay1
  rw [dot_eq, shapeCast_self]
  exact matmul_plain_zero none _ _

/-- The printed index maps over the twenty points: the row operand's and the result's block index is (t, 0), the second
    operand's is (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row p of the block at point t is row 10000·t + p of the array. -/
def rowAt (t : Fin cfg4.N) (p : Fin 10000) : Fin 200000 :=
  ⟨t.val * 10000 + p.val, by have := t.isLt; have hN : cfg4.N = 20 := N_4; have := p.isLt; omega⟩

/-- The row operand's block at point t, read at (p, k): the array's entry (10000·t + p, k). -/
theorem read0 (c : Dev nD) (t : Fin cfg4.N) (p : Fin 10000) (k : Fin 16) :
    iblk4 V c 0 t (ix2 p k) = V c main_v63 (ix2 (rowAt t p) k) := by
  obtain ⟨e0, e1, -, -, -, -⟩ := idx_facts t
  show V c main_v63 (((cfg4.win 0).blk t).view.emb (ix2 p k)) = _
  refine congrArg (V c main_v63) (funext fun a => Fin.ext ?_)
  match a with
  | ⟨0, _⟩ => show win4_0.index t (0 : Fin 2) * 10000 + 1 * p.val = t.val * 10000 + p.val; rw [e0]; omega
  | ⟨1, _⟩ => show win4_0.index t (1 : Fin 2) * 16 + 1 * k.val = k.val; rw [e1]; omega

/-- The weight window's block is the whole weight matrix at every point. -/
theorem read1 (c : Dev nD) (t : Fin cfg4.N) : iblk4 V c 1 t = V c main_arg6 := by
  obtain ⟨-, -, e2, e3, -, -⟩ := idx_facts t
  funext y
  show V c main_arg6 (((cfg4.win 1).blk t).view.emb y) = V c main_arg6 y
  refine congrArg (V c main_arg6) (funext fun a => Fin.ext ?_)
  match a with
  | ⟨0, _⟩ => show win4_1.index t (0 : Fin 2) * 16 + 1 * (y 0).val = (y 0).val; rw [e2]; omega
  | ⟨1, _⟩ => show win4_1.index t (1 : Fin 2) * 2 + 1 * (y 1).val = (y 1).val; rw [e3]; omega

/-- The body's result at a point, entry by entry: the whole-array function at the block's rows. -/
theorem point_eq (A : S200000x16.Idx → EReal) (W : S16x2.Idx → EReal) (x0 : Vec Ideal S10000x16 .f32) (x1 : Vec Ideal S16x2 .f32)
    (ρ : Fin 10000 → Fin 200000) (h0 : ∀ p k, x0 (ix2 p k) = A (ix2 (ρ p) k)) (h1 : x1 = W) (y : S10000x2.Idx) :
    k4_pay1 x0 x1 y = mm A W (ix2 (ρ (y 0)) (y 1)) := by
  obtain ⟨p, q, rfl⟩ : ∃ (p : Fin 10000) (q : Fin 2), y = ix2 p q := ⟨y 0, y 1, eq_ix2 y⟩
  rw [pay]
  subst h1
  exact mm_rows A x0 x1 ρ h0 p q

/-- What point t writes back is block t of the whole-array function of the arrays as the launch finds them. -/
theorem flushed_eq (c : Dev nD) (t : Fin cfg4.N) :
    (dat4 V c).flushed 2 t = ((cfg4.win 2).blk t).view.read (Elt Ideal) (mm (V c main_v63) (V c main_arg6)) := by
  show (cfg4.win 2).cut (grid4.coords t) ((dat4 V c).after 2 t) = _
  rw [after4_2]
  unfold out4_2
  rw [View.canon_unit_zero hz]
  simp only [View.ld_unit_zero (S := S10000x16) hz, View.ld_unit_zero (S := S16x2) hz]
  obtain ⟨-, -, -, -, e4, e5⟩ := idx_facts t
  funext j
  refine (point_eq (V c main_v63) (V c main_arg6) (iblk4 V c 0 t) (iblk4 V c 1 t) (rowAt t)
    (fun p k => read0 V c t p k) (read1 V c t) j).trans ?_
  show mm (V c main_v63) (V c main_arg6) (ix2 (rowAt t (j 0)) (j 1))
    = mm (V c main_v63) (V c main_arg6) (((cfg4.win 2).blk t).view.emb j)
  refine congrArg (mm (V c main_v63) (V c main_arg6)) (funext fun a => Fin.ext ?_)
  match a with
  | ⟨0, _⟩ => show t.val * 10000 + (j 0).val = win4_2.index t (0 : Fin 2) * 10000 + 1 * (j 0).val; rw [e4]; omega
  | ⟨1, _⟩ => show (j 1).val = win4_2.index t (1 : Fin 2) * 2 + 1 * (j 1).val; rw [e5]; omega

/-- An index of the result array is in point t's block iff each coordinate is in the block's range on its axis. -/
theorem mem_blk (t : Fin cfg4.N) (i : S200000x2.Idx) :
    i ∈ ((cfg4.win 2).blk t).view.set ↔ ∀ a : Fin 2, win4_2.index t a * S10000x2.size a ≤ (i a).val ∧ (i a).val < win4_2.index t a * S10000x2.size a + S10000x2.size a := by
  show i ∈ ((View.whole main_v64).slice (win4_2.rect t)).set ↔ _
  rw [View.set_slice_whole, Rect.mem_set_unit]
  exact Iff.rfl

/-- Row r of the result lies in the block of point r / 10000: the blocks cover the array. -/
theorem cover (i : S200000x2.Idx) : ∃ t : Fin cfg4.N, (cfg4.win 2).flush t = true ∧ i ∈ ((cfg4.win 2).blk t).view.set := by
  have hi0 : (i 0).val < 200000 := (i 0).isLt
  have hi1 : (i 1).val < 2 := (i 1).isLt
  have hN : cfg4.N = 20 := N_4
  have ht : (i 0).val / 10000 < cfg4.N := by omega
  obtain ⟨-, -, -, -, e4, e5⟩ := idx_facts ⟨(i 0).val / 10000, ht⟩
  refine ⟨⟨(i 0).val / 10000, ht⟩, flush4_2 _, ?_⟩
  rw [mem_blk]
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win4_2.index ⟨(i 0).val / 10000, ht⟩ (1 : Fin 2) * 2 ≤ (i 1).val ∧ (i 1).val < win4_2.index ⟨(i 0).val / 10000, ht⟩ (1 : Fin 2) * 2 + 2
    rw [e5]
    omega

/-- The result array after the launch's write-backs: the whole-array function of the arrays as the launch finds them. -/
theorem final (c : Dev nD) : (dat4 V c).arrAt 2 cfg4.N = mm (V c main_v63) (V c main_arg6) :=
  (dat4 V c).arrAt_eq_of_cover 2 _ (fun t _ => flushed_eq V c t) cover

end Cert.KernelIdeal.Launch4

end
-- ==== Proof.Launch5.lean ====
/-
  The last launch: the last layer's bias and the logarithm of the row-wise softmax, block of 10000 rows by block.

  Entry (p, q) of the result reads row p of the aggregate and the bias row only — the row's largest entry and the
  row's sum of exponentials are functions of that row — so the blocks written back are the rows of the function of the
  whole arrays, and together they cover the result.
-/
import proofs.«158534_j79087527788732_1_alg».proof.Proof.Gen.KernelIdeal.Frame
import proofs.«158534_j79087527788732_1_alg».proof.Proof.LibRowSoftmax

set_option maxRecDepth 16384

noncomputable section

namespace Cert.KernelIdeal.Launch5

open Cert.KernelIdeal Cert.KernelIdeal.Gen Cert.Dense Cert.Gcn
open Idealize.ShloMosaic Idealize.ShloMosaic.TcCoe Idealize.ShloMosaic.ValueIdx Idealize.SL.Sem
open Idealize.ShloMosaic.Pipeline (Dat)

-- the buffers' contents when the launch is entered
variable (V : (c : Dev nD) → (b : Ref sig .tc) → Buf (Elt Ideal) ((c : Thread nD τ).loc b))

theorem hz : (![0, 0] : Fin 2 → Nat) = fun _ => 0 := funext fun a => by fin_cases a <;> rfl

/-- The body's arithmetic: the bias row added to every row of the block, then the logarithm of the row-wise softmax,
    the row maxima and row sums taken by lane reductions kept as columns. -/
theorem pay (x0 : Vec Ideal S10000x2 .f32) (x1 : Vec Ideal S1x2 .f32) : k5_pay1 x0 x1 = biasLogSoftmax x0 x1 :=
  kernel_biasLogSoftmax x0 x1 _ _ _ _ _ _ _ _ _

/-- The printed index maps over the twenty points: the row operand's and the result's block index is (t, 0), the second
    operand's is (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row p of the block at point t is row 10000·t + p of the array. -/
def rowAt (t : Fin cfg5.N) (p : Fin 10000) : Fin 200000 :=
  ⟨t.val * 10000 + p.val, by have := t.isLt; have hN : cfg5.N = 20 := N_5; have := p.isLt; omega⟩

/-- The row operand's block at point t, read at (p, k): the array's entry (10000·t + p, k). -/
theorem read0 (c : Dev nD) (t : Fin cfg5.N) (p : Fin 10000) (k : Fin 2) :
    iblk5 V c 0 t (ix2 p k) = V c main_v77 (ix2 (rowAt t p) k) := by
  obtain ⟨e0, e1, -, -, -, -⟩ := idx_facts t
  show V c main_v77 (((cfg5.win 0).blk t).view.emb (ix2 p k)) = _
  refine congrArg (V c main_v77) (funext fun a => Fin.ext ?_)
  match a with
  | ⟨0, _⟩ => show win5_0.index t (0 : Fin 2) * 10000 + 1 * p.val = t.val * 10000 + p.val; rw [e0]; omega
  | ⟨1, _⟩ => show win5_0.index t (1 : Fin 2) * 2 + 1 * k.val = k.val; rw [e1]; omega

/-- The bias window's block is the whole one-row bias at every point. -/
theorem read1 (c : Dev nD) (t : Fin cfg5.N) : iblk5 V c 1 t = V c main_v78 := by
  obtain ⟨-, -, e2, e3, -, -⟩ := idx_facts t
  funext y
  show V c main_v78 (((cfg5.win 1).blk t).view.emb y) = V c main_v78 y
  refine congrArg (V c main_v78) (funext fun a => Fin.ext ?_)
  match a with
  | ⟨0, _⟩ => show win5_1.index t (0 : Fin 2) * 1 + 1 * (y 0).val = (y 0).val; rw [e2]; omega
  | ⟨1, _⟩ => show win5_1.index t (1 : Fin 2) * 2 + 1 * (y 1).val = (y 1).val; rw [e3]; omega

/-- The body's result at a point, entry by entry: the whole-array function at the block's rows. -/
theorem point_eq (A : S200000x2.Idx → EReal) (W : S1x2.Idx → EReal) (x0 : Vec Ideal S10000x2 .f32) (x1 : Vec Ideal S1x2 .f32)
    (ρ : Fin 10000 → Fin 200000) (h0 : ∀ p k, x0 (ix2 p k) = A (ix2 (ρ p) k)) (h1 : x1 = W) (y : S10000x2.Idx) :
    k5_pay1 x0 x1 y = biasLogSoftmax A W (ix2 (ρ (y 0)) (y 1)) := by
  obtain ⟨p, q, rfl⟩ : ∃ (p : Fin 10000) (q : Fin 2), y = ix2 p q := ⟨y 0, y 1, eq_ix2 y⟩
  rw [pay]
  subst h1
  exact biasLogSoftmax_rows A x0 x1 ρ h0 p q

/-- What point t writes back is block t of the whole-array function of the arrays as the launch finds them. -/
theorem flushed_eq (c : Dev nD) (t : Fin cfg5.N) :
    (dat5 V c).flushed 2 t = ((cfg5.win 2).blk t).view.read (Elt Ideal) (biasLogSoftmax (V c main_v77) (V c main_v78)) := by
  show (cfg5.win 2).cut (grid5.coords t) ((dat5 V c).after 2 t) = _
  rw [after5_2]
  unfold out5_2
  rw [View.canon_unit_zero hz]
  simp only [View.ld_unit_zero (S := S10000x2) hz, View.ld_unit_zero (S := S1x2) hz]
  obtain ⟨-, -, -, -, e4, e5⟩ := idx_facts t
  funext j
  refine (point_eq (V c main_v77) (V c main_v78) (iblk5 V c 0 t) (iblk5 V c 1 t) (rowAt t)
    (fun p k => read0 V c t p k) (read1 V c t) j).trans ?_
  show biasLogSoftmax (V c main_v77) (V c main_v78) (ix2 (rowAt t (j 0)) (j 1))
    = biasLogSoftmax (V c main_v77) (V c main_v78) (((cfg5.win 2).blk t).view.emb j)
  refine congrArg (biasLogSoftmax (V c main_v77) (V c main_v78)) (funext fun a => Fin.ext ?_)
  match a with
  | ⟨0, _⟩ => show t.val * 10000 + (j 0).val = win5_2.index t (0 : Fin 2) * 10000 + 1 * (j 0).val; rw [e4]; omega
  | ⟨1, _⟩ => show (j 1).val = win5_2.index t (1 : Fin 2) * 2 + 1 * (j 1).val; rw [e5]; omega

/-- An index of the result array is in point t's block iff each coordinate is in the block's range on its axis. -/
theorem mem_blk (t : Fin cfg5.N) (i : S200000x2.Idx) :
    i ∈ ((cfg5.win 2).blk t).view.set ↔ ∀ a : Fin 2, win5_2.index t a * S10000x2.size a ≤ (i a).val ∧ (i a).val < win5_2.index t a * S10000x2.size a + S10000x2.size a := by
  show i ∈ ((View.whole main_v79).slice (win5_2.rect t)).set ↔ _
  rw [View.set_slice_whole, Rect.mem_set_unit]
  exact Iff.rfl

/-- Row r of the result lies in the block of point r / 10000: the blocks cover the array. -/
theorem cover (i : S200000x2.Idx) : ∃ t : Fin cfg5.N, (cfg5.win 2).flush t = true ∧ i ∈ ((cfg5.win 2).blk t).view.set := by
  have hi0 : (i 0).val < 200000 := (i 0).isLt
  have hi1 : (i 1).val < 2 := (i 1).isLt
  have hN : cfg5.N = 20 := N_5
  have ht : (i 0).val / 10000 < cfg5.N := by omega
  obtain ⟨-, -, -, -, e4, e5⟩ := idx_facts ⟨(i 0).val / 10000, ht⟩
  refine ⟨⟨(i 0).val / 10000, ht⟩, flush5_2 _, ?_⟩
  rw [mem_blk]
  intro a
  match a with
  | ⟨0, _⟩ =>
    show win5_2.index ⟨(i 0).val / 10000, ht⟩ (0 : Fin 2) * 10000 ≤ (i 0).val ∧ (i 0).val < win5_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win5_2.index ⟨(i 0).val / 10000, ht⟩ (1 : Fin 2) * 2 ≤ (i 1).val ∧ (i 1).val < win5_2.index ⟨(i 0).val / 10000, ht⟩ (1 : Fin 2) * 2 + 2
    rw [e5]
    omega

/-- The result array after the launch's write-backs: the whole-array function of the arrays as the launch finds them. -/
theorem final (c : Dev nD) : (dat5 V c).arrAt 2 cfg5.N = biasLogSoftmax (V c main_v77) (V c main_v78) :=
  (dat5 V c).arrAt_eq_of_cover 2 _ (fun t _ => flushed_eq V c t) cover

end Cert.KernelIdeal.Launch5

end
-- ==== Proof.KernelHost.lean ====
/-
  The kernel program's host stretches, read at the buffers the launches take.

  Before the first launch the program builds the edge tables (sources and targets with the self-loops appended) and the
  edge weights from the edge-index argument by the same operations as the reference; after each matrix-product launch it
  aggregates the product over the edges and lays the layer's bias vector out as one row. Each is stated from ANY contents
  of the buffers the stretch reads, so that it applies at every boundary of the run.
-/
import proofs.«158534_j79087527788732_1_alg».proof.Proof.Gen.KernelIdeal.Launch
import proofs.«158534_j79087527788732_1_alg».proof.Proof.RefRead
import proofs.«158534_j79087527788732_1_alg».proof.Proof.GcnGraph

set_option maxRecDepth 16384

noncomputable section

namespace Cert.KernelIdeal.HostSide

open Cert.KernelIdeal Cert.KernelIdeal.Gen Cert.Gcn
open Idealize.ShloMosaic Idealize.ShloMosaic.TcCoe Idealize.ShloMosaic.StableHlo Idealize.SL.Sem

variable (Wv : Valuation τ sig (Elt Ideal))

/-- The contents after the three stretches that precede the first launch. -/
abbrev pre : Valuation τ sig (Elt Ideal) :=
  after (hostOps0_2 (F := Ideal)) (after (hostOps0_1 (F := Ideal)) (after (hostOps0 (F := Ideal)) Wv))

/-- The source table is the reference's function of the edge index. -/
theorem pre_src : pre Wv (Proc.devRef .tc main_v5)
    = Cert.ReferenceIdeal.Read.val_main_v5 (F := Ideal) (Wv (Proc.devRef .tc main_arg1)) := by
  dsimp only [pre, hostOps0, hostOps0_1, hostOps0_2]
  after_results_simp <;> rfl

/-- The target table is the reference's function of the edge index. -/
theorem pre_dst : pre Wv (Proc.devRef .tc main_v6)
    = Cert.ReferenceIdeal.Read.val_main_v6 (F := Ideal) (Wv (Proc.devRef .tc main_arg1)) := by
  dsimp only [pre, hostOps0, hostOps0_1, hostOps0_2]
  after_results_simp <;> rfl

/-- The first seven operations of the first stretch: the two edge tables. -/
abbrev headOps {F : FTy → Type} [FloatOps F] : List (HloOp τ sig (Elt F)) :=
  [ StableHlo.unary main_arg1 main_v0 ((extractStridedSlice S1x5000000 ![0, 0] · slices_S2x5000000_S1x5000000_0_0) : (⟨S2x5000000, .i32⟩ : BufTy).Contents (Elt F) → (⟨S1x5000000, .i32⟩ : BufTy).Contents (Elt F)),
    StableHlo.reshape main_v0 main_v1 rfl shapeCasts_S1x5000000_S5000000,
    StableHlo.unary main_arg1 main_v2 ((extractStridedSlice S1x5000000 ![1, 0] · slices_S2x5000000_S1x5000000_1_0) : (⟨S2x5000000, .i32⟩ : BufTy).Contents (Elt F) → (⟨S1x5000000, .i32⟩ : BufTy).Contents (Elt F)),
    StableHlo.reshape main_v2 main_v3 rfl shapeCasts_S1x5000000_S5000000,
    StableHlo.nullary main_v4 (iotaInDim S200000 32 0),
    StableHlo.binary main_v1 main_v4 main_v5 ((fun a b => concatenate S5200000 0 [⟨S5000000, a⟩, ⟨S200000, b⟩] concatenates_S5000000_S200000_S5200000_d0) : (⟨S5000000, .i32⟩ : BufTy).Contents (Elt F) → (⟨S200000, .i32⟩ : BufTy).Contents (Elt F) → (⟨S5200000, .i32⟩ : BufTy).Contents (Elt F)),
    StableHlo.binary main_v3 main_v4 main_v6 ((fun a b => concatenate S5200000 0 [⟨S5000000, a⟩, ⟨S200000, b⟩] concatenates_S5000000_S200000_S5200000_d0) : (⟨S5000000, .i32⟩ : BufTy).Contents (Elt F) → (⟨S200000, .i32⟩ : BufTy).Contents (Elt F) → (⟨S5200000, .i32⟩ : BufTy).Contents (Elt F)) ]

/-- Its other fourteen: the degrees, the comparison with zero and the inverse square roots. -/
abbrev tailOps {F : FTy → Type} [FloatOps F] : List (HloOp τ sig (Elt F)) :=
  [ StableHlo.nullary main_cst (constant S_ .f32 0x3F800000#32),
    StableHlo.unary main_cst main_v7 (broadcastInDim S5200000 ![] bcast_S_S5200000 : (⟨S_, .f32⟩ : BufTy).Contents (Elt F) → (⟨S5200000, .f32⟩ : BufTy).Contents (Elt F)),
    StableHlo.nullary main_cst_0 (constant S_ .f32 0x00000000#32),
    StableHlo.unary main_cst_0 main_v8 (broadcastInDim S200000 ![] bcast_S_S200000 : (⟨S_, .f32⟩ : BufTy).Contents (Elt F) → (⟨S200000, .f32⟩ : BufTy).Contents (Elt F)),
    StableHlo.unary main_v6 main_v9 (broadcastInDim S5200000x1 ![0] bcast_S5200000_S5200000x1_0 : (⟨S5200000, .i32⟩ : BufTy).Contents (Elt F) → (⟨S5200000x1, .i32⟩ : BufTy).Contents (Elt F)),
    StableHlo.ternary main_v8 main_v9 main_v7 main_v10 ((fun x i u => Host.scatterAdd scatter_S200000_S5200000x1_S5200000_n_0_0_1 x i u) : (⟨S200000, .f32⟩ : BufTy).Contents (Elt F) → (⟨S5200000x1, .i32⟩ : BufTy).Contents (Elt F) → (⟨S5200000, .f32⟩ : BufTy).Contents (Elt F) → (⟨S200000, .f32⟩ : BufTy).Contents (Elt F)),
    StableHlo.nullary main_cst_1 (constant S_ .f32 0x00000000#32),
    StableHlo.unary main_cst_1 main_v11 (broadcastInDim S200000 ![] bcast_S_S200000 : (⟨S_, .f32⟩ : BufTy).Contents (Elt F) → (⟨S200000, .f32⟩ : BufTy).Contents (Elt F)),
    StableHlo.binary main_v10 main_v11 main_v12 (cmpf .ogt : (⟨S200000, .f32⟩ : BufTy).Contents (Elt F) → (⟨S200000, .f32⟩ : BufTy).Contents (Elt F) → (⟨S200000, .i1⟩ : BufTy).Contents (Elt F)),
    StableHlo.nullary main_cst_2 (constant S_ .f32 0x3F800000#32),
    StableHlo.unary main_cst_2 main_v13 (broadcastInDim S200000 ![] bcast_S_S200000 : (⟨S_, .f32⟩ : BufTy).Contents (Elt F) → (⟨S200000, .f32⟩ : BufTy).Contents (Elt F)),
    StableHlo.binary main_v10 main_v13 main_v14 (maximumf : (⟨S200000, .f32⟩ : BufTy).Contents (Elt F) → (⟨S200000, .f32⟩ : BufTy).Contents (Elt F) → (⟨S200000, .f32⟩ : BufTy).Contents (Elt F)),
    StableHlo.unary main_v14 main_v15 (Host.rsqrt : (⟨S200000, .f32⟩ : BufTy).Contents (Elt F) → (⟨S200000, .f32⟩ : BufTy).Contents (Elt F)),
    StableHlo.nullary main_cst_3 (constant S_ .f32 0x00000000#32) ]

/-- The first stretch is the two in turn. -/
theorem hostOps0_split (U : Valuation τ sig (Elt Ideal)) : after (hostOps0 (F := Ideal)) U = after (tailOps (F := Ideal)) (after (headOps (F := Ideal)) U) := rfl

theorem head_src (U : Valuation τ sig (Elt Ideal)) : after (headOps (F := Ideal)) U (Proc.devRef .tc main_v5)
    = Cert.ReferenceIdeal.Read.val_main_v5 (F := Ideal) (U (Proc.devRef .tc main_arg1)) := by
  dsimp only [headOps]
  after_results_simp <;> rfl

theorem head_dst (U : Valuation τ sig (Elt Ideal)) : after (headOps (F := Ideal)) U (Proc.devRef .tc main_v6)
    = Cert.ReferenceIdeal.Read.val_main_v6 (F := Ideal) (U (Proc.devRef .tc main_arg1)) := by
  dsimp only [headOps]
  after_results_simp <;> rfl

/-! A called function's values sit in their buffers through a change of type that is the identity: the buffer's declared type
    is the value's. -/

theorem toBuf_main_cst_3_k (e hd hs) (v : (⟨S_, .f32⟩ : BufTy).Contents (Elt Ideal)) :
    (TRef.of (sig := sig) (T := ⟨S_, .f32⟩) main_cst_3 e hd hs).toBuf v = v := eq_of_heq (cast_heq _ _)
theorem ofBuf_main_cst_3_k (e hd hs) (v : (⟨S_, .f32⟩ : BufTy).Contents (Elt Ideal)) :
    (TRef.of (sig := sig) (T := ⟨S_, .f32⟩) main_cst_3 e hd hs).ofBuf v = v := eq_of_heq (cast_heq _ _)
theorem toBuf_main_call0_v0_k (e hd hs) (v : (⟨S_, .f32⟩ : BufTy).Contents (Elt Ideal)) :
    (TRef.of (sig := sig) (T := ⟨S_, .f32⟩) main_call0_v0 e hd hs).toBuf v = v := eq_of_heq (cast_heq _ _)
theorem ofBuf_main_call0_v0_k (e hd hs) (v : (⟨S_, .f32⟩ : BufTy).Contents (Elt Ideal)) :
    (TRef.of (sig := sig) (T := ⟨S_, .f32⟩) main_call0_v0 e hd hs).ofBuf v = v := eq_of_heq (cast_heq _ _)
theorem toBuf_main_call0_v1_k (e hd hs) (v : (⟨S200000, .f32⟩ : BufTy).Contents (Elt Ideal)) :
    (TRef.of (sig := sig) (T := ⟨S200000, .f32⟩) main_call0_v1 e hd hs).toBuf v = v := eq_of_heq (cast_heq _ _)
theorem ofBuf_main_call0_v1_k (e hd hs) (v : (⟨S200000, .f32⟩ : BufTy).Contents (Elt Ideal)) :
    (TRef.of (sig := sig) (T := ⟨S200000, .f32⟩) main_call0_v1 e hd hs).ofBuf v = v := eq_of_heq (cast_heq _ _)
theorem toBuf_main_v12_k (e hd hs) (v : (⟨S200000, .i1⟩ : BufTy).Contents (Elt Ideal)) :
    (TRef.of (sig := sig) (T := ⟨S200000, .i1⟩) main_v12 e hd hs).toBuf v = v := eq_of_heq (cast_heq _ _)
theorem ofBuf_main_v12_k (e hd hs) (v : (⟨S200000, .i1⟩ : BufTy).Contents (Elt Ideal)) :
    (TRef.of (sig := sig) (T := ⟨S200000, .i1⟩) main_v12 e hd hs).ofBuf v = v := eq_of_heq (cast_heq _ _)
theorem toBuf_main_v15_k (e hd hs) (v : (⟨S200000, .f32⟩ : BufTy).Contents (Elt Ideal)) :
    (TRef.of (sig := sig) (T := ⟨S200000, .f32⟩) main_v15 e hd hs).toBuf v = v := eq_of_heq (cast_heq _ _)
theorem ofBuf_main_v15_k (e hd hs) (v : (⟨S200000, .f32⟩ : BufTy).Contents (Elt Ideal)) :
    (TRef.of (sig := sig) (T := ⟨S200000, .f32⟩) main_v15 e hd hs).ofBuf v = v := eq_of_heq (cast_heq _ _)
theorem toBuf_main_v16_k (e hd hs) (v : (⟨S200000, .f32⟩ : BufTy).Contents (Elt Ideal)) :
    (TRef.of (sig := sig) (T := ⟨S200000, .f32⟩) main_v16 e hd hs).toBuf v = v := eq_of_heq (cast_heq _ _)
theorem ofBuf_main_v16_k (e hd hs) (v : (⟨S200000, .f32⟩ : BufTy).Contents (Elt Ideal)) :
    (TRef.of (sig := sig) (T := ⟨S200000, .f32⟩) main_v16 e hd hs).ofBuf v = v := eq_of_heq (cast_heq _ _)

/-- From the two tables on, the operations up to the first launch leave the reference's edge weights. -/
theorem tail_wgt (U : Valuation τ sig (Elt Ideal)) (x1 : (⟨Cert.ReferenceIdeal.S2x5000000, .i32⟩ : BufTy).Contents (Elt Ideal))
    (h5 : U (Proc.devRef .tc main_v5) = Cert.ReferenceIdeal.Read.val_main_v5 (F := Ideal) x1)
    (h6 : U (Proc.devRef .tc main_v6) = Cert.ReferenceIdeal.Read.val_main_v6 (F := Ideal) x1) :
    after (hostOps0_2 (F := Ideal)) (after (hostOps0_1 (F := Ideal)) (after (tailOps (F := Ideal)) U)) (Proc.devRef .tc main_v31)
      = Cert.ReferenceIdeal.Read.val_main_v31 (F := Ideal) x1 := by
  dsimp only [tailOps, hostOps0_1, hostOps0_2]
  after_results_simp
  simp only [toBuf_main_cst_3_k, ofBuf_main_cst_3_k, toBuf_main_call0_v0_k, ofBuf_main_call0_v0_k, toBuf_main_call0_v1_k, ofBuf_main_call0_v1_k, toBuf_main_v12_k, ofBuf_main_v12_k, toBuf_main_v15_k, ofBuf_main_v15_k, toBuf_main_v16_k, ofBuf_main_v16_k]
  -- the reference's stages of this stretch, opened down to the two tables
  simp only [Cert.ReferenceIdeal.Read.val_main_v31, Cert.ReferenceIdeal.Read.val_main_v30, Cert.ReferenceIdeal.Read.val_main_v29, Cert.ReferenceIdeal.Read.val_main_v28, Cert.ReferenceIdeal.Read.val_main_v27, Cert.ReferenceIdeal.Read.val_main_v26, Cert.ReferenceIdeal.Read.val_main_c_6, Cert.ReferenceIdeal.Read.val_main_v25, Cert.ReferenceIdeal.Read.val_main_v24, Cert.ReferenceIdeal.Read.val_main_c_5, Cert.ReferenceIdeal.Read.val_main_v23, Cert.ReferenceIdeal.Read.val_main_v22, Cert.ReferenceIdeal.Read.val_main_v21, Cert.ReferenceIdeal.Read.val_main_v20, Cert.ReferenceIdeal.Read.val_main_v19, Cert.ReferenceIdeal.Read.val_main_c_4, Cert.ReferenceIdeal.Read.val_main_v18, Cert.ReferenceIdeal.Read.val_main_v17, Cert.ReferenceIdeal.Read.val_main_c, Cert.ReferenceIdeal.Read.val_main_v16, Cert.ReferenceIdeal.Read.val_main_call0_v1, Cert.ReferenceIdeal.Read.val_main_call0_v0, Cert.ReferenceIdeal.Read.val_main_cst_3, Cert.ReferenceIdeal.Read.val_main_v15, Cert.ReferenceIdeal.Read.val_main_v14, Cert.ReferenceIdeal.Read.val_main_v13, Cert.ReferenceIdeal.Read.val_main_cst_2, Cert.ReferenceIdeal.Read.val_main_v12, Cert.ReferenceIdeal.Read.val_main_v11, Cert.ReferenceIdeal.Read.val_main_cst_1, Cert.ReferenceIdeal.Read.val_main_v10, Cert.ReferenceIdeal.Read.val_main_v9, Cert.ReferenceIdeal.Read.val_main_v8, Cert.ReferenceIdeal.Read.val_main_cst_0, Cert.ReferenceIdeal.Read.val_main_v7, Cert.ReferenceIdeal.Read.val_main_cst]
  rw [h5, h6]
  all_goals rfl

/-- The edge weights are the reference's function of the edge index. -/
theorem pre_wgt : pre Wv (Proc.devRef .tc main_v31)
    = Cert.ReferenceIdeal.Read.val_main_v31 (F := Ideal) (Wv (Proc.devRef .tc main_arg1)) := by
  show after (hostOps0_2 (F := Ideal)) (after (hostOps0_1 (F := Ideal)) (after (tailOps (F := Ideal)) (after (headOps (F := Ideal)) Wv))) (Proc.devRef .tc main_v31) = _
  exact tail_wgt (after (headOps (F := Ideal)) Wv) _ (head_src Wv) (head_dst Wv)

/-- After the first launch: the aggregation of its product. -/
theorem conv1_agg : after (hostOps1 (F := Ideal)) Wv (Proc.devRef .tc main_v45)
    = agg16 (Wv (Proc.devRef .tc main_v5)) (Wv (Proc.devRef .tc main_v6)) (Wv (Proc.devRef .tc main_v31)) (Wv (Proc.devRef .tc main_v32)) := by
  dsimp only [hostOps1]
  after_results_simp <;> rfl

/-- … and the first bias as one row. -/
theorem conv1_bias : after (hostOps1 (F := Ideal)) Wv (Proc.devRef .tc main_v46) = rowOf (Wv (Proc.devRef .tc main_arg3)) := by
  dsimp only [hostOps1]
  after_results_simp
  exact shapeCast_row _ _

/-- After the third launch: the aggregation of its product. -/
theorem conv2_agg : after (hostOps3 (F := Ideal)) Wv (Proc.devRef .tc main_v61)
    = agg16 (Wv (Proc.devRef .tc main_v5)) (Wv (Proc.devRef .tc main_v6)) (Wv (Proc.devRef .tc main_v31)) (Wv (Proc.devRef .tc main_v48)) := by
  dsimp only [hostOps3]
  after_results_simp <;> rfl

/-- … and the second bias as one row. -/
theorem conv2_bias : after (hostOps3 (F := Ideal)) Wv (Proc.devRef .tc main_v62) = rowOf (Wv (Proc.devRef .tc main_arg5)) := by
  dsimp only [hostOps3]
  after_results_simp
  exact shapeCast_row _ _

/-- After the fifth launch: the aggregation of its product. -/
theorem conv3_agg : after (hostOps5 (F := Ideal)) Wv (Proc.devRef .tc main_v77)
    = agg2 (Wv (Proc.devRef .tc main_v5)) (Wv (Proc.devRef .tc main_v6)) (Wv (Proc.devRef .tc main_v31)) (Wv (Proc.devRef .tc main_v64)) := by
  dsimp only [hostOps5]
  after_results_simp <;> rfl

/-- … and the last bias as one row. -/
theorem conv3_bias : after (hostOps5 (F := Ideal)) Wv (Proc.devRef .tc main_v78) = rowOf (Wv (Proc.devRef .tc main_arg7)) := by
  dsimp only [hostOps5]
  after_results_simp
  exact shapeCast_row _ _

end Cert.KernelIdeal.HostSide

end
-- ==== Proof.KernelValue.lean ====
/-
  The kernel program's result as the network function.

  The run's last boundary holds, at the result buffer, the last launch's output array. Walking back: each launch's
  output array is its whole-array function of the arrays it finds; each host stretch between launches aggregates the
  product before it and lays out the next bias; the edge tables, the edge weights and the arguments are written by no
  later operation and by no launch, so every boundary that needs them finds them as first computed, or as the program
  started. Composed, the result is the network function of the arguments.
-/
import proofs.«158534_j79087527788732_1_alg».proof.Proof.Gen.KernelIdeal.Frame
import proofs.«158534_j79087527788732_1_alg».proof.Proof.Launch0
import proofs.«158534_j79087527788732_1_alg».proof.Proof.Launch1
import proofs.«158534_j79087527788732_1_alg».proof.Proof.Launch2
import proofs.«158534_j79087527788732_1_alg».proof.Proof.Launch3
import proofs.«158534_j79087527788732_1_alg».proof.Proof.Launch4
import proofs.«158534_j79087527788732_1_alg».proof.Proof.Launch5
import proofs.«158534_j79087527788732_1_alg».proof.Proof.KernelHost

set_option maxRecDepth 16384

noncomputable section

namespace Cert.KernelIdeal.Whole

open Cert.KernelIdeal Cert.KernelIdeal.Gen Cert.KernelIdeal.HostSide Cert.Dense Cert.Gcn
open Idealize.ShloMosaic Idealize.ShloMosaic.TcCoe Idealize.SL.Sem

variable (m : (ℓ : Loc nD τ sig) → Buf (Elt Ideal) ℓ) (ρ : Dev nD → PrngReg) (c : Dev nD)

/-- No operation of a host stretch writes the buffer: one inequality of references per operation. -/
macro "not_written" : tactic => `(tactic| (
  refine List.forall_iff_forall_mem.mp ?_
  simp only [hostOps0, hostOps0_1, hostOps0_2, hostOps1, hostOps3, hostOps5, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## Buffers nothing writes, from one boundary to a later one -/

/-- Through the three stretches before the first launch. -/
theorem at3 (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes) :
    W3 m ρ c (Proc.devRef .tc b) = m ((c : Thread nD τ).loc b) :=
  (StableHlo.after_of_forall_not_mem _ _ h2).trans ((StableHlo.after_of_forall_not_mem _ _ h1).trans
    (StableHlo.after_of_forall_not_mem _ _ h0))

/-- Through the first launch, the stretch after it and the second launch. -/
theorem from4to6 (b : Ref sig .tc) (a1 : ∀ w, Pipeline.arrRef spec1 w ≠ b)
    (h : ∀ op ∈ (hostOps1 : List (HloOp τ sig (Elt Ideal))), Proc.devRef .tc b ∉ op.writes) :
    W6 m ρ c (Proc.devRef .tc b) = W4 m ρ c (Proc.devRef .tc b) :=
  (W6_of_ne m ρ c b a1).trans (StableHlo.after_of_forall_not_mem _ _ h)

theorem from4to7 (b : Ref sig .tc) (a2 : ∀ w, Pipeline.arrRef spec2 w ≠ b) (a1 : ∀ w, Pipeline.arrRef spec1 w ≠ b)
    (h : ∀ op ∈ (hostOps1 : List (HloOp τ sig (Elt Ideal))), Proc.devRef .tc b ∉ op.writes) :
    W7 m ρ c (Proc.devRef .tc b) = W4 m ρ c (Proc.devRef .tc b) :=
  (W7_of_ne m ρ c b a2).trans (from4to6 m ρ c b a1 h)

theorem from7to9 (b : Ref sig .tc) (a3 : ∀ w, Pipeline.arrRef spec3 w ≠ b)
    (h : ∀ op ∈ (hostOps3 : List (HloOp τ sig (Elt Ideal))), Proc.devRef .tc b ∉ op.writes) :
    W9 m ρ c (Proc.devRef .tc b) = W7 m ρ c (Proc.devRef .tc b) :=
  (W9_of_ne m ρ c b a3).trans (StableHlo.after_of_forall_not_mem _ _ h)

theorem from7to10 (b : Ref sig .tc) (a4 : ∀ w, Pipeline.arrRef spec4 w ≠ b) (a3 : ∀ w, Pipeline.arrRef spec3 w ≠ b)
    (h : ∀ op ∈ (hostOps3 : List (HloOp τ sig (Elt Ideal))), Proc.devRef .tc b ∉ op.writes) :
    W10 m ρ c (Proc.devRef .tc b) = W7 m ρ c (Proc.devRef .tc b) :=
  (W10_of_ne m ρ c b a4).trans (from7to9 m ρ c b a3 h)

/-! ## The arguments and the edge data at the boundaries that read them -/

/-- The edge tables and weights: the reference's functions of the edge-index argument. -/
abbrev src := Cert.ReferenceIdeal.Read.val_main_v5 (F := Ideal) (m ((c : Thread nD τ).loc main_arg1))
abbrev dst := Cert.ReferenceIdeal.Read.val_main_v6 (F := Ideal) (m ((c : Thread nD τ).loc main_arg1))
abbrev wgt := Cert.ReferenceIdeal.Read.val_main_v31 (F := Ideal) (m ((c : Thread nD τ).loc main_arg1))

theorem src3 : W3 m ρ c (Proc.devRef .tc main_v5) = src m c := pre_src (W0 m ρ c)
theorem dst3 : W3 m ρ c (Proc.devRef .tc main_v6) = dst m c := pre_dst (W0 m ρ c)
theorem wgt3 : W3 m ρ c (Proc.devRef .tc main_v31) = wgt m c := pre_wgt (W0 m ρ c)

theorem src4 : W4 m ρ c (Proc.devRef .tc main_v5) = src m c := (W4_of_ne m ρ c main_v5 (by decide)).trans (src3 m ρ c)
theorem dst4 : W4 m ρ c (Proc.devRef .tc main_v6) = dst m c := (W4_of_ne m ρ c main_v6 (by decide)).trans (dst3 m ρ c)
theorem wgt4 : W4 m ρ c (Proc.devRef .tc main_v31) = wgt m c := (W4_of_ne m ρ c main_v31 (by decide)).trans (wgt3 m ρ c)

theorem src7 : W7 m ρ c (Proc.devRef .tc main_v5) = src m c :=
  (from4to7 m ρ c main_v5 (by decide) (by decide) (by not_written)).trans (src4 m ρ c)
theorem dst7 : W7 m ρ c (Proc.devRef .tc main_v6) = dst m c :=
  (from4to7 m ρ c main_v6 (by decide) (by decide) (by not_written)).trans (dst4 m ρ c)
theorem wgt7 : W7 m ρ c (Proc.devRef .tc main_v31) = wgt m c :=
  (from4to7 m ρ c main_v31 (by decide) (by decide) (by not_written)).trans (wgt4 m ρ c)

theorem src10 : W10 m ρ c (Proc.devRef .tc main_v5) = src m c :=
  (from7to10 m ρ c main_v5 (by decide) (by decide) (by not_written)).trans (src7 m ρ c)
theorem dst10 : W10 m ρ c (Proc.devRef .tc main_v6) = dst m c :=
  (from7to10 m ρ c main_v6 (by decide) (by decide) (by not_written)).trans (dst7 m ρ c)
theorem wgt10 : W10 m ρ c (Proc.devRef .tc main_v31) = wgt m c :=
  (from7to10 m ρ c main_v31 (by decide) (by decide) (by not_written)).trans (wgt7 m ρ c)

theorem arg0_3 : W3 m ρ c (Proc.devRef .tc main_arg0) = m ((c : Thread nD τ).loc main_arg0) :=
  at3 m ρ c main_arg0 (by not_written) (by not_written) (by not_written)
theorem arg2_3 : W3 m ρ c (Proc.devRef .tc main_arg2) = m ((c : Thread nD τ).loc main_arg2) :=
  at3 m ρ c main_arg2 (by not_written) (by not_written) (by not_written)
theorem arg3_4 : W4 m ρ c (Proc.devRef .tc main_arg3) = m ((c : Thread nD τ).loc main_arg3) :=
  (W4_of_ne m ρ c main_arg3 (by decide)).trans (at3 m ρ c main_arg3 (by not_written) (by not_written) (by not_written))
theorem arg4_6 : W6 m ρ c (Proc.devRef .tc main_arg4) = m ((c : Thread nD τ).loc main_arg4) :=
  (from4to6 m ρ c main_arg4 (by decide) (by not_written)).trans ((W4_of_ne m ρ c main_arg4 (by decide)).trans
    (at3 m ρ c main_arg4 (by not_written) (by not_written) (by not_written)))
theorem arg5_7 : W7 m ρ c (Proc.devRef .tc main_arg5) = m ((c : Thread nD τ).loc main_arg5) :=
  (from4to7 m ρ c main_arg5 (by decide) (by decide) (by not_written)).trans ((W4_of_ne m ρ c main_arg5 (by decide)).trans
    (at3 m ρ c main_arg5 (by not_written) (by not_written) (by not_written)))
theorem arg6_9 : W9 m ρ c (Proc.devRef .tc main_arg6) = m ((c : Thread nD τ).loc main_arg6) :=
  (from7to9 m ρ c main_arg6 (by decide) (by not_written)).trans
    ((from4to7 m ρ c main_arg6 (by decide) (by decide) (by not_written)).trans ((W4_of_ne m ρ c main_arg6 (by decide)).trans
      (at3 m ρ c main_arg6 (by not_written) (by not_written) (by not_written))))
theorem arg7_10 : W10 m ρ c (Proc.devRef .tc main_arg7) = m ((c : Thread nD τ).loc main_arg7) :=
  (from7to10 m ρ c main_arg7 (by decide) (by decide) (by not_written)).trans
    ((from4to7 m ρ c main_arg7 (by decide) (by decide) (by not_written)).trans ((W4_of_ne m ρ c main_arg7 (by decide)).trans
      (at3 m ρ c main_arg7 (by not_written) (by not_written) (by not_written))))

/-! ## The layers, boundary by boundary -/

/-- The first product, after the first launch. -/
theorem prod1 : W4 m ρ c (Proc.devRef .tc main_v32)
    = mm (m ((c : Thread nD τ).loc main_arg0)) (m ((c : Thread nD τ).loc main_arg2)) :=
  (W4_arr m ρ c 2).trans ((Launch0.final (V3 m ρ) c).trans (congr (congrArg mm (arg0_3 m ρ c)) (arg2_3 m ρ c)))

/-- The first layer's activations, after the second launch. -/
theorem act1 : W6 m ρ c (Proc.devRef .tc main_v47)
    = biasRelu (agg16 (src m c) (dst m c) (wgt m c) (mm (m ((c : Thread nD τ).loc main_arg0)) (m ((c : Thread nD τ).loc main_arg2))))
        (rowOf (m ((c : Thread nD τ).loc main_arg3))) :=
  (W6_arr m ρ c 2).trans ((Launch1.final (V5 m ρ) c).trans (congr (congrArg biasRelu
    ((conv1_agg (W4 m ρ c)).trans (congr (congr (congr (congrArg agg16 (src4 m ρ c)) (dst4 m ρ c)) (wgt4 m ρ c)) (prod1 m ρ c))))
    ((conv1_bias (W4 m ρ c)).trans (congrArg rowOf (arg3_4 m ρ c)))))

/-- The second product, after the third launch. -/
theorem prod2 : W7 m ρ c (Proc.devRef .tc main_v48)
    = mm (biasRelu (agg16 (src m c) (dst m c) (wgt m c) (mm (m ((c : Thread nD τ).loc main_arg0)) (m ((c : Thread nD τ).loc main_arg2))))
        (rowOf (m ((c : Thread nD τ).loc main_arg3)))) (m ((c : Thread nD τ).loc main_arg4)) :=
  (W7_arr m ρ c 2).trans ((Launch2.final (V6 m ρ) c).trans (congr (congrArg mm (act1 m ρ c)) (arg4_6 m ρ c)))

/-- The second layer's activations, after the fourth launch. -/
theorem act2 : W9 m ρ c (Proc.devRef .tc main_v63)
    = biasRelu (agg16 (src m c) (dst m c) (wgt m c) (mm (biasRelu (agg16 (src m c) (dst m c) (wgt m c) (mm (m ((c : Thread nD τ).loc main_arg0)) (m ((c : Thread nD τ).loc main_arg2))))
        (rowOf (m ((c : Thread nD τ).loc main_arg3)))) (m ((c : Thread nD τ).loc main_arg4))))
        (rowOf (m ((c : Thread nD τ).loc main_arg5))) :=
  (W9_arr m ρ c 2).trans ((Launch3.final (V8 m ρ) c).trans (congr (congrArg biasRelu
    ((conv2_agg (W7 m ρ c)).trans (congr (congr (congr (congrArg agg16 (src7 m ρ c)) (dst7 m ρ c)) (wgt7 m ρ c)) (prod2 m ρ c))))
    ((conv2_bias (W7 m ρ c)).trans (congrArg rowOf (arg5_7 m ρ c)))))

/-- The last product, after the fifth launch. -/
theorem prod3 : W10 m ρ c (Proc.devRef .tc main_v64)
    = mm (biasRelu (agg16 (src m c) (dst m c) (wgt m c) (mm (biasRelu (agg16 (src m c) (dst m c) (wgt m c) (mm (m ((c : Thread nD τ).loc main_arg0)) (m ((c : Thread nD τ).loc main_arg2))))
        (rowOf (m ((c : Thread nD τ).loc main_arg3)))) (m ((c : Thread nD τ).loc main_arg4))))
        (rowOf (m ((c : Thread nD τ).loc main_arg5)))) (m ((c : Thread nD τ).loc main_arg6)) :=
  (W10_arr m ρ c 2).trans ((Launch4.final (V9 m ρ) c).trans (congr (congrArg mm (act2 m ρ c)) (arg6_9 m ρ c)))

/-- The result buffer at the last boundary is the network function of the arguments. -/
theorem result : W12 m ρ c (Proc.devRef .tc main_v79)
    = net (src m c) (dst m c) (wgt m c) (m ((c : Thread nD τ).loc main_arg0)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (W12_arr m ρ c 2).trans ((Launch5.final (V11 m ρ) c).trans (congr (congrArg biasLogSoftmax
    ((conv3_agg (W10 m ρ c)).trans (congr (congr (congr (congrArg agg2 (src10 m ρ c)) (dst10 m ρ c)) (wgt10 m ρ c)) (prod3 m ρ c))))
    ((conv3_bias (W10 m ρ c)).trans (congrArg rowOf (arg7_10 m ρ c)))))

end Cert.KernelIdeal.Whole

end
-- ==== Proof.lean ====
/-
  A three-layer graph-convolution network computed by six launches among host operations, against the same network
  written with host operations only: equal results on the extended reals.

  Both programs build the edge tables and edge weights from the edge-index argument by the same operations, and both
  aggregate over the edges by the same gather, scaling and scatter-add. They differ in the dense pieces: the kernel
  program computes each matrix product, each bias-and-rectifier and the final bias-and-log-softmax in a launch over
  twenty blocks of 10000 rows, where the reference uses one general dot product, broadcasts and reductions on the whole
  arrays. On the extended reals a change of float format is the identity, a product into a zero accumulator and a general
  dot product are the same sum, and every dense piece reads entry (p, q) of its result from row p of its matrix operand
  only; so each launch leaves the whole-array function of its operands, and both programs end at one function of the
  arguments (`Cert.Gcn.net`). No law used needs a finite operand, so the precondition is never opened.
-/
import proofs.«158534_j79087527788732_1_alg».proof.Defs
import proofs.«158534_j79087527788732_1_alg».proof.Proof.Gen.Kernel
import proofs.«158534_j79087527788732_1_alg».proof.Proof.Gen.Kernel.Frame
import proofs.«158534_j79087527788732_1_alg».proof.Proof.Gen.KernelIdeal
import proofs.«158534_j79087527788732_1_alg».proof.Proof.Gen.KernelIdeal.Frame
import proofs.«158534_j79087527788732_1_alg».proof.Proof.Gen.ReferenceIdeal
import proofs.«158534_j79087527788732_1_alg».proof.Proof.Gen.Pre_finite_inputs
import proofs.«158534_j79087527788732_1_alg».proof.Proof.RefRun
import proofs.«158534_j79087527788732_1_alg».proof.Proof.RefRead
import proofs.«158534_j79087527788732_1_alg».proof.Proof.RefSide
import proofs.«158534_j79087527788732_1_alg».proof.Proof.KernelRun
import proofs.«158534_j79087527788732_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run m ρ)

/-- The idealization rewrote nothing. -/
theorem preserves : Cert.preserves_Kernel_KernelIdeal := trivial

/-- Both programs end at the network function of the arguments. -/
theorem algebraic : Cert.algebraic_KernelIdeal_ReferenceIdeal := by
  intro m ρ m' ρ' _ hagree
  refine ⟨fun c => Cert.Gcn.net (Cert.KernelIdeal.Whole.src m c) (Cert.KernelIdeal.Whole.dst m c) (Cert.KernelIdeal.Whole.wgt m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.result m ρ c), (h c).2⟩) (Cert.KernelIdeal.Whole.run m ρ)
  · refine (θ_run Cert.ReferenceIdeal.defs _ _).mono (fun r h c => ⟨(h c).1.trans ?_, (h c).2⟩)
      (Cert.ReferenceIdeal.Value.run m' ρ')
    obtain ⟨e0, e1, e2, e3, e4, e5, e6, e7⟩ := hagree c
    rw [Cert.ReferenceIdeal.RefValue.result_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
